-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S2000000x16 : Shape := ⟨2, ![2000000, 16]⟩
abbrev S_ : Shape := ⟨0, ![]⟩
abbrev S2000000x1 : Shape := ⟨2, ![2000000, 1]⟩
abbrev S2000000 : Shape := ⟨1, ![2000000]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel
  slices_S2000000x4_S2000000x1_0_0 : S2000000x4.Slices ![0, 0] S2000000x1
  shapeCasts_S2000000x1_S2000000 : S2000000x1.ShapeCasts S2000000
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : IVec S2000000x4 32) (main_arg1 : FVec F S2000000x16 .f32) : IVec S_ 1 :=
  let main_v0 : FVec F S2000000x16 .f32 := Host.absf main_arg1
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : IVec S2000000x1 32 := (extractStridedSlice S2000000x1 ![0, 0] · slices_S2000000x4_S2000000x1_0_0) main_arg0
  let main_v5 : IVec S2000000 32 := shapeCast S2000000 main_v4 shapeCasts_S2000000x1_S2000000
  let main_c_0 : IVec S_ 32 := constantI S_ 32 0#32
  let main_v6 : IVec S2000000 32 := broadcastInDim S2000000 ![] bcast_S_S2000000 main_c_0
  let main_v7 : IVec S2000000 1 := cmpi .sge main_v5 main_v6
  let main_v8 : IVec S2000000x1 32 := (extractStridedSlice S2000000x1 ![0, 0] · slices_S2000000x4_S2000000x1_0_0) main_arg0
  let main_v9 : IVec S2000000 32 := shapeCast S2000000 main_v8 shapeCasts_S2000000x1_S2000000
  let main_c_1 : IVec S_ 32 := constantI S_ 32 4#32
  let main_v10 : IVec S2000000 32 := broadcastInDim S2000000 ![] bcast_S_S2000000 main_c_1
  let main_v11 : IVec S2000000 1 := cmpi .slt main_v9 main_v10
  let main_v12 : IVec S2000000 1 := andi main_v7 main_v11
  let main_c_2 : IVec S_ 1 := constantI S_ 1 1#1
  let main_v13 : IVec S_ 1 := (fun x v => Host.reduce IntOp.andi x v reducesTo_S2000000_S_d0 h_S_) main_v12 main_c_2
  let main_v14 : IVec S_ 1 := andi main_v3 main_v13
  main_v14
-- ==== Kernel.lean ====
abbrev S2000000x4 : Shape := ⟨2, ![2000000, 4]⟩
abbrev S2000000x16 : Shape := ⟨2, ![2000000, 16]⟩
abbrev S3 : Shape := ⟨1, ![3]⟩
abbrev S_ : Shape := ⟨0, ![]⟩
abbrev S2015232x4 : Shape := ⟨2, ![2015232, 4]⟩
abbrev S2015232x16 : Shape := ⟨2, ![2015232, 16]⟩
abbrev S251904x32 : Shape := ⟨2, ![251904, 32]⟩
abbrev S251904x128 : Shape := ⟨2, ![251904, 128]⟩
abbrev S2048x32 : Shape := ⟨2, ![2048, 32]⟩
abbrev S2048x128 : Shape := ⟨2, ![2048, 128]⟩
abbrev S2048x4 : Shape := ⟨2, ![2048, 4]⟩
abbrev S2048x1 : Shape := ⟨2, ![2048, 1]⟩
abbrev S2048x16 : Shape := ⟨2, ![2048, 16]⟩
abbrev S2015232x3 : Shape := ⟨2, ![2015232, 3]⟩
abbrev S1x3 : Shape := ⟨2, ![1, 3]⟩
abbrev S2015232 : Shape := ⟨1, ![2015232]⟩
abbrev S2015232x1 : Shape := ⟨2, ![2015232, 1]⟩
abbrev S8388608x16 : Shape := ⟨2, ![8388608, 16]⟩
abbrev S4x128x128x128x16 : Shape := ⟨5, ![4, 128, 128, 128, 16]⟩
abbrev S4x16x128x128x128 : Shape := ⟨5, ![4, 16, 128, 128, 128]⟩

abbrev nBuf : Space → Nat
  | .hbm => 77
  | .vmem => 6
  | .smem => 0
  | _ => 0

abbrev bufTy : (tb : Table) → Fin (tcTables nBuf tb) → BufTy
  | .hbm, ⟨0, _⟩ => ⟨S2000000x4, .i32⟩
  | .hbm, ⟨1, _⟩ => ⟨S2000000x16, .f32⟩
  | .hbm, ⟨2, _⟩ => ⟨S3, .i32⟩
  | .hbm, ⟨3, _⟩ => ⟨S_, .i32⟩
  | .hbm, ⟨4, _⟩ => ⟨S_, .i32⟩
  | .hbm, ⟨5, _⟩ => ⟨S2015232x4, .i32⟩
  | .hbm, ⟨6, _⟩ => ⟨S_, .f32⟩
  | .hbm, ⟨7, _⟩ => ⟨S_, .f32⟩
  | .hbm, ⟨8, _⟩ => ⟨S2015232x16, .f32⟩
  | .hbm, ⟨9, _⟩ => ⟨S251904x32, .i32⟩
  | .hbm, ⟨10, _⟩ => ⟨S251904x128, .f32⟩
  | .hbm, ⟨11, _⟩ => ⟨S251904x128, .f32⟩
  | .hbm, ⟨12, _⟩ => ⟨S2015232x16, .f32⟩
  | .hbm, ⟨13, _⟩ => ⟨S2015232x3, .i32⟩
  | .hbm, ⟨14, _⟩ => ⟨S_, .i32⟩
  | .hbm, ⟨15, _⟩ => ⟨S2015232x3, .i32⟩
  | .hbm, ⟨16, _⟩ => ⟨S2015232x3, .i1⟩
  | .hbm, ⟨17, _⟩ => ⟨S1x3, .i32⟩
  | .hbm, ⟨18, _⟩ => ⟨S2015232x3, .i32⟩
  | .hbm, ⟨19, _⟩ => ⟨S2015232x3, .i1⟩
  | .hbm, ⟨20, _⟩ => ⟨S2015232x3, .i1⟩
  | .hbm, ⟨21, _⟩ => ⟨S_, .i1⟩
  | .hbm, ⟨22, _⟩ => ⟨S2015232, .i1⟩
  | .hbm, ⟨23, _⟩ => ⟨S2015232x1, .i1⟩
  | .hbm, ⟨24, _⟩ => ⟨S_, .i32⟩
  | .hbm, ⟨25, _⟩ => ⟨S_, .i32⟩
  | .hbm, ⟨26, _⟩ => ⟨S2015232x3, .i32⟩
  | .hbm, ⟨27, _⟩ => ⟨S2015232x3, .i32⟩
  | .hbm, ⟨28, _⟩ => ⟨S2015232x3, .i32⟩
  | .hbm, ⟨29, _⟩ => ⟨S_, .i32⟩
  | .hbm, ⟨30, _⟩ => ⟨S2015232x3, .i32⟩
  | .hbm, ⟨31, _⟩ => ⟨S2015232x3, .i1⟩
  | .hbm, ⟨32, _⟩ => ⟨S2015232x3, .i32⟩
  | .hbm, ⟨33, _⟩ => ⟨S2015232x3, .i32⟩
  | .hbm, ⟨34, _⟩ => ⟨S_, .i32⟩
  | .hbm, ⟨35, _⟩ => ⟨S2015232x3, .i32⟩
  | .hbm, ⟨36, _⟩ => ⟨S2015232x3, .i1⟩
  | .hbm, ⟨37, _⟩ => ⟨S2015232x3, .i1⟩
  | .hbm, ⟨38, _⟩ => ⟨S_, .i32⟩
  | .hbm, ⟨39, _⟩ => ⟨S2015232x3, .i32⟩
  | .hbm, ⟨40, _⟩ => ⟨S2015232x3, .i32⟩
  | .hbm, ⟨41, _⟩ => ⟨S2015232x3, .i32⟩
  | .hbm, ⟨42, _⟩ => ⟨S_, .i32⟩
  | .hbm, ⟨43, _⟩ => ⟨S_, .i32⟩
  | .hbm, ⟨44, _⟩ => ⟨S2015232x3, .i1⟩
  | .hbm, ⟨45, _⟩ => ⟨S2015232x3, .i32⟩
  | .hbm, ⟨46, _⟩ => ⟨S2015232x3, .i32⟩
  | .hbm, ⟨47, _⟩ => ⟨S2015232x1, .i32⟩
  | .hbm, ⟨48, _⟩ => ⟨S2015232, .i32⟩
  | .hbm, ⟨49, _⟩ => ⟨S_, .i32⟩
  | .hbm, ⟨50, _⟩ => ⟨S_, .i32⟩
  | .hbm, ⟨51, _⟩ => ⟨S2015232, .i32⟩
  | .hbm, ⟨52, _⟩ => ⟨S2015232, .i32⟩
  | .hbm, ⟨53, _⟩ => ⟨S_, .i32⟩
  | .hbm, ⟨54, _⟩ => ⟨S2015232, .i32⟩
  | .hbm, ⟨55, _⟩ => ⟨S2015232, .i32⟩
  | .hbm, ⟨56, _⟩ => ⟨S2015232x1, .i32⟩
  | .hbm, ⟨57, _⟩ => ⟨S2015232, .i32⟩
  | .hbm, ⟨58, _⟩ => ⟨S_, .i32⟩
  | .hbm, ⟨59, _⟩ => ⟨S2015232, .i32⟩
  | .hbm, ⟨60, _⟩ => ⟨S2015232, .i32⟩
  | .hbm, ⟨61, _⟩ => ⟨S2015232, .i32⟩
  | .hbm, ⟨62, _⟩ => ⟨S2015232x1, .i32⟩
  | .hbm, ⟨63, _⟩ => ⟨S2015232, .i32⟩
  | .hbm, ⟨64, _⟩ => ⟨S_, .i32⟩
  | .hbm, ⟨65, _⟩ => ⟨S2015232, .i32⟩
  | .hbm, ⟨66, _⟩ => ⟨S2015232, .i32⟩
  | .hbm, ⟨67, _⟩ => ⟨S2015232, .i32⟩
  | .hbm, ⟨68, _⟩ => ⟨S2015232x1, .i32⟩
  | .hbm, ⟨69, _⟩ => ⟨S2015232, .i32⟩
  | .hbm, ⟨70, _⟩ => ⟨S2015232, .i32⟩
  | .hbm, ⟨71, _⟩ => ⟨S_, .f32⟩
  | .hbm, ⟨72, _⟩ => ⟨S8388608x16, .f32⟩
  | .hbm, ⟨73, _⟩ => ⟨S2015232x1, .i32⟩
  | .hbm, ⟨74, _⟩ => ⟨S8388608x16, .f32⟩
  | .hbm, ⟨75, _⟩ => ⟨S4x128x128x128x16, .f32⟩
  | .hbm, ⟨76, _⟩ => ⟨S4x16x128x128x128, .f32⟩
  | .local _ .vmem, ⟨0, _⟩ => ⟨S2048x32, .i32⟩
  | .local _ .vmem, ⟨1, _⟩ => ⟨S2048x32, .i32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S2000000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v15 : Ref sig .tc := ⟨.hbm, 41, rfl⟩
abbrev main_c_4 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_call4_v0 : Ref sig .tc := ⟨.hbm, 50, rfl⟩
abbrev main_call4_v1 : Ref sig .tc := ⟨.hbm, 51, rfl⟩
abbrev main_v19 : Ref sig .tc := ⟨.hbm, 52, rfl⟩
abbrev main_c_6 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_9 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S2000000x4_S2015232x4_0152320_000 : S2000000x4.Pads (![0, 0] : Fin 2 → Nat) ![15232, 0] ![0, 0] S2015232x4
  h_S_ : 0 < S_.numel
  pads_S2000000x16_S2015232x16_0152320_000 : S2000000x16.Pads (![0, 0] : Fin 2 → Nat) ![15232, 0] ![0, 0] S2015232x16
  shapeCasts_S2015232x4_S251904x32 : S2015232x4.ShapeCasts S251904x32
  shapeCasts_S2015232x16_S251904x128 : S2015232x16.ShapeCasts S251904x128
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x32_o0_0_S2048x4 : S2048x32.Slices ![0, 0] S2048x4
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  natLt_1_32 : 1 < 32
  shapeCasts_S2048x1_S2048x1 : S2048x1.ShapeCasts S2048x1
  broadcasts_S2048x1_S2048x16 : S2048x1.Broadcasts S2048x16
  slices_S2048x32_o0_4_S2048x4 : S2048x32.Slices ![0, 4] S2048x4
  slices_S2048x32_o0_8_S2048x4 : S2048x32.Slices ![0, 8] S2048x4
  slices_S2048x32_o0_12_S2048x4 : S2048x32.Slices ![0, 12] S2048x4
  slices_S2048x32_o0_16_S2048x4 : S2048x32.Slices ![0, 16] S2048x4
  slices_S2048x32_o0_20_S2048x4 : S2048x32.Slices ![0, 20] S2048x4
  slices_S2048x32_o0_24_S2048x4 : S2048x32.Slices ![0, 24] S2048x4
  slices_S2048x32_o0_28_S2048x4 : S2048x32.Slices ![0, 28] S2048x4
  concatenates_S2048x16_S2048x16_S2048x16_S2048x16_S2048x16_S2048x16_S2048x16_S2048x16_S2048x128_d1 : Shape.Concatenates [S2048x16, S2048x16, S2048x16, S2048x16, S2048x16, S2048x16, S2048x16, S2048x16] S2048x128 1
  shapeCasts_S251904x128_S2015232x16 : S251904x128.ShapeCasts S2015232x16
  slices_S2015232x4_S2015232x3_0_1 : S2015232x4.Slices ![0, 1] S2015232x3
  bcast_S_S2015232x3 : S_.BroadcastsInDim S2015232x3 (![] : Fin 0 → Fin S2015232x3.rank)
  bcast_S3_S1x3_1 : S3.BroadcastsInDim S1x3 (![1] : Fin 1 → Fin S1x3.rank)
  bcast_S1x3_S2015232x3_0_1 : S1x3.BroadcastsInDim S2015232x3 (![0, 1] : Fin 2 → Fin S2015232x3.rank)
  reducesTo_S2015232x3_S2015232_d1 : S2015232x3.ReducesTo [1] S2015232
  bcast_S2015232_S2015232x1_0 : S2015232.BroadcastsInDim S2015232x1 (![0] : Fin 1 → Fin S2015232x1.rank)
  bcast_S2015232x1_S2015232x3_0_1 : S2015232x1.BroadcastsInDim S2015232x3 (![0, 1] : Fin 2 → Fin S2015232x3.rank)
  slices_S2015232x4_S2015232x1_0_0 : S2015232x4.Slices ![0, 0] S2015232x1
  shapeCasts_S2015232x1_S2015232 : S2015232x1.ShapeCasts S2015232
  bcast_S_S2015232 : S_.BroadcastsInDim S2015232 (![] : Fin 0 → Fin S2015232.rank)
  slices_S2015232x3_S2015232x1_0_0 : S2015232x3.Slices ![0, 0] S2015232x1
  slices_S2015232x3_S2015232x1_0_1 : S2015232x3.Slices ![0, 1] S2015232x1
  slices_S2015232x3_S2015232x1_0_2 : S2015232x3.Slices ![0, 2] S2015232x1
  bcast_S_S8388608x16 : S_.BroadcastsInDim S8388608x16 (![] : Fin 0 → Fin S8388608x16.rank)
  shapeCasts_S8388608x16_S4x128x128x128x16 : S8388608x16.ShapeCasts S4x128x128x128x16
  transposes_S4x128x128x128x16_S4x16x128x128x128_0_4_1_2_3 : S4x128x128x128x16.Transposes [0, 4, 1, 2, 3] S4x16x128x128x128
  scatter_S8388608x16_S2015232x1_S2015232x16_1_0_0_1_wf : ScatterDims.WF S8388608x16 S2015232x1 S2015232x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S251904x32.size a
  hwx0_0 : ∀ i : grid0.Coords, EltTy.bits .i32 = 32 ∨ (Rect.block (s := S251904x32) S2048x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S251904x128.size a
  hwx0_1 : ∀ i : grid0.Coords, EltTy.bits .f32 = 32 ∨ (Rect.block (s := S251904x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S251904x128.size a
  hwx0_2 : ∀ i : grid0.Coords, EltTy.bits .f32 = 32 ∨ (Rect.block (s := S251904x128) S2048x128.size (cc0_transform_2 i) (hinb0_2 i)).WholeWords (EltTy.packing .f32)

variable [Facts₀]

def scatter_S8388608x16_S2015232x1_S2015232x16_1_0_0_1 : ScatterDims S8388608x16 S2015232x1 S2015232x16 where
  updateWindowDims := [1]
  insertedWindowDims := [0]
  scatterDimsToOperandDims := [0]
  indexVectorDim := 1
  wf := scatter_S8388608x16_S2015232x1_S2015232x16_1_0_0_1_wf

abbrev win0_0 : Pipeline.Window sig grid0 :=
  Pipeline.Window.ofSpec (Memref.whole main_v2) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S2000000x16 : Shape := ⟨2, ![2000000, 16]⟩
abbrev S3 : Shape := ⟨1, ![3]⟩
abbrev S2000000x3 : Shape := ⟨2, ![2000000, 3]⟩
abbrev S_ : Shape := ⟨0, ![]⟩
abbrev S1x3 : Shape := ⟨2, ![1, 3]⟩
abbrev S2000000 : Shape := ⟨1, ![2000000]⟩
abbrev S2000000x1 : Shape := ⟨2, ![2000000, 1]⟩
abbrev S4x128x128x128x16 : Shape := ⟨5, ![4, 128, 128, 128, 16]⟩
abbrev S4x16x128x128x128 : Shape := ⟨5, ![4, 16, 128, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S2000000x4, .i32⟩
  | .hbm, ⟨1, _⟩ => ⟨S2000000x16, .f32⟩
  | .hbm, ⟨2, _⟩ => ⟨S3, .i32⟩
  | .hbm, ⟨3, _⟩ => ⟨S2000000x3, .i32⟩
  | .hbm, ⟨4, _⟩ => ⟨S_, .i32⟩
  | .hbm, ⟨5, _⟩ => ⟨S2000000x3, .i32⟩
  | .hbm, ⟨6, _⟩ => ⟨S2000000x3, .i1⟩
  | .hbm, ⟨7, _⟩ => ⟨S1x3, .i32⟩
  | .hbm, ⟨8, _⟩ => ⟨S2000000x3, .i32⟩
  | .hbm, ⟨9, _⟩ => ⟨S2000000x3, .i1⟩
  | .hbm, ⟨10, _⟩ => ⟨S2000000x3, .i1⟩
  | .hbm, ⟨11, _⟩ => ⟨S_, .i1⟩
  | .hbm, ⟨12, _⟩ => ⟨S2000000, .i1⟩
  | .hbm, ⟨13, _⟩ => ⟨S_, .i32⟩
  | .hbm, ⟨14, _⟩ => ⟨S_, .i32⟩
  | .hbm, ⟨15, _⟩ => ⟨S2000000x3, .i32⟩
  | .hbm, ⟨16, _⟩ => ⟨S2000000x3, .i32⟩
  | .hbm, ⟨17, _⟩ => ⟨S2000000x3, .i32⟩
  | .hbm, ⟨18, _⟩ => ⟨S_, .i32⟩
  | .hbm, ⟨19, _⟩ => ⟨S2000000x3, .i32⟩
  | .hbm, ⟨20, _⟩ => ⟨S2000000x3, .i1⟩
  | .hbm, ⟨21, _⟩ => ⟨S2000000x3, .i32⟩
  | .hbm, ⟨22, _⟩ => ⟨S2000000x3, .i32⟩
  | .hbm, ⟨23, _⟩ => ⟨S_, .i32⟩
  | .hbm, ⟨24, _⟩ => ⟨S2000000x3, .i32⟩
  | .hbm, ⟨25, _⟩ => ⟨S2000000x3, .i1⟩
  | .hbm, ⟨26, _⟩ => ⟨S2000000x3, .i1⟩
  | .hbm, ⟨27, _⟩ => ⟨S_, .i32⟩
  | .hbm, ⟨28, _⟩ => ⟨S2000000x3, .i32⟩
  | .hbm, ⟨29, _⟩ => ⟨S2000000x3, .i32⟩
  | .hbm, ⟨30, _⟩ => ⟨S2000000x3, .i32⟩
  | .hbm, ⟨31, _⟩ => ⟨S2000000x1, .i1⟩
  | .hbm, ⟨32, _⟩ => ⟨S_, .i32⟩
  | .hbm, ⟨33, _⟩ => ⟨S_, .i32⟩
  | .hbm, ⟨34, _⟩ => ⟨S2000000x3, .i1⟩
  | .hbm, ⟨35, _⟩ => ⟨S2000000x3, .i32⟩
  | .hbm, ⟨36, _⟩ => ⟨S2000000x3, .i32⟩
  | .hbm, ⟨37, _⟩ => ⟨S2000000x1, .i1⟩
  | .hbm, ⟨38, _⟩ => ⟨S_, .f32⟩
  | .hbm, ⟨39, _⟩ => ⟨S2000000x16, .i1⟩
  | .hbm, ⟨40, _⟩ => ⟨S2000000x16, .f32⟩
  | .hbm, ⟨41, _⟩ => ⟨S2000000x16, .f32⟩
  | .hbm, ⟨42, _⟩ => ⟨S_, .f32⟩
  | .hbm, ⟨43, _⟩ => ⟨S4x128x128x128x16, .f32⟩
  | .hbm, ⟨44, _⟩ => ⟨S2000000x1, .i32⟩
  | .hbm, ⟨45, _⟩ => ⟨S2000000, .i32⟩
  | .hbm, ⟨46, _⟩ => ⟨S2000000x1, .i32⟩
  | .hbm, ⟨47, _⟩ => ⟨S2000000, .i32⟩
  | .hbm, ⟨48, _⟩ => ⟨S2000000x1, .i32⟩
  | .hbm, ⟨49, _⟩ => ⟨S2000000, .i32⟩
  | .hbm, ⟨50, _⟩ => ⟨S2000000x1, .i32⟩
  | .hbm, ⟨51, _⟩ => ⟨S2000000, .i32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S_, .i32⟩
  | .hbm, ⟨60, _⟩ => ⟨S2000000, .i32⟩
  | .hbm, ⟨61, _⟩ => ⟨S2000000, .i1⟩
  | .hbm, ⟨62, _⟩ => ⟨S_, .i32⟩
  | .hbm, ⟨63, _⟩ => ⟨S2000000, .i32⟩
  | .hbm, ⟨64, _⟩ => ⟨S2000000, .i32⟩
  | .hbm, ⟨65, _⟩ => ⟨S2000000, .i32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S_, .i32⟩
  | .hbm, ⟨74, _⟩ => ⟨S2000000, .i32⟩
  | .hbm, ⟨75, _⟩ => ⟨S2000000, .i1⟩
  | .hbm, ⟨76, _⟩ => ⟨S_, .i32⟩
  | .hbm, ⟨77, _⟩ => ⟨S2000000, .i32⟩
  | .hbm, ⟨78, _⟩ => ⟨S2000000, .i32⟩
  | .hbm, ⟨79, _⟩ => ⟨S2000000, .i32⟩
  | .hbm, ⟨80, _⟩ => ⟨S2000000x1, .i32⟩
  | .hbm, ⟨81, _⟩ => ⟨S2000000x1, .i32⟩
  | .hbm, ⟨82, _⟩ => ⟨S2000000x1, .i32⟩
  | .hbm, ⟨83, _⟩ => ⟨S2000000x1, .i32⟩
  | .hbm, ⟨84, _⟩ => ⟨S2000000x4, .i32⟩
  | .hbm, ⟨85, _⟩ => ⟨S4x128x128x128x16, .f32⟩
  | .hbm, ⟨86, _⟩ => ⟨S4x16x128x128x128, .f32⟩
  | _, _ => ⟨S2000000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_c_10 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_11 : Ref sig .tc := ⟨.hbm, 73, rfl⟩
abbrev main_v37 : Ref sig .tc := ⟨.hbm, 74, rfl⟩
abbrev main_v38 : Ref sig .tc := ⟨.hbm, 75, rfl⟩
abbrev main_c_12 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩

abbrev nD : Nat := 1
abbrev τ : Topo := Topo.v7x

variable {F : FTy → Type} [FloatOps F]

class Facts₀ : Prop where
  slices_S2000000x4_S2000000x3_0_1 : S2000000x4.Slices ![0, 1] S2000000x3
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  reducesTo_S2000000x3_S2000000_d1 : S2000000x3.ReducesTo [1] S2000000
  h_S_ : 0 < S_.numel
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  bcast_S2000000x1_S2000000x16_0_1 : S2000000x1.BroadcastsInDim S2000000x16 (![0, 1] : Fin 2 → Fin S2000000x16.rank)
  bcast_S_S2000000x16 : S_.BroadcastsInDim S2000000x16 (![] : Fin 0 → Fin S2000000x16.rank)
  bcast_S_S4x128x128x128x16 : S_.BroadcastsInDim S4x128x128x128x16 (![] : Fin 0 → Fin S4x128x128x128x16.rank)
  slices_S2000000x4_S2000000x1_0_0 : S2000000x4.Slices ![0, 0] S2000000x1
  shapeCasts_S2000000x1_S2000000 : S2000000x1.ShapeCasts S2000000
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  concatenates_S2000000x1_S2000000x1_S2000000x1_S2000000x1_S2000000x4_d1 : Shape.Concatenates [S2000000x1, S2000000x1, S2000000x1, S2000000x1] S2000000x4 1
  transposes_S4x128x128x128x16_S4x16x128x128x128_0_4_1_2_3 : S4x128x128x128x16.Transposes [0, 4, 1, 2, 3] S4x16x128x128x128
  scatter_S4x128x128x128x16_S2000000x4_S2000000x16_1_0123_0123_1_wf : ScatterDims.WF S4x128x128x128x16 S2000000x4 S2000000x16 [1] [0, 1, 2, 3] [0, 1, 2, 3] 1

variable [Facts₀]

def scatter_S4x128x128x128x16_S2000000x4_S2000000x16_1_0123_0123_1 : ScatterDims S4x128x128x128x16 S2000000x4 S2000000x16 where
  updateWindowDims := [1]
  insertedWindowDims := [0, 1, 2, 3]
  scatterDimsToOperandDims := [0, 1, 2, 3]
  indexVectorDim := 1
  wf := scatter_S4x128x128x128x16_S2000000x4_S2000000x16_1_0123_0123_1_wf

class Facts : Prop extends Facts₀ where

variable [Facts]
-- ==== Proof.StoredBits.lean ====
/-
  The value the masking kernel's body stores, as one function of the two blocks it loads.

  A block holds 2048 packed rows. A packed row of the coordinate block carries 8 points, 4 words each
  (batch, x, y, z); the matching packed row of the feature block carries the same 8 points, 16 channels
  each. The body computes, for each of the 8 points of a row, whether 0 ≤ x, y, z < 128, turns that bit
  into the float 0 or 1, repeats it over the point's 16 channels, lays the 8 groups side by side and
  multiplies the feature block by the result.
-/
import proofs.«119750_j59777354826220_2_alg».proof.Proof.Gen.Kernel.Skeleton

noncomputable section

namespace Cert.Kernel.Body

open Cert.Kernel Cert.Kernel.Gen Idealize.ShloMosaic

variable {F : FTy → Type} [FloatOps F]

/-- The stored block: the feature block `v2` times the 0/1 mask computed from the coordinate block `v0`,
    written as the composition of the body's named values in the order the body computes them. -/
def stored (v0 : Vec F S2048x32 .i32) (v2 : Vec F S2048x128 .f32) : FVec F S2048x128 .f32 :=
  k0_pay1 (k0_pay3 v2) (k0_pay4 v0)
    (k0_pay8 (F := F) (k0_pay6 v0) (k0_pay7 v0) 0#32) (k0_pay9 (F := F) (k0_pay2 v0))
    (k0_pay15 (F := F) (k0_pay12 (k0_pay2 v0)) (k0_pay13 (k0_pay2 v0)) (k0_pay14 (k0_pay2 v0))) (k0_pay16 (F := F) (k0_pay2 v0))
    (k0_pay21 (F := F) (k0_pay18 (k0_pay2 v0)) (k0_pay19 (k0_pay2 v0)) (k0_pay20 (k0_pay2 v0)) 128#32) (k0_pay22 (F := F) (k0_pay2 v0))
    (k0_pay24 (k0_pay2 v0)) (k0_pay25 (k0_pay2 v0)) (k0_pay26 (k0_pay2 v0)) (k0_pay27 (k0_pay2 v0))

end Cert.Kernel.Body

end
-- ==== Proof.KFrameDefsBits.lean ====
/-
  The masking program around its one pipelined region: the contents of the core's buffers when the region
  is entered, each window's block at a grid point, the block the body leaves in the output window's staging
  buffer as a function of the two input blocks, and the pipeline's proof data built from them.
-/
import proofs.«119750_j59777354826220_2_alg».proof.Proof.Gen.Kernel.Launch
import proofs.«119750_j59777354826220_2_alg».proof.Proof.Gen.Kernel.Skeleton
import proofs.«119750_j59777354826220_2_alg».proof.Proof.Gen.Kernel.Points
import proofs.«119750_j59777354826220_2_alg».proof.Proof.StoredBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The host lines on either side of the region -/

/-- The five stretches of host operations that run before the region: two constants, the padding of the
    coordinate array to 2015232 rows, a constant, the padding of the feature array, and the two reshapes that
    pack 8 points to a row. -/
abbrev preOps : List (List (HloOp τ sig (Elt F))) := [hostOps0, hostOps0_1, hostOps0_2, hostOps0_3, hostOps0_4]

/-- The seven stretches that run after it: the unpacking of the masked features, the voxel index of every
    point, and the scatter-add into the dense grid with its final reshape and transpose. -/
abbrev tailOps : List (List (HloOp τ sig (Elt F))) :=
  [hostOps1, hostOps1_1, hostOps1_2, hostOps1_3, hostOps1_4, hostOps1_5, hostOps1_6]

/-- Core `c`'s buffer contents when the region is entered: the launch contents `m` carried through the
    host operations before the region. -/
abbrev V0 (c : Dev nD) : Valuation τ sig (Elt F) := StableHlo.after (List.flatten preOps) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at grid point `t`: 2048 consecutive packed rows of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole rectangle of a 2048×32 block, -/
abbrev rC : Rect S2048x32 := Rect.unit (s := S2048x32) ![0, 0] S2048x32.size inb_S2048x32_S2048x32_0_0
/-- and of a 2048×128 block. -/
abbrev rX : Rect S2048x128 := Rect.unit (s := S2048x128) ![0, 0] S2048x128.size inb_S2048x128_S2048x128_0_0

/-- The output window's staging buffer after the body, from the coordinate block `x0` and the feature block
    `x1`: the body's one store covers the buffer, and its payload is the feature block times the 0/1 mask of
    the coordinate block (`Body.stored`). -/
def out0_2 (x0 : Vec F S2048x32 .i32) (x1 : Vec F S2048x128 .f32) : Vec F S2048x128 .f32 :=
  View.canon [⟨rX, Body.stored (View.ld x0 rC) (View.ld x1 rX)⟩]

/-- One whole-buffer rectangle covers every index of the buffer. -/
theorem cover0_2 (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

/-! ## The pipeline's proof data -/

/-- The proof data of the pipeline on core `c`: the arrays as the region finds them; after the body at point
    `t` each input buffer still at its block and the output buffer at `out0_2` of the two input blocks; the
    invariant that of a body with nothing of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by
  dsimp only [dats]

end Cert.Kernel.HFrame

end
-- ==== Proof.KFrameBits.lean ====
/-
  The masking program runs, and its two argument arrays end as launched.

  The program is five stretches of host operations, one pipelined region over a grid of 123 points, and
  seven more stretches of host operations. The region stages 2048-row blocks of the packed coordinate array
  and of the packed feature array, and writes back 2048-row blocks of the masked features; its body loads the
  two staged blocks whole and stores one block that covers the output buffer. No host operation writes an
  argument array or, after the region, an array of the pipeline; so the run reduces to the body's triple at a
  generic grid point.
-/
import proofs.«119750_j59777354826220_2_alg».proof.Proof.Gen.Kernel.Launch
import proofs.«119750_j59777354826220_2_alg».proof.Proof.Gen.Kernel.Skeleton
import proofs.«119750_j59777354826220_2_alg».proof.Proof.Gen.Kernel.Points
import proofs.«119750_j59777354826220_2_alg».proof.Proof.StoredBits
import proofs.«119750_j59777354826220_2_alg».proof.Proof.KFrameDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Every host operation before the region touches TensorCore references only, -/
theorem preOps_sub : (preOps (F := F)).Forall fun ops => ops.Forall fun op => op.bufs ⊆ StableHlo.tcRefs τ sig := by
  simp only [preOps, List.Forall]
  exact ⟨hostOps0_sub, hostOps0_1_sub, hostOps0_2_sub, hostOps0_3_sub, hostOps0_4_sub⟩

/-- and allocates nothing. -/
theorem preOps_fresh : (preOps (F := F)).Forall fun ops => ops.Forall fun op => op.fresh = ∅ := by
  simp only [preOps, List.Forall]; repeat' constructor

/-- The program is the earlier host lines, the region, the later host lines: it reduces to the region
    continued by the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps preOps_sub preOps_fresh main_chain

/-! ## The buffers no host operation may write -/

/-- The two argument arrays and the three arrays of the pipeline. -/
abbrev keepL : List (Ref sig .tc) := [main_arg0, main_arg1, main_v2, main_v3, main_v4]

/-- Every array of the pipeline is among them. -/
theorem arr_mem_keepL : ∀ w : Fin 3, Pipeline.arrRef spec0 w ∈ keepL := by decide

/-- A host operation that writes none of them. -/
abbrev Keeps (op : HloOp τ sig (Elt F)) : Prop := ∀ r ∈ keepL, Proc.devRef (τ := τ) .tc r ∉ op.writes

/-- The two argument arrays alone, -/
abbrev argL : List (Ref sig .tc) := [main_arg0, main_arg1]

/-- and a host operation that writes neither (the lines before the region write two of the pipeline's arrays:
    the packed coordinates and the packed features). -/
abbrev KeepsArgs (op : HloOp τ sig (Elt F)) : Prop := ∀ r ∈ argL, Proc.devRef (τ := τ) .tc r ∉ op.writes

/-! Each host operation writes its own result buffer only, which is none of the five: stretch by stretch, the
    result's reference told apart from the five by evaluation. -/
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)

/-! No host operation after the region allocates a buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- A property of every operation of each stretch before the region holds of every operation before it. -/
theorem forall_pre {P : HloOp τ sig (Elt F) → Prop} (h0 : (hostOps0 (F := F)).Forall P) (h1 : (hostOps0_1 (F := F)).Forall P)
    (h2 : (hostOps0_2 (F := F)).Forall P) (h3 : (hostOps0_3 (F := F)).Forall P) (h4 : (hostOps0_4 (F := F)).Forall P) :
    ∀ op ∈ List.flatten (preOps (F := F)), P op := by
  intro op hop
  obtain ⟨ops, hops, hop⟩ := List.mem_flatten.mp hop
  simp only [preOps, List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- A property of every operation of each stretch after the region holds of every operation after it. -/
theorem forall_tail {P : HloOp τ sig (Elt F) → Prop} (h0 : (hostOps1 (F := F)).Forall P) (h1 : (hostOps1_1 (F := F)).Forall P)
    (h2 : (hostOps1_2 (F := F)).Forall P) (h3 : (hostOps1_3 (F := F)).Forall P) (h4 : (hostOps1_4 (F := F)).Forall P)
    (h5 : (hostOps1_5 (F := F)).Forall P) (h6 : (hostOps1_6 (F := F)).Forall P) :
    ∀ ops ∈ tailOps (F := F), ∀ op ∈ ops, P op := by
  intro ops hops op hop
  simp only [tailOps, List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- No operation before the region writes an argument array, -/
theorem pre_keeps : ∀ op ∈ List.flatten (preOps (F := F)), KeepsArgs op :=
  forall_pre hostOps0_keeps hostOps0_1_keeps hostOps0_2_keeps hostOps0_3_keeps hostOps0_4_keeps

/-- and none after it writes any of the five buffers. -/
theorem tail_keeps : ∀ ops ∈ tailOps (F := F), ∀ op ∈ ops, Keeps op :=
  forall_tail hostOps1_keeps hostOps1_1_keeps hostOps1_2_keeps hostOps1_3_keeps hostOps1_4_keeps hostOps1_5_keeps hostOps1_6_keeps

/-- The lines after the region touch the pipeline's arrays and the buffers that bypass the region only: each
    operation's buffers are unscoped TensorCore references, and with nothing prefetched every such reference is
    one or the other. -/
theorem sfx_sub : ∀ ops ∈ tailOps (F := F), ∀ op ∈ ops,
    op.bufs ⊆ Pipeline.tailRefs sig Pipeline.Prefetch.none spec0 := by
  rw [Pipeline.tailRefs_none spec0 launch0.win.arr_unscoped]
  exact forall_tail (P := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))

/-- They allocate nothing. -/
theorem sfx_fresh : ∀ ops ∈ tailOps (F := F), ∀ op ∈ ops, op.fresh = ∅ :=
  forall_tail hostOps1_fresh hostOps1_1_fresh hostOps1_2_fresh hostOps1_3_fresh hostOps1_4_fresh hostOps1_5_fresh hostOps1_6_fresh

/-- And they write no array of the pipeline. -/
theorem sfx_keeps : ∀ ops ∈ tailOps (F := F), ∀ op ∈ ops,
    ∀ w, Proc.devRef .tc (Pipeline.arrRef spec0 w) ∉ op.writes :=
  fun ops hops op hop w => tail_keeps ops hops op hop _ (arr_mem_keepL w)

/-! ## The argument arrays at the region's entry and at the end -/

/-- No host operation before the region writes the coordinate array: the region finds it as launched. -/
theorem V_main_arg0 (c : Dev nD) : V m c main_arg0 = m ((c : Thread nD τ).loc main_arg0) :=
  StableHlo.after_of_forall_not_mem (b := Proc.devRef .tc main_arg0) _ _ fun op hop => pre_keeps op hop main_arg0 (by decide)

/-- Nor the feature array. -/
theorem V_main_arg1 (c : Dev nD) : V m c main_arg1 = m ((c : Thread nD τ).loc main_arg1) :=
  StableHlo.after_of_forall_not_mem (b := Proc.devRef .tc main_arg1) _ _ fun op hop => pre_keeps op hop main_arg1 (by decide)

/-- No host operation after the region writes the coordinate array, and it is no array of the pipeline: it ends
    as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop⟩ := List.mem_flatten.mp hop
      exact tail_keeps ops hops op hop main_arg0 (by decide)),
    Pipeline.withArrays_of_ne _ c (V0 m c) _ main_arg0 (by exact (by decide : ∀ w, Pipeline.arrRef spec0 w ≠ main_arg0))]
  exact V_main_arg0 m c

/-- The same of the feature array. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      exact tail_keeps ops hops op hop main_arg1 (by decide)),
    Pipeline.withArrays_of_ne _ c (V0 m c) _ main_arg1 (by exact (by decide : ∀ w, Pipeline.arrRef spec0 w ≠ main_arg1))]
  exact V_main_arg1 m c

/-! ## The input windows' buffers hold their blocks -/

/-- The coordinate window's current staging buffer holds its block at every point: the window is fetched
    there, or its block index has not moved since the point before and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The same of the feature window. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

set_option maxHeartbeats 4000000 in
/-- The body on whole staging memrefs — the coordinate buffer reading `x0`, the feature buffer reading `x1`, the
    output buffer holding anything — runs to the continuation with the inputs as they were and the output buffer
    reading `out0_2 x0 x1`: it loads the two inputs whole, loads and drops the output buffer, and its one store
    covers the output buffer with the feature block times the mask of the coordinate block. -/
theorem sound_kernel (c : Dev nD) (E : Set ℕ) (i : grid0.Coords)
    (arg1 : Memref sig .tc .vmem S2048x32 .i32) (harg1 : arg1.IsWhole)
    (arg2 : Memref sig .tc .vmem S2048x128 .f32) (harg2 : arg2.IsWhole)
    (arg3 : Memref sig .tc .vmem S2048x128 .f32) (harg3 : arg3.IsWhole)
    (x0 : Vec F S2048x32 .i32) (x1 : Vec F S2048x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's body obligation, at a generic point -/

/-- What the body is called with at point `t`: the invariant, what the core owes, and each window's current
    staging buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores
    terminates, and every final state has each array of the pipeline at what the proof data computes and every
    other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.HFrame.run_main' depends on axioms: [propext, Classical.choice, Quot.sound] -/
#guard_msgs in #print axioms run_main

/-- The frame: the program runs, and both argument arrays end as launched — neither is an array of the
    pipeline, and no host operation writes either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Kernel.HFrame

end
-- ==== Proof.Stored.lean ====
/-
  The value the masking kernel's body stores, as one function of the two blocks it loads.

  A block holds 2048 packed rows. A packed row of the coordinate block carries 8 points, 4 words each
  (batch, x, y, z); the matching packed row of the feature block carries the same 8 points, 16 channels
  each. The body computes, for each of the 8 points of a row, whether 0 ≤ x, y, z < 128, turns that bit
  into the float 0 or 1, repeats it over the point's 16 channels, lays the 8 groups side by side and
  multiplies the feature block by the result.
-/
import proofs.«119750_j59777354826220_2_alg».proof.Proof.Gen.KernelIdeal.Skeleton

noncomputable section

namespace Cert.KernelIdeal.Body

open Cert.KernelIdeal Cert.KernelIdeal.Gen Idealize.ShloMosaic

variable {F : FTy → Type} [FloatOps F]

/-- The stored block: the feature block `v2` times the 0/1 mask computed from the coordinate block `v0`,
    written as the composition of the body's named values in the order the body computes them. -/
def stored (v0 : Vec F S2048x32 .i32) (v2 : Vec F S2048x128 .f32) : FVec F S2048x128 .f32 :=
  k0_pay1 (k0_pay3 v2) (k0_pay4 v0)
    (k0_pay8 (F := F) (k0_pay6 v0) (k0_pay7 v0) 0#32) (k0_pay9 (F := F) (k0_pay2 v0))
    (k0_pay15 (F := F) (k0_pay12 (k0_pay2 v0)) (k0_pay13 (k0_pay2 v0)) (k0_pay14 (k0_pay2 v0))) (k0_pay16 (F := F) (k0_pay2 v0))
    (k0_pay21 (F := F) (k0_pay18 (k0_pay2 v0)) (k0_pay19 (k0_pay2 v0)) (k0_pay20 (k0_pay2 v0)) 128#32) (k0_pay22 (F := F) (k0_pay2 v0))
    (k0_pay24 (k0_pay2 v0)) (k0_pay25 (k0_pay2 v0)) (k0_pay26 (k0_pay2 v0)) (k0_pay27 (k0_pay2 v0))

end Cert.KernelIdeal.Body

end
-- ==== Proof.KFrameDefs.lean ====
/-
  The masking program around its one pipelined region: the contents of the core's buffers when the region
  is entered, each window's block at a grid point, the block the body leaves in the output window's staging
  buffer as a function of the two input blocks, and the pipeline's proof data built from them.
-/
import proofs.«119750_j59777354826220_2_alg».proof.Proof.Gen.KernelIdeal.Launch
import proofs.«119750_j59777354826220_2_alg».proof.Proof.Gen.KernelIdeal.Skeleton
import proofs.«119750_j59777354826220_2_alg».proof.Proof.Gen.KernelIdeal.Points
import proofs.«119750_j59777354826220_2_alg».proof.Proof.Stored
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The host lines on either side of the region -/

/-- The five stretches of host operations that run before the region: two constants, the padding of the
    coordinate array to 2015232 rows, a constant, the padding of the feature array, and the two reshapes that
    pack 8 points to a row. -/
abbrev preOps : List (List (HloOp τ sig (Elt F))) := [hostOps0, hostOps0_1, hostOps0_2, hostOps0_3, hostOps0_4]

/-- The seven stretches that run after it: the unpacking of the masked features, the voxel index of every
    point, and the scatter-add into the dense grid with its final reshape and transpose. -/
abbrev tailOps : List (List (HloOp τ sig (Elt F))) :=
  [hostOps1, hostOps1_1, hostOps1_2, hostOps1_3, hostOps1_4, hostOps1_5, hostOps1_6]

/-- Core `c`'s buffer contents when the region is entered: the launch contents `m` carried through the
    host operations before the region. -/
abbrev V0 (c : Dev nD) : Valuation τ sig (Elt F) := StableHlo.after (List.flatten preOps) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at grid point `t`: 2048 consecutive packed rows of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole rectangle of a 2048×32 block, -/
abbrev rC : Rect S2048x32 := Rect.unit (s := S2048x32) ![0, 0] S2048x32.size inb_S2048x32_S2048x32_0_0
/-- and of a 2048×128 block. -/
abbrev rX : Rect S2048x128 := Rect.unit (s := S2048x128) ![0, 0] S2048x128.size inb_S2048x128_S2048x128_0_0

/-- The output window's staging buffer after the body, from the coordinate block `x0` and the feature block
    `x1`: the body's one store covers the buffer, and its payload is the feature block times the 0/1 mask of
    the coordinate block (`Body.stored`). -/
def out0_2 (x0 : Vec F S2048x32 .i32) (x1 : Vec F S2048x128 .f32) : Vec F S2048x128 .f32 :=
  View.canon [⟨rX, Body.stored (View.ld x0 rC) (View.ld x1 rX)⟩]

/-- One whole-buffer rectangle covers every index of the buffer. -/
theorem cover0_2 (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

/-! ## The pipeline's proof data -/

/-- The proof data of the pipeline on core `c`: the arrays as the region finds them; after the body at point
    `t` each input buffer still at its block and the output buffer at `out0_2` of the two input blocks; the
    invariant that of a body with nothing of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by
  dsimp only [dats]

end Cert.KernelIdeal.HFrame

end
-- ==== Proof.KFrame.lean ====
/-
  The masking program runs, and its two argument arrays end as launched.

  The program is five stretches of host operations, one pipelined region over a grid of 123 points, and
  seven more stretches of host operations. The region stages 2048-row blocks of the packed coordinate array
  and of the packed feature array, and writes back 2048-row blocks of the masked features; its body loads the
  two staged blocks whole and stores one block that covers the output buffer. No host operation writes an
  argument array or, after the region, an array of the pipeline; so the run reduces to the body's triple at a
  generic grid point.
-/
import proofs.«119750_j59777354826220_2_alg».proof.Proof.Gen.KernelIdeal.Launch
import proofs.«119750_j59777354826220_2_alg».proof.Proof.Gen.KernelIdeal.Skeleton
import proofs.«119750_j59777354826220_2_alg».proof.Proof.Gen.KernelIdeal.Points
import proofs.«119750_j59777354826220_2_alg».proof.Proof.Stored
import proofs.«119750_j59777354826220_2_alg».proof.Proof.KFrameDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Every host operation before the region touches TensorCore references only, -/
theorem preOps_sub : (preOps (F := F)).Forall fun ops => ops.Forall fun op => op.bufs ⊆ StableHlo.tcRefs τ sig := by
  simp only [preOps, List.Forall]
  exact ⟨hostOps0_sub, hostOps0_1_sub, hostOps0_2_sub, hostOps0_3_sub, hostOps0_4_sub⟩

/-- and allocates nothing. -/
theorem preOps_fresh : (preOps (F := F)).Forall fun ops => ops.Forall fun op => op.fresh = ∅ := by
  simp only [preOps, List.Forall]; repeat' constructor

/-- The program is the earlier host lines, the region, the later host lines: it reduces to the region
    continued by the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps preOps_sub preOps_fresh main_chain

/-! ## The buffers no host operation may write -/

/-- The two argument arrays and the three arrays of the pipeline. -/
abbrev keepL : List (Ref sig .tc) := [main_arg0, main_arg1, main_v2, main_v3, main_v4]

/-- Every array of the pipeline is among them. -/
theorem arr_mem_keepL : ∀ w : Fin 3, Pipeline.arrRef spec0 w ∈ keepL := by decide

/-- A host operation that writes none of them. -/
abbrev Keeps (op : HloOp τ sig (Elt F)) : Prop := ∀ r ∈ keepL, Proc.devRef (τ := τ) .tc r ∉ op.writes

/-- The two argument arrays alone, -/
abbrev argL : List (Ref sig .tc) := [main_arg0, main_arg1]

/-- and a host operation that writes neither (the lines before the region write two of the pipeline's arrays:
    the packed coordinates and the packed features). -/
abbrev KeepsArgs (op : HloOp τ sig (Elt F)) : Prop := ∀ r ∈ argL, Proc.devRef (τ := τ) .tc r ∉ op.writes

/-! Each host operation writes its own result buffer only, which is none of the five: stretch by stretch, the
    result's reference told apart from the five by evaluation. -/
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.reshape_writes, Finset.mem_singleton]
  repeat' apply And.intro
  all_goals (refine fun r hr => StableHlo.devRef_ne_of_ne ?_; revert r; decide)

/-! No host operation after the region allocates a buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- A property of every operation of each stretch before the region holds of every operation before it. -/
theorem forall_pre {P : HloOp τ sig (Elt F) → Prop} (h0 : (hostOps0 (F := F)).Forall P) (h1 : (hostOps0_1 (F := F)).Forall P)
    (h2 : (hostOps0_2 (F := F)).Forall P) (h3 : (hostOps0_3 (F := F)).Forall P) (h4 : (hostOps0_4 (F := F)).Forall P) :
    ∀ op ∈ List.flatten (preOps (F := F)), P op := by
  intro op hop
  obtain ⟨ops, hops, hop⟩ := List.mem_flatten.mp hop
  simp only [preOps, List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- A property of every operation of each stretch after the region holds of every operation after it. -/
theorem forall_tail {P : HloOp τ sig (Elt F) → Prop} (h0 : (hostOps1 (F := F)).Forall P) (h1 : (hostOps1_1 (F := F)).Forall P)
    (h2 : (hostOps1_2 (F := F)).Forall P) (h3 : (hostOps1_3 (F := F)).Forall P) (h4 : (hostOps1_4 (F := F)).Forall P)
    (h5 : (hostOps1_5 (F := F)).Forall P) (h6 : (hostOps1_6 (F := F)).Forall P) :
    ∀ ops ∈ tailOps (F := F), ∀ op ∈ ops, P op := by
  intro ops hops op hop
  simp only [tailOps, List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- No operation before the region writes an argument array, -/
theorem pre_keeps : ∀ op ∈ List.flatten (preOps (F := F)), KeepsArgs op :=
  forall_pre hostOps0_keeps hostOps0_1_keeps hostOps0_2_keeps hostOps0_3_keeps hostOps0_4_keeps

/-- and none after it writes any of the five buffers. -/
theorem tail_keeps : ∀ ops ∈ tailOps (F := F), ∀ op ∈ ops, Keeps op :=
  forall_tail hostOps1_keeps hostOps1_1_keeps hostOps1_2_keeps hostOps1_3_keeps hostOps1_4_keeps hostOps1_5_keeps hostOps1_6_keeps

/-- The lines after the region touch the pipeline's arrays and the buffers that bypass the region only: each
    operation's buffers are unscoped TensorCore references, and with nothing prefetched every such reference is
    one or the other. -/
theorem sfx_sub : ∀ ops ∈ tailOps (F := F), ∀ op ∈ ops,
    op.bufs ⊆ Pipeline.tailRefs sig Pipeline.Prefetch.none spec0 := by
  rw [Pipeline.tailRefs_none spec0 launch0.win.arr_unscoped]
  exact forall_tail (P := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))

/-- They allocate nothing. -/
theorem sfx_fresh : ∀ ops ∈ tailOps (F := F), ∀ op ∈ ops, op.fresh = ∅ :=
  forall_tail hostOps1_fresh hostOps1_1_fresh hostOps1_2_fresh hostOps1_3_fresh hostOps1_4_fresh hostOps1_5_fresh hostOps1_6_fresh

/-- And they write no array of the pipeline. -/
theorem sfx_keeps : ∀ ops ∈ tailOps (F := F), ∀ op ∈ ops,
    ∀ w, Proc.devRef .tc (Pipeline.arrRef spec0 w) ∉ op.writes :=
  fun ops hops op hop w => tail_keeps ops hops op hop _ (arr_mem_keepL w)

/-! ## The argument arrays at the region's entry and at the end -/

/-- No host operation before the region writes the coordinate array: the region finds it as launched. -/
theorem V_main_arg0 (c : Dev nD) : V m c main_arg0 = m ((c : Thread nD τ).loc main_arg0) :=
  StableHlo.after_of_forall_not_mem (b := Proc.devRef .tc main_arg0) _ _ fun op hop => pre_keeps op hop main_arg0 (by decide)

/-- Nor the feature array. -/
theorem V_main_arg1 (c : Dev nD) : V m c main_arg1 = m ((c : Thread nD τ).loc main_arg1) :=
  StableHlo.after_of_forall_not_mem (b := Proc.devRef .tc main_arg1) _ _ fun op hop => pre_keeps op hop main_arg1 (by decide)

/-- No host operation after the region writes the coordinate array, and it is no array of the pipeline: it ends
    as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop⟩ := List.mem_flatten.mp hop
      exact tail_keeps ops hops op hop main_arg0 (by decide)),
    Pipeline.withArrays_of_ne _ c (V0 m c) _ main_arg0 (by exact (by decide : ∀ w, Pipeline.arrRef spec0 w ≠ main_arg0))]
  exact V_main_arg0 m c

/-- The same of the feature array. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      exact tail_keeps ops hops op hop main_arg1 (by decide)),
    Pipeline.withArrays_of_ne _ c (V0 m c) _ main_arg1 (by exact (by decide : ∀ w, Pipeline.arrRef spec0 w ≠ main_arg1))]
  exact V_main_arg1 m c

/-! ## The input windows' buffers hold their blocks -/

/-- The coordinate window's current staging buffer holds its block at every point: the window is fetched
    there, or its block index has not moved since the point before and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The same of the feature window. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

set_option maxHeartbeats 4000000 in
/-- The body on whole staging memrefs — the coordinate buffer reading `x0`, the feature buffer reading `x1`, the
    output buffer holding anything — runs to the continuation with the inputs as they were and the output buffer
    reading `out0_2 x0 x1`: it loads the two inputs whole, loads and drops the output buffer, and its one store
    covers the output buffer with the feature block times the mask of the coordinate block. -/
theorem sound_kernel (c : Dev nD) (E : Set ℕ) (i : grid0.Coords)
    (arg1 : Memref sig .tc .vmem S2048x32 .i32) (harg1 : arg1.IsWhole)
    (arg2 : Memref sig .tc .vmem S2048x128 .f32) (harg2 : arg2.IsWhole)
    (arg3 : Memref sig .tc .vmem S2048x128 .f32) (harg3 : arg3.IsWhole)
    (x0 : Vec F S2048x32 .i32) (x1 : Vec F S2048x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's body obligation, at a generic point -/

/-- What the body is called with at point `t`: the invariant, what the core owes, and each window's current
    staging buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores
    terminates, and every final state has each array of the pipeline at what the proof data computes and every
    other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.HFrame.run_main' depends on axioms: [propext, Classical.choice, Quot.sound] -/
#guard_msgs in #print axioms run_main

/-- The frame: the program runs, and both argument arrays end as launched — neither is an array of the
    pipeline, and no host operation writes either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HFrame

end
-- ==== Proof.KRegion.lean ====
/-
  The region's output array, after the run, as one function of the two arrays the region reads.

  The packed coordinate array has 251904 rows of 32 words (8 points of 4 words), the packed feature array
  251904 rows of 128 channels (the same 8 points, 16 channels each). Grid point t works on rows
  2048 t … 2048 t + 2047 of all three arrays. Entry (R, 16 j + k) of the output array is entry (R, 16 j + k)
  of the feature array, kept when point j of row R has its three voxel coordinates in [0, 128) and replaced
  by 0 when it has not. Every row belongs to exactly one grid point's block, so the blocks written back cover
  the array.
-/
import proofs.«119750_j59777354826220_2_alg».proof.Proof.KFrameDefs
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Cert.KernelIdeal.HFrame
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## One block -/

/-- Word q of point j of packed row r of a coordinate block, read as a signed integer. -/
def wdB (v0 : Vec Ideal S2048x32 .i32) (r : Fin 2048) (j : Fin 8) (q : Fin 4) : Int :=
  (v0 (ix2 r ⟨4 * j.val + q.val, by omega⟩)).toInt

/-- Point j of packed row r of the block has its three voxel coordinates in [0, 128). -/
def inGridB (v0 : Vec Ideal S2048x32 .i32) (r : Fin 2048) (j : Fin 8) : Prop :=
  (0 ≤ wdB v0 r j 1 ∧ wdB v0 r j 1 < 128) ∧ (0 ≤ wdB v0 r j 2 ∧ wdB v0 r j 2 < 128) ∧ (0 ≤ wdB v0 r j 3 ∧ wdB v0 r j 3 < 128)

instance (v0 : Vec Ideal S2048x32 .i32) (r : Fin 2048) (j : Fin 8) : Decidable (inGridB v0 r j) := by
  unfold inGridB; infer_instance

/-- The body's stored block, entry by entry: the feature entry times the 0/1 mask of its point. -/
def StoredAt : Prop :=
  ∀ (v0 : Vec Ideal S2048x32 .i32) (v2 : Vec Ideal S2048x128 .f32) (r : Fin 2048) (j : Fin 8) (k : Fin 16),
    Body.stored (F := Ideal) v0 v2 (ix2 r ⟨16 * j.val + k.val, by omega⟩)
      = v2 (ix2 r ⟨16 * j.val + k.val, by omega⟩) * (if inGridB v0 r j then (1 : EReal) else 0)

/-- The same at any index of the block: lane l belongs to point l / 16. -/
theorem stored_at (hst : StoredAt) (v0 : Vec Ideal S2048x32 .i32) (v2 : Vec Ideal S2048x128 .f32)
    (r : Fin 2048) (l : Fin 128) :
    Body.stored (F := Ideal) v0 v2 (ix2 r l)
      = v2 (ix2 r l) * (if inGridB v0 r ⟨l.val / 16, by omega⟩ then (1 : EReal) else 0) := by
  have hl : l = ⟨16 * (l.val / 16) + (l.val % 16), by omega⟩ := Fin.ext (by simp only; omega)
  have h := hst v0 v2 r ⟨l.val / 16, by omega⟩ ⟨l.val % 16, by omega⟩
  rw [← hl] at h
  exact h

/-! ## The whole array -/

/-- Word q of point j of packed row R of the packed coordinate array, read as a signed integer. -/
def wdP (cg : IVec S251904x32 32) (R : Fin 251904) (j : Fin 8) (q : Fin 4) : Int :=
  (cg (ix2 R ⟨4 * j.val + q.val, by omega⟩)).toInt

/-- Point j of packed row R has its three voxel coordinates in [0, 128). -/
def inGridP (cg : IVec S251904x32 32) (R : Fin 251904) (j : Fin 8) : Prop :=
  (0 ≤ wdP cg R j 1 ∧ wdP cg R j 1 < 128) ∧ (0 ≤ wdP cg R j 2 ∧ wdP cg R j 2 < 128) ∧ (0 ≤ wdP cg R j 3 ∧ wdP cg R j 3 < 128)

instance (cg : IVec S251904x32 32) (R : Fin 251904) (j : Fin 8) : Decidable (inGridP cg R j) := by
  unfold inGridP; infer_instance

/-- The packed output array: the packed features, each entry kept or zeroed by its point's mask. -/
def GoutAt (cg : IVec S251904x32 32) (fg : FVec Ideal S251904x128 .f32) (R : Fin 251904) (l : Fin 128) : EReal :=
  fg (ix2 R l) * (if inGridP cg R ⟨l.val / 16, by omega⟩ then (1 : EReal) else 0)

def Gout (cg : IVec S251904x32 32) (fg : FVec Ideal S251904x128 .f32) : FVec Ideal S251904x128 .f32 :=
  fun i => GoutAt cg fg (i 0) (i 1)

theorem Gout_apply (cg : IVec S251904x32 32) (fg : FVec Ideal S251904x128 .f32) (R : Fin 251904) (l : Fin 128) :
    Gout cg fg (ix2 R l) = fg (ix2 R l) * (if inGridP cg R ⟨l.val / 16, by omega⟩ then (1 : EReal) else 0) := rfl

theorem hz : (![0, 0] : Fin 2 → Nat) = fun _ => 0 := funext fun a => by fin_cases a <;> rfl

/-- The three windows move together: at grid point t each takes block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## Block reads -/

/-- Row r of grid point t's coordinate block is row 2048 t + r of the packed coordinate array. -/
theorem iblk0_apply (c : Dev nD) (t : Fin cfg0.N) (r : Fin 2048) (q : Fin 32) (R : Fin 251904)
    (hR : R.val = 2048 * t.val + r.val) :
    iblk m c 0 t (ix2 r q) = V m c main_v2 (ix2 R q) := by
  obtain ⟨e0, e1, -⟩ := idx_facts t
  show V m c main_v2 (((cfg0.win 0).blk t).view.emb (ix2 r q)) = V m c main_v2 (ix2 R q)
  refine congrArg _ ?_
  funext a; apply Fin.ext
  match a with
  | ⟨0, _⟩ => show win0_0.index t (0 : Fin 2) * 2048 + 1 * r.val = R.val; omega
  | ⟨1, _⟩ => show win0_0.index t (1 : Fin 2) * 32 + 1 * q.val = q.val; omega

/-- Row r of grid point t's feature block is row 2048 t + r of the packed feature array. -/
theorem iblk1_apply (c : Dev nD) (t : Fin cfg0.N) (r : Fin 2048) (l : Fin 128) (R : Fin 251904)
    (hR : R.val = 2048 * t.val + r.val) :
    iblk m c 1 t (ix2 r l) = V m c main_v3 (ix2 R l) := by
  obtain ⟨-, -, e2, e3, -⟩ := idx_facts t
  show V m c main_v3 (((cfg0.win 1).blk t).view.emb (ix2 r l)) = V m c main_v3 (ix2 R l)
  refine congrArg _ ?_
  funext a; apply Fin.ext
  match a with
  | ⟨0, _⟩ => show win0_1.index t (0 : Fin 2) * 2048 + 1 * r.val = R.val; omega
  | ⟨1, _⟩ => show win0_1.index t (1 : Fin 2) * 128 + 1 * l.val = l.val; omega

/-- A point's words read in the block are its words in the packed array. -/
theorem wd_eq (c : Dev nD) (t : Fin cfg0.N) (r : Fin 2048) (R : Fin 251904) (hR : R.val = 2048 * t.val + r.val)
    (j : Fin 8) (q : Fin 4) : wdB (iblk m c 0 t) r j q = wdP (V m c main_v2) R j q := by
  unfold wdB wdP
  exact congrArg BitVec.toInt (iblk0_apply m c t r ⟨4 * j.val + q.val, by omega⟩ R hR)

/-- One entry of what grid point t writes back. -/
theorem flushed_entry (hst : StoredAt) (c : Dev nD) (t : Fin cfg0.N) (r : Fin 2048) (l : Fin 128) (R : Fin 251904)
    (hR : R.val = 2048 * t.val + r.val) :
    Body.stored (F := Ideal) (iblk m c 0 t) (iblk m c 1 t) (ix2 r l) = Gout (V m c main_v2) (V m c main_v3) (ix2 R l) := by
  refine (stored_at hst _ _ r l).trans ?_
  rw [Gout_apply, iblk1_apply m c t r l R hR]
  refine congrArg _ (if_congr ?_ rfl rfl)
  unfold inGridB inGridP
  simp only [wd_eq m c t r R hR]

/-! ## From the blocks to the array -/

/-- What grid point t writes back is block t of the packed output array. -/
theorem flushed_eq (hst : StoredAt) (c : Dev nD) (t : Fin cfg0.N) :
    (dats m 0 c).flushed 2 t = ((cfg0.win 2).blk t).view.read (Elt Ideal) (Gout (V m c main_v2) (V m c main_v3)) := by
  show (cfg0.win 2).cut (grid0.coords t) ((dats m 0 c).after 2 t) = _
  rw [after0_2]
  unfold out0_2
  rw [View.canon_unit_zero hz]
  simp only [View.ld_unit_zero (S := S2048x128) hz, View.ld_unit_zero (S := S2048x32) hz]
  have hN : cfg0.N = 123 := N_0
  have ht : t.val < 123 := hN ▸ t.isLt
  obtain ⟨-, -, -, -, e4, e5⟩ := idx_facts t
  funext j
  obtain ⟨r, l, rfl⟩ : ∃ (r : Fin 2048) (l : Fin 128), j = ix2 r l := ⟨j 0, j 1, eq_ix2 j⟩
  have hemb : ((cfg0.win 2).blk t).view.emb (ix2 r l) = ix2 (⟨2048 * t.val + r.val, by omega⟩ : Fin 251904) l := by
    funext a; apply Fin.ext
    match a with
    | ⟨0, _⟩ => show win0_2.index t (0 : Fin 2) * 2048 + 1 * r.val = 2048 * t.val + r.val; omega
    | ⟨1, _⟩ => show win0_2.index t (1 : Fin 2) * 128 + 1 * l.val = l.val; omega
  show Body.stored (F := Ideal) (iblk m c 0 t) (iblk m c 1 t) (ix2 r l)
    = Gout (V m c main_v2) (V m c main_v3) (((cfg0.win 2).blk t).view.emb (ix2 r l))
  rw [hemb]
  exact flushed_entry m hst c t r l _ rfl

/-- An index of the array is in point t's block iff each coordinate is in the block's range on its axis. -/
theorem mem_blk (t : Fin cfg0.N) (i : S251904x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v4).slice (win0_2.rect t)).set ↔ _
  rw [View.set_slice_whole, Rect.mem_set_unit]
  exact Iff.rfl

/-- Row R lies in the block of grid point R / 2048, which is written back. -/
theorem cover (i : S251904x128.Idx) :
    ∃ t : Fin cfg0.N, (cfg0.win 2).flush t = true ∧ i ∈ ((cfg0.win 2).blk t).view.set := by
  have hN : cfg0.N = 123 := N_0
  have h0 : (i 0).val < 251904 := (i 0).isLt
  have h1 : (i 1).val < 128 := (i 1).isLt
  have hq : (i 0).val / 2048 < cfg0.N := by rw [hN]; omega
  obtain ⟨-, -, -, -, e4, e5⟩ := idx_facts ⟨(i 0).val / 2048, hq⟩
  refine ⟨⟨(i 0).val / 2048, hq⟩, flush0_2 _, ?_⟩
  rw [mem_blk]
  intro a
  match a with
  | ⟨0, _⟩ =>
    show win0_2.index ⟨(i 0).val / 2048, hq⟩ (0 : Fin 2) * 2048 ≤ (i 0).val
      ∧ (i 0).val < win0_2.index ⟨(i 0).val / 2048, hq⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, hq⟩ (1 : Fin 2) * 128 ≤ (i 1).val
      ∧ (i 1).val < win0_2.index ⟨(i 0).val / 2048, hq⟩ (1 : Fin 2) * 128 + 128
    rw [e5]; omega

/-- The packed output array after the run. -/
theorem final (hst : StoredAt) (c : Dev nD) :
    (dats m 0 c).arrAt 2 cfg0.N = Gout (V m c main_v2) (V m c main_v3) :=
  (dats m 0 c).arrAt_eq_of_cover 2 (Gout (V m c main_v2) (V m c main_v3)) (fun t _ => flushed_eq m hst c t) cover

end Cert.KernelIdeal.RegionValue

end
-- ==== Proof.KHost.lean ====
/-
  The host side of the masking program, read back as pure terms.

  Before the region: the 2,000,000 points are padded to 2,015,232 (coordinate words -1, features 0) and packed
  8 points to a row. After the region: the packed output is unpacked to one row of 16 channels per point; a
  point's voxel index is b·128³ + x·128² + y·128 + z when its three voxel coordinates are in [0, 128) and 0
  otherwise (b, x, y, z are replaced by 0 for a point outside); the rows are scatter-added into a table of
  4·128³ rows by that index; the table is viewed as [4, 128, 128, 128, 16] and the channel axis moved second.
-/
import proofs.«119750_j59777354826220_2_alg».proof.Proof.KFrameDefs
import Idealize.ShloMosaic.Lib.StableHlo.Run

set_option maxRecDepth 16384

noncomputable section

namespace Cert.KernelIdeal.HostValue

open Cert.KernelIdeal Cert.KernelIdeal.Gen Cert.KernelIdeal.HFrame
open Idealize.ShloMosaic Idealize.ShloMosaic.TcCoe Idealize.SL.Sem Idealize.ShloMosaic.StableHlo

variable {F : FTy → Type} [FloatOps F]

/-! ## Before the region -/

/-- The points' words padded with 15232 rows of -1. -/
def coordsP (a0 : IVec S2000000x4 32) : IVec S2015232x4 32 :=
  pad S2015232x4 ![0, 0] ![15232, 0] ![0, 0] a0 (constantI S_ 32 4294967295#32) pads_S2000000x4_S2015232x4_0152320_000 h_S_

/-- The points' features padded with 15232 rows of 0. -/
def featsP (a1 : FVec F S2000000x16 .f32) : FVec F S2015232x16 .f32 :=
  pad S2015232x16 ![0, 0] ![15232, 0] ![0, 0] a1 (constant S_ .f32 0x00000000#32) pads_S2000000x16_S2015232x16_0152320_000 h_S_

/-- The packed coordinate array: 8 points to a row. -/
def coordsG (a0 : IVec S2000000x4 32) : IVec S251904x32 32 :=
  shapeCast S251904x32 (coordsP a0) shapeCasts_S2015232x4_S251904x32

/-- The packed feature array. -/
def featsG (a1 : FVec F S2000000x16 .f32) : FVec F S251904x128 .f32 :=
  shapeCast S251904x128 (featsP a1) shapeCasts_S2015232x16_S251904x128

/-! ## After the region -/

/-- The masked features, one row per point. -/
def mfeat (og : FVec F S251904x128 .f32) : FVec F S2015232x16 .f32 :=
  shapeCast S2015232x16 og shapeCasts_S251904x128_S2015232x16

/-- The three voxel coordinates of every point. -/
def xyz (cp : IVec S2015232x4 32) : IVec S2015232x3 32 :=
  extractStridedSlice S2015232x3 ![0, 1] cp slices_S2015232x4_S2015232x3_0_1

/-- Per coordinate: 0 ≤ it and it < 128. -/
def ok3 (cp : IVec S2015232x4 32) : IVec S2015232x3 1 :=
  andi (cmpi .sge (xyz cp) (broadcastInDim S2015232x3 ![] bcast_S_S2015232x3 (constantI S_ 32 0#32)))
    (cmpi .slt (xyz cp) (broadcastInDim S2015232x3 ![0, 1] bcast_S1x3_S2015232x3_0_1
      (broadcastInDim S1x3 ![1] bcast_S3_S1x3_1 (constantI S3 32 128#32))))

/-- Per point: all three coordinates are in range. -/
def maskv (cp : IVec S2015232x4 32) : IVec S2015232 1 :=
  Host.reduce IntOp.andi (ok3 cp) (constantI S_ 1 1#1) reducesTo_S2015232x3_S2015232_d1 h_S_

/-- The coordinates floor-divided by the stride 1. -/
def fdiv (cp : IVec S2015232x4 32) : IVec S2015232x3 32 :=
  select
    (andi
      (cmpi .ne (signi (xyz cp)) (broadcastInDim S2015232x3 ![] bcast_S_S2015232x3 (signi (id (constantI S_ 32 1#32)))))
      (cmpi .ne (Host.remsi (xyz cp) (broadcastInDim S2015232x3 ![] bcast_S_S2015232x3 (id (constantI S_ 32 1#32))))
        (broadcastInDim S2015232x3 ![] bcast_S_S2015232x3 (constantI S_ 32 0#32))))
    (subi (Host.divsi (xyz cp) (broadcastInDim S2015232x3 ![] bcast_S_S2015232x3 (id (constantI S_ 32 1#32))))
      (broadcastInDim S2015232x3 ![] bcast_S_S2015232x3 (constantI S_ 32 1#32)))
    (Host.divsi (xyz cp) (broadcastInDim S2015232x3 ![] bcast_S_S2015232x3 (id (constantI S_ 32 1#32))))

/-- The voxel coordinates of a point in the grid, 0 for a point outside. -/
def idx3 (cp : IVec S2015232x4 32) : IVec S2015232x3 32 :=
  select (broadcastInDim S2015232x3 ![0, 1] bcast_S2015232x1_S2015232x3_0_1
      (broadcastInDim S2015232x1 ![0] bcast_S2015232_S2015232x1_0 (maskv cp)))
    (fdiv cp) (broadcastInDim S2015232x3 ![] bcast_S_S2015232x3 (id (constantI S_ 32 0#32)))

/-- The batch word of every point. -/
def bcol (cp : IVec S2015232x4 32) : IVec S2015232 32 :=
  shapeCast S2015232 (extractStridedSlice S2015232x1 ![0, 0] cp slices_S2015232x4_S2015232x1_0_0) shapeCasts_S2015232x1_S2015232

/-- The batch word of a point in the grid, 0 for a point outside. -/
def bsel (cp : IVec S2015232x4 32) : IVec S2015232 32 :=
  select (maskv cp) (bcol cp) (broadcastInDim S2015232 ![] bcast_S_S2015232 (id (constantI S_ 32 0#32)))

def xcol (cp : IVec S2015232x4 32) : IVec S2015232 32 :=
  shapeCast S2015232 (extractStridedSlice S2015232x1 ![0, 0] (idx3 cp) slices_S2015232x3_S2015232x1_0_0) shapeCasts_S2015232x1_S2015232
def ycol (cp : IVec S2015232x4 32) : IVec S2015232 32 :=
  shapeCast S2015232 (extractStridedSlice S2015232x1 ![0, 1] (idx3 cp) slices_S2015232x3_S2015232x1_0_1) shapeCasts_S2015232x1_S2015232
def zcol (cp : IVec S2015232x4 32) : IVec S2015232 32 :=
  shapeCast S2015232 (extractStridedSlice S2015232x1 ![0, 2] (idx3 cp) slices_S2015232x3_S2015232x1_0_2) shapeCasts_S2015232x1_S2015232

/-- The flat voxel index b·128³ + x·128² + y·128 + z, in 32-bit arithmetic. -/
def flat (cp : IVec S2015232x4 32) : IVec S2015232 32 :=
  addi (addi (addi (muli (bsel cp) (broadcastInDim S2015232 ![] bcast_S_S2015232 (constantI S_ 32 2097152#32)))
        (muli (xcol cp) (broadcastInDim S2015232 ![] bcast_S_S2015232 (constantI S_ 32 16384#32))))
      (muli (ycol cp) (broadcastInDim S2015232 ![] bcast_S_S2015232 (constantI S_ 32 128#32))))
    (zcol cp)

/-- The table of 4·128³ voxel rows: the masked feature rows summed by flat voxel index. -/
def seg (og : FVec F S251904x128 .f32) (cp : IVec S2015232x4 32) : FVec F S8388608x16 .f32 :=
  Host.scatterAdd scatter_S8388608x16_S2015232x1_S2015232x16_1_0_0_1
    (broadcastInDim S8388608x16 ![] bcast_S_S8388608x16 (constant S_ .f32 0x00000000#32))
    (broadcastInDim S2015232x1 ![0] bcast_S2015232_S2015232x1_0 (flat cp)) (mfeat og)

/-- The dense grid, channels second. -/
def kerTail (og : FVec F S251904x128 .f32) (cp : IVec S2015232x4 32) : FVec F S4x16x128x128x128 .f32 :=
  transpose S4x16x128x128x128 [0, 4, 1, 2, 3]
    (shapeCast S4x128x128x128x16 (seg og cp) shapeCasts_S8388608x16_S4x128x128x128x16)
    transposes_S4x128x128x128x16_S4x16x128x128x128_0_4_1_2_3

variable (m : (ℓ : Loc nD τ sig) → Buf (Elt F) ℓ)

/-! ## The arrays the region finds -/

theorem V_v0 (c : Dev nD) : V m c main_v0 = coordsP (m ((c : Thread nD τ).loc main_arg0)) := by
  dsimp only [V, V0]
  simp only [preOps, hostOps0, hostOps0_1, hostOps0_2, hostOps0_3, hostOps0_4, List.flatten_cons, List.flatten_nil,
    List.append_nil, List.cons_append, List.nil_append]
  after_results
  rfl

theorem V_v2 (c : Dev nD) : V m c main_v2 = coordsG (m ((c : Thread nD τ).loc main_arg0)) := by
  dsimp only [V, V0]
  simp only [preOps, hostOps0, hostOps0_1, hostOps0_2, hostOps0_3, hostOps0_4, List.flatten_cons, List.flatten_nil,
    List.append_nil, List.cons_append, List.nil_append]
  after_results
  rfl

theorem V_v3 (c : Dev nD) : V m c main_v3 = featsG (m ((c : Thread nD τ).loc main_arg1)) := by
  dsimp only [V, V0]
  simp only [preOps, hostOps0, hostOps0_1, hostOps0_2, hostOps0_3, hostOps0_4, List.flatten_cons, List.flatten_nil,
    List.append_nil, List.cons_append, List.nil_append]
  after_results
  rfl

end Cert.KernelIdeal.HostValue

end
-- ==== Proof.KTail.lean ====
/-
  The result buffer after the host operations that follow the region, as the pure term `kerTail` of the two
  buffers those operations read: the region's output array and the padded coordinate words.

  The operations come in seven stretches. Each stretch reads a few buffers the earlier ones wrote and writes
  buffers of its own; so the contents after all of them are followed stretch by stretch, keeping after each
  stretch only what a later stretch still reads: the unpacked features, the three coordinate columns, the
  per-point in-grid bit (as a vector and as a column), the floor-divided coordinates, the coordinates and the
  batch word with points outside the grid zeroed, and at the end the scattered table reshaped and transposed.
-/
import proofs.«119750_j59777354826220_2_alg».proof.Proof.KHost

set_option maxRecDepth 16384

noncomputable section

namespace Cert.KernelIdeal.HostValue

open Cert.KernelIdeal Cert.KernelIdeal.Gen Cert.KernelIdeal.HFrame
open Idealize.ShloMosaic Idealize.ShloMosaic.TcCoe Idealize.SL.Sem Idealize.ShloMosaic.StableHlo

variable {F : FTy → Type} [FloatOps F]

/-- A buffer none of a stretch's operations writes holds after the stretch what it held before: every operation
    writes its own result buffer only, told apart from the given buffer by evaluation. -/
local macro "keep_buf" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

variable (og : FVec F S251904x128 .f32) (cp : IVec S2015232x4 32)

/-! ## What the later stretches read, after each stretch -/

/-- After the first stretch: the padded words untouched, the features unpacked, the coordinate columns cut
    out, the in-grid bit of every point as a vector and as a column, and the constant one. -/
structure Reads1 (W : Valuation τ sig (Elt F)) : Prop where
  v0 : W (Proc.devRef .tc main_v0) = cp
  v5 : W (Proc.devRef .tc main_v5) = mfeat og
  v6 : W (Proc.devRef .tc main_v6) = xyz cp
  v13 : W (Proc.devRef .tc main_v13) = maskv cp
  v14 : W (Proc.devRef .tc main_v14) = broadcastInDim S2015232x1 ![0] bcast_S2015232_S2015232x1_0 (maskv cp)
  c3 : W (Proc.devRef .tc main_c_3) = constantI S_ 32 1#32

/-- After the floor division: its quotient beside what is still read. -/
structure Reads2 (W : Valuation τ sig (Elt F)) : Prop where
  v0 : W (Proc.devRef .tc main_v0) = cp
  v5 : W (Proc.devRef .tc main_v5) = mfeat og
  v13 : W (Proc.devRef .tc main_v13) = maskv cp
  v14 : W (Proc.devRef .tc main_v14) = broadcastInDim S2015232x1 ![0] bcast_S2015232_S2015232x1_0 (maskv cp)
  v15 : W (Proc.devRef .tc main_v15) = fdiv cp

/-- After the constant zero that the first select reads. -/
structure Reads3 (W : Valuation τ sig (Elt F)) : Prop where
  v0 : W (Proc.devRef .tc main_v0) = cp
  v5 : W (Proc.devRef .tc main_v5) = mfeat og
  v13 : W (Proc.devRef .tc main_v13) = maskv cp
  v14 : W (Proc.devRef .tc main_v14) = broadcastInDim S2015232x1 ![0] bcast_S2015232_S2015232x1_0 (maskv cp)
  v15 : W (Proc.devRef .tc main_v15) = fdiv cp
  c4 : W (Proc.devRef .tc main_c_4) = constantI S_ 32 0#32

/-- After the first select: the coordinates with points outside the grid zeroed. -/
structure Reads4 (W : Valuation τ sig (Elt F)) : Prop where
  v0 : W (Proc.devRef .tc main_v0) = cp
  v5 : W (Proc.devRef .tc main_v5) = mfeat og
  v13 : W (Proc.devRef .tc main_v13) = maskv cp
  v16 : W (Proc.devRef .tc main_v16) = idx3 cp

/-- After the batch column is cut out, with the constant zero that the second select reads. -/
structure Reads5 (W : Valuation τ sig (Elt F)) : Prop where
  v5 : W (Proc.devRef .tc main_v5) = mfeat og
  v13 : W (Proc.devRef .tc main_v13) = maskv cp
  v16 : W (Proc.devRef .tc main_v16) = idx3 cp
  v18 : W (Proc.devRef .tc main_v18) = bcol cp
  c5 : W (Proc.devRef .tc main_c_5) = constantI S_ 32 0#32

/-- After the second select: the batch word with points outside the grid zeroed. -/
structure Reads6 (W : Valuation τ sig (Elt F)) : Prop where
  v5 : W (Proc.devRef .tc main_v5) = mfeat og
  v16 : W (Proc.devRef .tc main_v16) = idx3 cp
  v19 : W (Proc.devRef .tc main_v19) = bsel cp

/-! ## One stretch at a time -/

/-- The first stretch, from any contents whose 128-vector constant is in place. -/
theorem reads1 (W : Valuation τ sig (Elt F)) (hc : W (Proc.devRef .tc main_c) = constantI S3 32 128#32) :
    Reads1 (W (Proc.devRef .tc main_v4)) (W (Proc.devRef .tc main_v0)) (StableHlo.after hostOps1 W) where
  v0 := by keep_buf hostOps1
  v5 := by simp only [hostOps1]; after_results; rfl
  v6 := by simp only [hostOps1]; after_results; rfl
  v13 := by simp only [hostOps1]; after_results; rw [hc]; rfl
  v14 := by simp only [hostOps1]; after_results; rw [hc]; rfl
  c3 := by simp only [hostOps1]; after_results

/-- The floor division by the constant one. -/
theorem reads2 (W : Valuation τ sig (Elt F)) (h : Reads1 og cp W) : Reads2 og cp (StableHlo.after hostOps1_1 W) where
  v0 := (by keep_buf hostOps1_1 : StableHlo.after hostOps1_1 W (Proc.devRef .tc main_v0) = W (Proc.devRef .tc main_v0)).trans h.v0
  v5 := (by keep_buf hostOps1_1 : StableHlo.after hostOps1_1 W (Proc.devRef .tc main_v5) = W (Proc.devRef .tc main_v5)).trans h.v5
  v13 := (by keep_buf hostOps1_1 : StableHlo.after hostOps1_1 W (Proc.devRef .tc main_v13) = W (Proc.devRef .tc main_v13)).trans h.v13
  v14 := (by keep_buf hostOps1_1 : StableHlo.after hostOps1_1 W (Proc.devRef .tc main_v14) = W (Proc.devRef .tc main_v14)).trans h.v14
  v15 := by simp only [hostOps1_1]; after_results; rw [h.v6, h.c3]; rfl

/-- The constant zero. -/
theorem reads3 (W : Valuation τ sig (Elt F)) (h : Reads2 og cp W) : Reads3 og cp (StableHlo.after hostOps1_2 W) where
  v0 := (by keep_buf hostOps1_2 : StableHlo.after hostOps1_2 W (Proc.devRef .tc main_v0) = W (Proc.devRef .tc main_v0)).trans h.v0
  v5 := (by keep_buf hostOps1_2 : StableHlo.after hostOps1_2 W (Proc.devRef .tc main_v5) = W (Proc.devRef .tc main_v5)).trans h.v5
  v13 := (by keep_buf hostOps1_2 : StableHlo.after hostOps1_2 W (Proc.devRef .tc main_v13) = W (Proc.devRef .tc main_v13)).trans h.v13
  v14 := (by keep_buf hostOps1_2 : StableHlo.after hostOps1_2 W (Proc.devRef .tc main_v14) = W (Proc.devRef .tc main_v14)).trans h.v14
  v15 := (by keep_buf hostOps1_2 : StableHlo.after hostOps1_2 W (Proc.devRef .tc main_v15) = W (Proc.devRef .tc main_v15)).trans h.v15
  c4 := by simp only [hostOps1_2]; after_results

/-- The first select. The operations of an inlined function carry each value between a buffer's own type and the
    type the function states for it; the two types are equal by evaluation, so each such transport is the
    identity and is rewritten away before the two sides are compared. -/
theorem reads4 (W : Valuation τ sig (Elt F)) (h : Reads3 og cp W) : Reads4 og cp (StableHlo.after hostOps1_3 W) where
  v0 := (by keep_buf hostOps1_3 : StableHlo.after hostOps1_3 W (Proc.devRef .tc main_v0) = W (Proc.devRef .tc main_v0)).trans h.v0
  v5 := (by keep_buf hostOps1_3 : StableHlo.after hostOps1_3 W (Proc.devRef .tc main_v5) = W (Proc.devRef .tc main_v5)).trans h.v5
  v13 := (by keep_buf hostOps1_3 : StableHlo.after hostOps1_3 W (Proc.devRef .tc main_v13) = W (Proc.devRef .tc main_v13)).trans h.v13
  v16 := by simp only [hostOps1_3]; after_results; rw [h.v14, h.v15, h.c4]; simp only [TRef.ofBuf, TRef.toBuf]; (repeat rw [cast_eq]); rfl

/-- The batch column. -/
theorem reads5 (W : Valuation τ sig (Elt F)) (h : Reads4 og cp W) : Reads5 og cp (StableHlo.after hostOps1_4 W) where
  v5 := (by keep_buf hostOps1_4 : StableHlo.after hostOps1_4 W (Proc.devRef .tc main_v5) = W (Proc.devRef .tc main_v5)).trans h.v5
  v13 := (by keep_buf hostOps1_4 : StableHlo.after hostOps1_4 W (Proc.devRef .tc main_v13) = W (Proc.devRef .tc main_v13)).trans h.v13
  v16 := (by keep_buf hostOps1_4 : StableHlo.after hostOps1_4 W (Proc.devRef .tc main_v16) = W (Proc.devRef .tc main_v16)).trans h.v16
  v18 := by simp only [hostOps1_4]; after_results; rw [h.v0]; rfl
  c5 := by simp only [hostOps1_4]; after_results

/-- The second select. -/
theorem reads6 (W : Valuation τ sig (Elt F)) (h : Reads5 og cp W) : Reads6 og cp (StableHlo.after hostOps1_5 W) where
  v5 := (by keep_buf hostOps1_5 : StableHlo.after hostOps1_5 W (Proc.devRef .tc main_v5) = W (Proc.devRef .tc main_v5)).trans h.v5
  v16 := (by keep_buf hostOps1_5 : StableHlo.after hostOps1_5 W (Proc.devRef .tc main_v16) = W (Proc.devRef .tc main_v16)).trans h.v16
  v19 := by simp only [hostOps1_5]; after_results; rw [h.v13, h.v18, h.c5]; simp only [TRef.ofBuf, TRef.toBuf]; (repeat rw [cast_eq]); rfl

set_option maxHeartbeats 1000000 in
/-- The last stretch: the flat voxel index, the scatter-add, the reshape and the transpose. -/
theorem reads7 (W : Valuation τ sig (Elt F)) (h : Reads6 og cp W) :
    StableHlo.after hostOps1_6 W (Proc.devRef .tc main_v39) = kerTail og cp := by
  simp only [hostOps1_6]; after_results; rw [h.v19, h.v16, h.v5]; rfl

/-! ## All seven -/

/-- The tail's result is `kerTail` of the output array as the region leaves it and the padded words as the
    region found them. -/
theorem tail_eq (W : Valuation τ sig (Elt F)) (hc : W (Proc.devRef .tc main_c) = constantI S3 32 128#32) :
    StableHlo.after (List.flatten tailOps) W (Proc.devRef .tc main_v39)
      = kerTail (W (Proc.devRef .tc main_v4)) (W (Proc.devRef .tc main_v0)) := by
  have e : List.flatten (tailOps (F := F))
      = hostOps1 ++ (hostOps1_1 ++ (hostOps1_2 ++ (hostOps1_3 ++ (hostOps1_4 ++ (hostOps1_5 ++ hostOps1_6))))) := by
    simp only [tailOps, List.flatten_cons, List.flatten_nil, List.append_nil]
  rw [e, StableHlo.after_append, StableHlo.after_append, StableHlo.after_append, StableHlo.after_append,
    StableHlo.after_append, StableHlo.after_append]
  exact reads7 _ _ _ (reads6 _ _ _ (reads5 _ _ _ (reads4 _ _ _ (reads3 _ _ _ (reads2 _ _ _ (reads1 W hc))))))

end Cert.KernelIdeal.HostValue

end
-- ==== Proof.KReads.lean ====
/-
  The host side of the masking program read at an index, and the flat voxel index as an integer.

  Padding: rows below 2,000,000 of the padded arrays are the points' rows, the rows from 2,000,000 on hold
  the padding value (-1 for the coordinate words, 0 for the features). Packing: lane 4 j + q of packed
  coordinate row R is word q of point 8 R + j, lane 16 j + k of packed feature row R is channel k of point
  8 R + j; unpacking the region's output is the inverse. The dense grid at (b, c, x, y, z) is the table's
  row b·128³ + x·128² + y·128 + z at channel c. For a batch word in [0, 4) and coordinates in [0, 128) the
  32-bit sum b·2097152 + x·16384 + y·128 + z does not wrap.
-/
import proofs.«119750_j59777354826220_2_alg».proof.Proof.KHost
import Idealize.ShloMosaic.Lib.Pipeline.Value
import Idealize.ShloMosaic.Lib.KernelVsHost
import Idealize.ShloMosaic.Lib.ValueIdx
import Idealize.ShloMosaic.PureOps.Ideal

noncomputable section

namespace Cert.KernelIdeal.KReads

open Cert.KernelIdeal Cert.KernelIdeal.Gen Cert.KernelIdeal.HostValue
open Idealize.ShloMosaic Idealize.ShloMosaic.ValueIdx

/-! ## The padded arrays -/

/-- A row below 2,000,000 of the padded coordinate array is the point's row. -/
theorem coordsP_lt (a0 : IVec S2000000x4 32) (e : Fin 2015232) (q : Fin 4) (he : e.val < 2000000) :
    coordsP a0 (ix2 e q) = a0 (ix2 ⟨e.val, he⟩ q) := by
  unfold coordsP
  exact pad_apply_of_inside _ _ _ a0 _ _ _ (ix2 e q) (ix2 ⟨e.val, he⟩ q) (fun a => by
    match a with
    | ⟨0, _⟩ => show e.val = 0 + e.val * (0 + 1); omega
    | ⟨1, _⟩ => show q.val = 0 + q.val * (0 + 1); omega)

/-- A row from 2,000,000 on of the padded coordinate array holds the word -1. -/
theorem coordsP_ge (a0 : IVec S2000000x4 32) (e : Fin 2015232) (q : Fin 4) (he : 2000000 ≤ e.val) :
    coordsP a0 (ix2 e q) = 4294967295#32 := by
  unfold coordsP
  refine (pad_apply_of_not_inside _ _ _ a0 _ _ _ (ix2 e q) (⟨0, by decide⟩ : Fin 2) ?_).trans rfl
  intro hin
  have h3 : (e.val - 0) / (0 + 1) < 2000000 := hin.2.2
  omega

/-- A row below 2,000,000 of the padded feature array is the point's row. -/
theorem featsP_lt (a1 : FVec Ideal S2000000x16 .f32) (e : Fin 2015232) (k : Fin 16) (he : e.val < 2000000) :
    featsP a1 (ix2 e k) = a1 (ix2 ⟨e.val, he⟩ k) := by
  unfold featsP
  exact pad_apply_of_inside _ _ _ a1 _ _ _ (ix2 e k) (ix2 ⟨e.val, he⟩ k) (fun a => by
    match a with
    | ⟨0, _⟩ => show e.val = 0 + e.val * (0 + 1); omega
    | ⟨1, _⟩ => show k.val = 0 + k.val * (0 + 1); omega)

/-- A row from 2,000,000 on of the padded feature array holds 0. -/
theorem featsP_ge (a1 : FVec Ideal S2000000x16 .f32) (e : Fin 2015232) (k : Fin 16) (he : 2000000 ≤ e.val) :
    featsP a1 (ix2 e k) = 0 := by
  unfold featsP
  refine (pad_apply_of_not_inside _ _ _ a1 _ _ _ (ix2 e k) (⟨0, by decide⟩ : Fin 2) ?_).trans
    ((constant_apply _ _).trans Ideal.ofBits_zero_f32)
  intro hin
  have h3 : (e.val - 0) / (0 + 1) < 2000000 := hin.2.2
  omega

/-! ## Packing and unpacking -/

/-- Lane `4 j + q` of packed coordinate row `R` is word `q` of point `8 R + j`. -/
theorem coordsG_apply (a0 : IVec S2000000x4 32) (R : Fin 251904) (j : Fin 8) (q : Fin 4) :
    coordsG a0 (ix2 R ⟨4 * j.val + q.val, by omega⟩) = coordsP a0 (ix2 ⟨8 * R.val + j.val, by omega⟩ q) := by
  unfold coordsG
  refine shapeCast_apply _ _ _ _ ?_
  rw [Shape.rowMajor_val_two, Shape.rowMajor_val_two]
  show (8 * R.val + j.val) * 4 + q.val = R.val * 32 + (4 * j.val + q.val)
  omega

/-- Lane `16 j + k` of packed feature row `R` is channel `k` of point `8 R + j`. -/
theorem featsG_apply {F : FTy → Type} [FloatOps F] (a1 : FVec F S2000000x16 .f32) (R : Fin 251904) (j : Fin 8)
    (k : Fin 16) :
    featsG a1 (ix2 R ⟨16 * j.val + k.val, by omega⟩) = featsP a1 (ix2 ⟨8 * R.val + j.val, by omega⟩ k) := by
  unfold featsG
  refine shapeCast_apply _ _ _ _ ?_
  rw [Shape.rowMajor_val_two, Shape.rowMajor_val_two]
  show (8 * R.val + j.val) * 16 + k.val = R.val * 128 + (16 * j.val + k.val)
  omega

/-- Channel `k` of point `e` of the unpacked output is lane `16 (e mod 8) + k` of packed row `e / 8`. -/
theorem mfeat_apply {F : FTy → Type} [FloatOps F] (og : FVec F S251904x128 .f32) (e : Fin 2015232) (k : Fin 16) :
    mfeat og (ix2 e k) = og (ix2 ⟨e.val / 8, by omega⟩ ⟨16 * (e.val % 8) + k.val, by omega⟩) := by
  unfold mfeat
  refine shapeCast_apply _ _ _ _ ?_
  rw [Shape.rowMajor_val_two, Shape.rowMajor_val_two]
  show e.val / 8 * 128 + (16 * (e.val % 8) + k.val) = e.val * 16 + k.val
  omega

/-! ## The dense grid -/

/-- The dense grid at batch `b`, channel `c`, voxel `(x, y, z)` is the table's row
    `b·128³ + x·128² + y·128 + z` at channel `c`. -/
theorem kerTail_apply {F : FTy → Type} [FloatOps F] (og : FVec F S251904x128 .f32) (cp : IVec S2015232x4 32)
    (b : Fin 4) (c : Fin 16) (x y z : Fin 128) :
    kerTail og cp (ix5 b c x y z)
      = seg og cp (ix2 ⟨b.val * 2097152 + x.val * 16384 + y.val * 128 + z.val, by omega⟩ c) := by
  unfold kerTail
  refine (transpose_apply _ _ _ (ix5 b c x y z) (ix5 b x y z c) (fun a => ?_)).trans ?_
  · match a with
    | ⟨0, _⟩ => rfl
    | ⟨1, _⟩ => rfl
    | ⟨2, _⟩ => rfl
    | ⟨3, _⟩ => rfl
    | ⟨4, _⟩ => rfl
  · refine shapeCast_apply _ _ _ _ ?_
    rw [Shape.rowMajor_val_two, Shape.rowMajor_val_five]
    show (b.val * 2097152 + x.val * 16384 + y.val * 128 + z.val) * 16 + c.val
      = (((b.val * 128 + x.val) * 128 + y.val) * 128 + z.val) * 16 + c.val
    omega

/-! ## The flat voxel index -/

/-- A word below 2³¹ reads the same signed and unsigned. -/
theorem toInt_eq_toNat_of_lt (w : BitVec 32) (h : w.toNat < 2147483648) : w.toInt = w.toNat := by
  have e := BitVec.toInt_eq_toNat_cond w
  omega

/-- A word whose signed reading lies in [0, n), with n at most 2³¹, has that reading unsigned too. -/
theorem toNat_of_toInt_bounds (w : BitVec 32) (n : Nat) (hn : n ≤ 2147483648) (h0 : 0 ≤ w.toInt)
    (h1 : w.toInt < n) : w.toNat < n ∧ w.toInt = w.toNat := by
  have e := BitVec.toInt_eq_toNat_cond w
  have l := w.isLt
  omega

/-- A word times a number's word, while the product of the numbers stays below 2³², is the product. -/
theorem toNat_mul_ofNat (w : BitVec 32) (c : Nat) (hc : c < 4294967296) (h : w.toNat * c < 4294967296) :
    (w * BitVec.ofNat 32 c).toNat = w.toNat * c := by
  rw [BitVec.toNat_mul, BitVec.toNat_ofNat, Nat.mod_eq_of_lt (show c < 2 ^ 32 by omega),
    Nat.mod_eq_of_lt (show w.toNat * c < 2 ^ 32 by omega)]

/-- A sum of two words, while the sum of the numbers stays below 2³², is the sum. -/
theorem toNat_add_of_lt (u v : BitVec 32) (h : u.toNat + v.toNat < 4294967296) :
    (u + v).toNat = u.toNat + v.toNat := by
  rw [BitVec.toNat_add, Nat.mod_eq_of_lt (show u.toNat + v.toNat < 2 ^ 32 by omega)]

/-- For a batch word in [0, 4) and coordinate words in [0, 128) the 32-bit sum does not wrap. -/
theorem flat_toInt (b x y z : BitVec 32) (hb : 0 ≤ b.toInt ∧ b.toInt < 4) (hx : 0 ≤ x.toInt ∧ x.toInt < 128)
    (hy : 0 ≤ y.toInt ∧ y.toInt < 128) (hz : 0 ≤ z.toInt ∧ z.toInt < 128) :
    (b * 2097152#32 + x * 16384#32 + y * 128#32 + z).toInt
      = b.toInt * 2097152 + x.toInt * 16384 + y.toInt * 128 + z.toInt := by
  obtain ⟨nb, ib⟩ := toNat_of_toInt_bounds b 4 (by omega) hb.1 hb.2
  obtain ⟨nx, ix⟩ := toNat_of_toInt_bounds x 128 (by omega) hx.1 hx.2
  obtain ⟨ny, iy⟩ := toNat_of_toInt_bounds y 128 (by omega) hy.1 hy.2
  obtain ⟨nz, iz⟩ := toNat_of_toInt_bounds z 128 (by omega) hz.1 hz.2
  have mb : (b * 2097152#32).toNat = b.toNat * 2097152 := toNat_mul_ofNat b 2097152 (by omega) (by omega)
  have mx : (x * 16384#32).toNat = x.toNat * 16384 := toNat_mul_ofNat x 16384 (by omega) (by omega)
  have my : (y * 128#32).toNat = y.toNat * 128 := toNat_mul_ofNat y 128 (by omega) (by omega)
  have s1 : (b * 2097152#32 + x * 16384#32).toNat = b.toNat * 2097152 + x.toNat * 16384 := by
    rw [toNat_add_of_lt _ _ (by rw [mb, mx]; omega), mb, mx]
  have s2 : (b * 2097152#32 + x * 16384#32 + y * 128#32).toNat
      = b.toNat * 2097152 + x.toNat * 16384 + y.toNat * 128 := by
    rw [toNat_add_of_lt _ _ (by rw [s1, my]; omega), s1, my]
  have s3 : (b * 2097152#32 + x * 16384#32 + y * 128#32 + z).toNat
      = b.toNat * 2097152 + x.toNat * 16384 + y.toNat * 128 + z.toNat := by
    rw [toNat_add_of_lt _ _ (by rw [s2]; omega), s2]
  rw [toInt_eq_toNat_of_lt (b * 2097152#32 + x * 16384#32 + y * 128#32 + z) (by rw [s3]; omega), s3, ib, ix, iy, iz]
  push_cast
  rfl

/-! ## Integer operations at an index -/

/-- A sum of integer vectors at an index is the sum of the words. -/
theorem addi_apply {s : Shape} {w : Nat} (a b : IVec s w) (i : s.Idx) : addi a b i = a i + b i := rfl
/-- A product of integer vectors at an index is the product of the words. -/
theorem muli_apply {s : Shape} {w : Nat} (a b : IVec s w) (i : s.Idx) : muli a b i = a i * b i := rfl

end Cert.KernelIdeal.KReads

end
-- ==== Proof.LibPointIdx.lean ====
/-
  The index computations shared by the two host programs, read at an index.

  A block of N points is an N×4 array of words: column 0 is the batch word, columns 1 … 3 the coordinates x, y, z.
  Both programs cut the coordinate columns out, test every coordinate against 0 ≤ · < 128 and combine the three
  tests of a point by a reduce-and, floor-divide the coordinates by the constant one, and replace the coordinates
  (and the batch word, and the features) of a point outside the grid by a constant through a select on the
  broadcast test bit. Every lemma here reads one of these compositions at an index, for any number of rows N, with
  the shape relations as hypotheses, so that it applies to either program's term.
-/
import Idealize.ShloMosaic.PureOps
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import Idealize.ShloMosaic.Lib.ReduceAll

noncomputable section

namespace Cert.PointIdx

open Idealize.ShloMosaic Idealize.ShloMosaic.ValueIdx

variable {α : Type}

/-! ## Columns cut out of a block of rows -/

/-- The last three of four columns: entry (e, k) of the cut is entry (e, k + 1) of the block. -/
theorem slice_cols_apply {N : Nat} (a0 : (⟨2, ![N, 4]⟩ : Shape).Idx → α)
    (hs : (⟨2, ![N, 4]⟩ : Shape).Slices ![0, 1] ⟨2, ![N, 3]⟩) (e : Fin N) (k : Fin 3) :
    extractStridedSlice ⟨2, ![N, 3]⟩ ![0, 1] a0 hs (ix2 e k) = a0 (ix2 e ⟨k.val + 1, by omega⟩) :=
  slice2_axis1_apply 1 a0 hs e k ⟨k.val + 1, by omega⟩ (by show k.val + 1 = 1 + k.val; omega)

/-- One column o of an N×M block, cut out as an N×1 block and cast to a vector of N entries: entry e is entry
    (e, o) of the block. -/
theorem col_apply {N M : Nat} (o : Nat) (ho : o < M) (v : (⟨2, ![N, M]⟩ : Shape).Idx → α)
    (hs : (⟨2, ![N, M]⟩ : Shape).Slices ![0, o] ⟨2, ![N, 1]⟩)
    (hc : (⟨2, ![N, 1]⟩ : Shape).ShapeCasts ⟨1, ![N]⟩) (e : Fin N) :
    shapeCast ⟨1, ![N]⟩ (extractStridedSlice ⟨2, ![N, 1]⟩ ![0, o] v hs) hc (ix1 e) = v (ix2 e ⟨o, ho⟩) := by
  refine (shapeCast_apply _ hc (ix1 e) (ix2 e (0 : Fin 1)) ?_).trans ?_
  · rw [Shape.rowMajor_val_two, Shape.rowMajor_val_one]
    show e.val * 1 + 0 = e.val
    omega
  · exact slice2_axis1_apply o v hs e (0 : Fin 1) ⟨o, ho⟩ rfl

/-! ## A vector laid out as a column, and a column spread over the rows' entries -/

/-- A vector of N entries laid out as an N×1 column reads, at (e, 0), the vector at e. -/
theorem col_bcast_apply {N : Nat} (h : (⟨1, ![N]⟩ : Shape).BroadcastsInDim ⟨2, ![N, 1]⟩ (![0] : Fin 1 → Fin 2))
    (v : (⟨1, ![N]⟩ : Shape).Idx → α) (e : Fin N) :
    broadcastInDim ⟨2, ![N, 1]⟩ (no_index ![0]) h v (ix2 e (0 : Fin 1)) = v (ix1 e) := by
  refine broadcastInDim_apply _ h v (ix2 e (0 : Fin 1)) (ix1 e) fun a => ?_
  match a with
  | ⟨0, _⟩ =>
    show e.val = if N = 1 then 0 else e.val
    split
    · have := e.isLt; omega
    · rfl

/-- An N×1 column spread over C columns reads, at (e, k), the column at (e, 0). -/
theorem row_bcast_apply {N C : Nat}
    (h : (⟨2, ![N, 1]⟩ : Shape).BroadcastsInDim ⟨2, ![N, C]⟩ (![0, 1] : Fin 2 → Fin 2))
    (v : (⟨2, ![N, 1]⟩ : Shape).Idx → α) (e : Fin N) (k : Fin C) :
    broadcastInDim ⟨2, ![N, C]⟩ (no_index ![0, 1]) h v (ix2 e k) = v (ix2 e (0 : Fin 1)) := by
  refine broadcastInDim_apply _ h v (ix2 e k) (ix2 e (0 : Fin 1)) fun a => ?_
  match a with
  | ⟨0, _⟩ =>
    show e.val = if N = 1 then 0 else e.val
    split
    · have := e.isLt; omega
    · rfl
  | ⟨1, _⟩ => rfl

/-- A scalar spread over any shape reads the scalar everywhere. -/
theorem scalar_bcast_apply {t : Shape} (h : (⟨0, ![]⟩ : Shape).BroadcastsInDim t (![] : Fin 0 → Fin t.rank))
    (c : (⟨0, ![]⟩ : Shape).Idx → α) (j : t.Idx) :
    broadcastInDim t (no_index ![]) h c j = c ix0 :=
  broadcastInDim_apply _ h c j ix0 fun a => a.elim0

/-! ## The selects on the broadcast test bit -/

/-- A point's bit, laid out as a column and spread over the C entries of its row, selects between the row's
    entry and a scalar spread over the block: entry (e, k) is the block's where the bit of e is 1, the scalar
    otherwise. The entries may be words or floats. -/
theorem where_rows_apply {N C : Nat}
    (h2 : (⟨2, ![N, 1]⟩ : Shape).BroadcastsInDim ⟨2, ![N, C]⟩ (![0, 1] : Fin 2 → Fin 2))
    (h1 : (⟨1, ![N]⟩ : Shape).BroadcastsInDim ⟨2, ![N, 1]⟩ (![0] : Fin 1 → Fin 2))
    (h0 : (⟨0, ![]⟩ : Shape).BroadcastsInDim ⟨2, ![N, C]⟩ (![] : Fin 0 → Fin 2))
    (mk : IVec ⟨1, ![N]⟩ 1) (v : (⟨2, ![N, C]⟩ : Shape).Idx → α) (c : (⟨0, ![]⟩ : Shape).Idx → α)
    (e : Fin N) (k : Fin C) :
    select (broadcastInDim ⟨2, ![N, C]⟩ (no_index ![0, 1]) h2 (broadcastInDim ⟨2, ![N, 1]⟩ (no_index ![0]) h1 mk)) v
        (broadcastInDim ⟨2, ![N, C]⟩ (no_index ![]) h0 c) (ix2 e k)
      = if mk (ix1 e) = 1#1 then v (ix2 e k) else c ix0 := by
  rw [select_apply, row_bcast_apply, col_bcast_apply, scalar_bcast_apply]
  rfl

/-- A vector of bits selects between a vector's entry and a scalar spread over the vector. -/
theorem where_vec_apply {N : Nat}
    (h0 : (⟨0, ![]⟩ : Shape).BroadcastsInDim ⟨1, ![N]⟩ (![] : Fin 0 → Fin 1))
    (mk : IVec ⟨1, ![N]⟩ 1) (v : (⟨1, ![N]⟩ : Shape).Idx → α) (c : (⟨0, ![]⟩ : Shape).Idx → α) (e : Fin N) :
    select mk v (broadcastInDim ⟨1, ![N]⟩ (no_index ![]) h0 c) (ix1 e)
      = if mk (ix1 e) = 1#1 then v (ix1 e) else c ix0 := by
  rw [select_apply, scalar_bcast_apply]
  rfl

/-! ## The in-grid test of a point -/

/-- A one-bit word is 0 or 1. -/
theorem bit_cases (a : BitVec 1) : a = 0#1 ∨ a = 1#1 := by
  by_cases h : a = 1#1
  · exact Or.inr h
  · exact Or.inl (eq_zero_of_ne_one h)

/-- The and of two bits is 1 exactly when both are. -/
theorem andi_eq_one_iff (a b : BitVec 1) : IntOp.andi a b = 1#1 ↔ a = 1#1 ∧ b = 1#1 := by
  rcases bit_cases a with rfl | rfl <;> rcases bit_cases b with rfl | rfl <;> decide

/-- The and of a family of bits, started from 1, is 1 exactly when every member is. -/
theorem fold_andi_eq_one_iff {ι : Type} [DecidableEq ι] (S : Finset ι) (g : ι → BitVec 1) :
    S.fold IntOp.andi 1#1 g = 1#1 ↔ ∀ i ∈ S, g i = 1#1 := by
  induction S using Finset.induction_on with
  | empty => simp
  | insert a S ha ih =>
    rw [Finset.fold_insert ha, andi_eq_one_iff, ih, Finset.forall_mem_insert]

/-- The two comparisons of one coordinate word against 0 and 128, combined: 1 exactly when the word, read
    signed, lies in [0, 128). -/
theorem inRange_bit_eq_one_iff (a : BitVec 32) :
    IntOp.andi (IntOp.cmpi .sge a 0#32) (IntOp.cmpi .slt a 128#32) = 1#1 ↔ 0 ≤ a.toInt ∧ a.toInt < 128 := by
  rw [andi_eq_one_iff]
  have h0 : IntOp.cmpi .sge a 0#32 = 1#1 ↔ 0 ≤ a.toInt := by
    show BitVec.ofBool ((0#32).sle a) = 1#1 ↔ _
    rw [BitVec.sle_eq_decide]
    by_cases h : (0#32).toInt ≤ a.toInt
    · rw [decide_eq_true h]; exact ⟨fun _ => h, fun _ => rfl⟩
    · rw [decide_eq_false h]; exact ⟨fun c => absurd c (by decide), fun c => absurd c h⟩
  have h1 : IntOp.cmpi .slt a 128#32 = 1#1 ↔ a.toInt < 128 := by
    show BitVec.ofBool (a.slt 128#32) = 1#1 ↔ _
    rw [BitVec.slt_eq_decide]
    by_cases h : a.toInt < (128#32).toInt
    · rw [decide_eq_true h]; exact ⟨fun _ => h, fun _ => rfl⟩
    · rw [decide_eq_false h]; exact ⟨fun c => absurd c (by decide), fun c => absurd c h⟩
  rw [h0, h1]

/-- A point's three coordinate words, read signed, all lie in [0, 128). -/
def inGridW {N : Nat} (x : IVec ⟨2, ![N, 3]⟩ 32) (e : Fin N) : Prop :=
  (0 ≤ (x (ix2 e 0)).toInt ∧ (x (ix2 e 0)).toInt < 128) ∧ (0 ≤ (x (ix2 e 1)).toInt ∧ (x (ix2 e 1)).toInt < 128)
    ∧ (0 ≤ (x (ix2 e 2)).toInt ∧ (x (ix2 e 2)).toInt < 128)

instance {N : Nat} (x : IVec ⟨2, ![N, 3]⟩ 32) (e : Fin N) : Decidable (inGridW x e) := by
  unfold inGridW; infer_instance

/-- The row index e of the reduced vector with column k put back is (e, k). -/
theorem lift_cols {N : Nat} (h : (⟨2, ![N, 3]⟩ : Shape).Reduces [1] ⟨1, ![N]⟩) (e : Fin N)
    (k : Fin ((⟨2, ![N, 3]⟩ : Shape).size 1)) : h.lift (ix1 e) k = ix2 e (⟨k.val, k.isLt⟩ : Fin 3) := by
  funext c; apply Fin.ext
  fin_cases c <;> rfl

/-- The in-grid bit of a point: every coordinate compared against 0 (at least) and against 128 (less than), the
    two bits of a coordinate combined, and the three coordinates' bits of a point reduced by and from 1. The result
    at point e is 1 when all three coordinates lie in [0, 128) and 0 otherwise. -/
theorem mask_apply {N : Nat}
    (hb0 : (⟨0, ![]⟩ : Shape).BroadcastsInDim ⟨2, ![N, 3]⟩ (![] : Fin 0 → Fin 2))
    (hb1 : (⟨1, ![3]⟩ : Shape).BroadcastsInDim ⟨2, ![1, 3]⟩ (![1] : Fin 1 → Fin 2))
    (hb2 : (⟨2, ![1, 3]⟩ : Shape).BroadcastsInDim ⟨2, ![N, 3]⟩ (![0, 1] : Fin 2 → Fin 2))
    (hred : (⟨2, ![N, 3]⟩ : Shape).ReducesTo [1] ⟨1, ![N]⟩) (hpos : 0 < (⟨0, ![]⟩ : Shape).numel)
    (x : IVec ⟨2, ![N, 3]⟩ 32) (e : Fin N) :
    Host.reduce IntOp.andi
        (andi (cmpi .sge x (broadcastInDim ⟨2, ![N, 3]⟩ (no_index ![]) hb0 (constantI ⟨0, ![]⟩ 32 0#32)))
          (cmpi .slt x (broadcastInDim ⟨2, ![N, 3]⟩ (no_index ![0, 1]) hb2
            (broadcastInDim ⟨2, ![1, 3]⟩ (no_index ![1]) hb1 (constantI ⟨1, ![3]⟩ 32 128#32)))))
        (constantI ⟨0, ![]⟩ 1 1#1) hred hpos (ix1 e)
      = if inGridW x e then 1#1 else 0#1 := by
  have h : (⟨2, ![N, 3]⟩ : Shape).Reduces [1] ⟨1, ![N]⟩ := ⟨hred.1, Nat.one_pos, hred.2⟩
  rw [Host.reduce_eq_fold_single IntOp.andi _ _ hred h hpos]
  have key : ∀ k : Fin 3,
      (andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) (ix2 e k) = 1#1
        ↔ 0 ≤ (x (ix2 e k)).toInt ∧ (x (ix2 e k)).toInt < 128 := fun k =>
    inRange_bit_eq_one_iff (x (ix2 e k))
  have all : (Finset.univ : Finset (Fin ((⟨2, ![N, 3]⟩ : Shape).size 1))).fold IntOp.andi
        (constantI ⟨0, ![]⟩ 1 1#1 (Shape.Idx.first hpos))
        ((andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) ∘ h.lift (ix1 e)) = 1#1
      ↔ inGridW x e := by
    refine (fold_andi_eq_one_iff (Finset.univ : Finset (Fin ((⟨2, ![N, 3]⟩ : Shape).size 1))) _).trans ?_
    have rd : ∀ k : Fin ((⟨2, ![N, 3]⟩ : Shape).size 1),
        ((andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) ∘ h.lift (ix1 e)) k = 1#1
          ↔ 0 ≤ (x (ix2 e (⟨k.val, k.isLt⟩ : Fin 3))).toInt ∧ (x (ix2 e (⟨k.val, k.isLt⟩ : Fin 3))).toInt < 128 := by
      intro k
      rw [Function.comp_apply, lift_cols]
      exact key _
    constructor
    · intro hall
      exact ⟨(rd ⟨0, (by show 0 < 3; omega)⟩).1 (hall _ (Finset.mem_univ _)), (rd ⟨1, (by show 1 < 3; omega)⟩).1 (hall _ (Finset.mem_univ _)),
        (rd ⟨2, (by show 2 < 3; omega)⟩).1 (hall _ (Finset.mem_univ _))⟩
    · intro hg k _
      refine (rd k).2 ?_
      match k with
      | ⟨0, _⟩ => exact hg.1
      | ⟨1, _⟩ => exact hg.2.1
      | ⟨2, _⟩ => exact hg.2.2
  by_cases hg : inGridW x e
  · rw [if_pos hg]; exact all.2 hg
  · rw [if_neg hg]; exact eq_zero_of_ne_one fun h1 => hg (all.1 h1)

/-! ## Floor division by the constant one -/

/-- The host's signed division of a word by 1 is the word: 1 is neither zero nor −1, so the division is the
    rounding-toward-zero quotient, which for the divisor 1 is the dividend. -/
theorem host_divsi_one (a : BitVec 32) : IntOp.divsi .host a 1#32 = a := by
  unfold IntOp.divsi
  rw [if_neg (fun h : IntOp.SDivCorner a 1#32 => h.elim (by decide) fun h' => absurd h'.2 (by decide))]
  exact BitVec.sdiv_one

/-- The host's signed remainder of a word by 1 is zero. -/
theorem host_remsi_one (a : BitVec 32) : IntOp.remsi .host a 1#32 = 0#32 := by
  unfold IntOp.remsi
  rw [if_neg (fun h : IntOp.SDivCorner a 1#32 => h.elim (by decide) fun h' => absurd h'.2 (by decide))]
  exact BitVec.srem_one

/-- Floor division of a block of coordinate words by a scalar whose word is 1, as the host computes it: the
    quotient toward zero, less one where the signs of dividend and divisor differ and the remainder is not zero.
    The remainder by 1 is zero, so the correction is never taken, and the quotient by 1 is the dividend: every
    entry is unchanged. -/
theorem floorDiv_one_apply {N : Nat} (hb : (⟨0, ![]⟩ : Shape).BroadcastsInDim ⟨2, ![N, 3]⟩ (![] : Fin 0 → Fin 2))
    (x : IVec ⟨2, ![N, 3]⟩ 32) (d : IVec ⟨0, ![]⟩ 32) (i : (⟨2, ![N, 3]⟩ : Shape).Idx) (hd : d ix0 = 1#32) :
    select
        (andi (cmpi .ne (signi x) (broadcastInDim ⟨2, ![N, 3]⟩ (no_index ![]) hb (signi d)))
          (cmpi .ne (Host.remsi x (broadcastInDim ⟨2, ![N, 3]⟩ (no_index ![]) hb d))
            (broadcastInDim ⟨2, ![N, 3]⟩ (no_index ![]) hb (constantI ⟨0, ![]⟩ 32 0#32))))
        (subi (Host.divsi x (broadcastInDim ⟨2, ![N, 3]⟩ (no_index ![]) hb d))
          (broadcastInDim ⟨2, ![N, 3]⟩ (no_index ![]) hb (constantI ⟨0, ![]⟩ 32 1#32)))
        (Host.divsi x (broadcastInDim ⟨2, ![N, 3]⟩ (no_index ![]) hb d)) i
      = x i := by
  have hbd : broadcastInDim ⟨2, ![N, 3]⟩ ![] hb d i = 1#32 := (scalar_bcast_apply hb d i).trans hd
  have hdiv : Host.divsi x (broadcastInDim ⟨2, ![N, 3]⟩ ![] hb d) i = x i := by
    show IntOp.divsi .host (x i) (broadcastInDim ⟨2, ![N, 3]⟩ ![] hb d i) = x i
    rw [hbd, host_divsi_one]
  have hrem : Host.remsi x (broadcastInDim ⟨2, ![N, 3]⟩ ![] hb d) i = 0#32 := by
    show IntOp.remsi .host (x i) (broadcastInDim ⟨2, ![N, 3]⟩ ![] hb d i) = 0#32
    rw [hbd, host_remsi_one]
  have hbit : andi (cmpi .ne (signi x) (broadcastInDim ⟨2, ![N, 3]⟩ ![] hb (signi d)))
      (cmpi .ne (Host.remsi x (broadcastInDim ⟨2, ![N, 3]⟩ ![] hb d))
        (broadcastInDim ⟨2, ![N, 3]⟩ ![] hb (constantI ⟨0, ![]⟩ 32 0#32))) i = 0#1 := by
    show IntOp.andi _ (IntOp.cmpi .ne (Host.remsi x (broadcastInDim ⟨2, ![N, 3]⟩ ![] hb d) i) 0#32) = 0#1
    rw [hrem]
    exact BitVec.and_zero
  rw [select_apply, hbit, select_zero, hdiv]

/-- The same as one equation of blocks: floor division by a scalar whose word is 1 returns the block. -/
theorem floorDiv_one {N : Nat} (hb : (⟨0, ![]⟩ : Shape).BroadcastsInDim ⟨2, ![N, 3]⟩ (![] : Fin 0 → Fin 2))
    (x : IVec ⟨2, ![N, 3]⟩ 32) (d : IVec ⟨0, ![]⟩ 32) (hd : d ix0 = 1#32) :
    select
        (andi (cmpi .ne (signi x) (broadcastInDim ⟨2, ![N, 3]⟩ (no_index ![]) hb (signi d)))
          (cmpi .ne (Host.remsi x (broadcastInDim ⟨2, ![N, 3]⟩ (no_index ![]) hb d))
            (broadcastInDim ⟨2, ![N, 3]⟩ (no_index ![]) hb (constantI ⟨0, ![]⟩ 32 0#32))))
        (subi (Host.divsi x (broadcastInDim ⟨2, ![N, 3]⟩ (no_index ![]) hb d))
          (broadcastInDim ⟨2, ![N, 3]⟩ (no_index ![]) hb (constantI ⟨0, ![]⟩ 32 1#32)))
        (Host.divsi x (broadcastInDim ⟨2, ![N, 3]⟩ (no_index ![]) hb d))
      = x :=
  funext fun i => floorDiv_one_apply hb x d i hd

/-- Floor division by the scalar constant 1, passed through the identity conversion of its element type: the
    block is unchanged. -/
theorem floorDiv_const_one {N : Nat} (hb : (⟨0, ![]⟩ : Shape).BroadcastsInDim ⟨2, ![N, 3]⟩ (![] : Fin 0 → Fin 2))
    (x : IVec ⟨2, ![N, 3]⟩ 32) :
    select
        (andi (cmpi .ne (signi x) (broadcastInDim ⟨2, ![N, 3]⟩ (no_index ![]) hb (signi (id (constantI ⟨0, ![]⟩ 32 1#32)))))
          (cmpi .ne (Host.remsi x (broadcastInDim ⟨2, ![N, 3]⟩ (no_index ![]) hb (id (constantI ⟨0, ![]⟩ 32 1#32))))
            (broadcastInDim ⟨2, ![N, 3]⟩ (no_index ![]) hb (constantI ⟨0, ![]⟩ 32 0#32))))
        (subi (Host.divsi x (broadcastInDim ⟨2, ![N, 3]⟩ (no_index ![]) hb (id (constantI ⟨0, ![]⟩ 32 1#32))))
          (broadcastInDim ⟨2, ![N, 3]⟩ (no_index ![]) hb (constantI ⟨0, ![]⟩ 32 1#32)))
        (Host.divsi x (broadcastInDim ⟨2, ![N, 3]⟩ (no_index ![]) hb (id (constantI ⟨0, ![]⟩ 32 1#32))))
      = x :=
  floorDiv_one hb x (id (constantI ⟨0, ![]⟩ 32 1#32)) rfl

end Cert.PointIdx

end
-- ==== Proof.KRows.lean ====
/-
  One padded row at a time: the words the host tail computes for point e from the padded coordinate words.

  Point e is "in the grid" when its three voxel coordinates lie in [0, 128). The mask bit of e is 1 exactly
  then. Dividing by the stride 1 changes nothing, so the masked coordinates of e are its own coordinates when
  e is in the grid and 0 when it is not, and likewise the masked batch word. The flat voxel index
  b·128³ + x·128² + y·128 + z is computed in 32-bit arithmetic; for a point in the grid whose batch word is
  in [0, 4) nothing overflows, and for a point outside the grid it is 0.
-/
import proofs.«119750_j59777354826220_2_alg».proof.Proof.KHost
import proofs.«119750_j59777354826220_2_alg».proof.Proof.KReads
import proofs.«119750_j59777354826220_2_alg».proof.Proof.LibPointIdx

noncomputable section

namespace Cert.KernelIdeal.KRows

open Cert.KernelIdeal Cert.KernelIdeal.Gen Cert.KernelIdeal.HostValue Cert.KernelIdeal.KReads Cert.PointIdx
open Idealize.ShloMosaic Idealize.ShloMosaic.ValueIdx

variable (cp : IVec S2015232x4 32)

/-- Point e's voxel coordinate k is word k + 1 of its row. -/
theorem xyz_apply (e : Fin 2015232) (k : Fin 3) : xyz cp (ix2 e k) = cp (ix2 e ⟨k.val + 1, by omega⟩) := by
  unfold xyz
  exact slice_cols_apply cp _ e k

/-- Point e is in the grid. -/
abbrev inG (e : Fin 2015232) : Prop := inGridW (xyz cp) e

/-- The mask bit of point e. -/
theorem maskv_apply (e : Fin 2015232) : maskv cp (ix1 e) = if inG cp e then 1#1 else 0#1 := by
  unfold maskv ok3
  exact mask_apply _ _ _ _ _ (xyz cp) e

theorem maskv_eq_one_iff (e : Fin 2015232) : maskv cp (ix1 e) = 1#1 ↔ inG cp e := by
  rw [maskv_apply]
  by_cases h : inG cp e
  · simp [h]
  · simp [h]

/-- Floor division by the stride 1 is the identity. -/
theorem fdiv_eq : fdiv cp = xyz cp := by
  unfold fdiv
  exact floorDiv_const_one _ (xyz cp)

/-- The masked voxel coordinates of point e. -/
theorem idx3_apply (e : Fin 2015232) (k : Fin 3) :
    idx3 cp (ix2 e k) = if inG cp e then cp (ix2 e ⟨k.val + 1, by omega⟩) else 0#32 := by
  unfold idx3
  rw [where_rows_apply, fdiv_eq, xyz_apply]
  exact if_congr (maskv_eq_one_iff cp e) rfl rfl

/-- The batch word of point e. -/
theorem bcol_apply (e : Fin 2015232) : bcol cp (ix1 e) = cp (ix2 e 0) := by
  unfold bcol
  exact col_apply 0 (by omega) cp _ _ e

/-- The masked batch word of point e. -/
theorem bsel_apply (e : Fin 2015232) : bsel cp (ix1 e) = if inG cp e then cp (ix2 e 0) else 0#32 := by
  unfold bsel
  rw [where_vec_apply, bcol_apply]
  exact if_congr (maskv_eq_one_iff cp e) rfl rfl

theorem xcol_apply (e : Fin 2015232) : xcol cp (ix1 e) = if inG cp e then cp (ix2 e 1) else 0#32 := by
  unfold xcol
  rw [col_apply 0 (by omega)]
  exact idx3_apply cp e 0
theorem ycol_apply (e : Fin 2015232) : ycol cp (ix1 e) = if inG cp e then cp (ix2 e 2) else 0#32 := by
  unfold ycol
  rw [col_apply 1 (by omega)]
  exact idx3_apply cp e 1
theorem zcol_apply (e : Fin 2015232) : zcol cp (ix1 e) = if inG cp e then cp (ix2 e 3) else 0#32 := by
  unfold zcol
  rw [col_apply 2 (by omega)]
  exact idx3_apply cp e 2

/-- The flat voxel index of point e, as a word. -/
theorem flat_apply (e : Fin 2015232) :
    flat cp (ix1 e) = bsel cp (ix1 e) * 2097152#32 + xcol cp (ix1 e) * 16384#32 + ycol cp (ix1 e) * 128#32 + zcol cp (ix1 e) := by
  unfold flat
  simp only [addi_apply, muli_apply, scalar_bcast_apply]
  rfl

/-- In the grid means: words 1, 2, 3 of the row, read signed, are in [0, 128). -/
theorem inG_iff (e : Fin 2015232) : inG cp e ↔
    (0 ≤ (cp (ix2 e 1)).toInt ∧ (cp (ix2 e 1)).toInt < 128) ∧ (0 ≤ (cp (ix2 e 2)).toInt ∧ (cp (ix2 e 2)).toInt < 128)
      ∧ (0 ≤ (cp (ix2 e 3)).toInt ∧ (cp (ix2 e 3)).toInt < 128) := by
  unfold inG inGridW
  rw [xyz_apply, xyz_apply, xyz_apply]
  exact Iff.rfl

/-- The flat voxel index of a point outside the grid is 0. -/
theorem flat_out (e : Fin 2015232) (h : ¬ inG cp e) : (flat cp (ix1 e)).toInt = 0 := by
  rw [flat_apply, bsel_apply, xcol_apply, ycol_apply, zcol_apply]
  simp only [h, if_false]
  decide

/-- The flat voxel index of a point in the grid whose batch word is in [0, 4): no overflow. -/
theorem flat_in (e : Fin 2015232) (h : inG cp e) (hb : 0 ≤ (cp (ix2 e 0)).toInt ∧ (cp (ix2 e 0)).toInt < 4) :
    (flat cp (ix1 e)).toInt = (cp (ix2 e 0)).toInt * 2097152 + (cp (ix2 e 1)).toInt * 16384
      + (cp (ix2 e 2)).toInt * 128 + (cp (ix2 e 3)).toInt := by
  rw [flat_apply, bsel_apply, xcol_apply, ycol_apply, zcol_apply]
  simp only [h, if_true]
  obtain ⟨h1, h2, h3⟩ := (inG_iff cp e).mp h
  exact flat_toInt _ _ _ _ hb h1 h2 h3

end Cert.KernelIdeal.KRows

end
-- ==== Proof.KSum.lean ====
/-
  A sum over a list padded by rows that contribute nothing is the sum over the unpadded list.
-/
import Mathlib.Algebra.BigOperators.Fin
import Idealize.ShloMosaic.Lib.StableHlo.Run

namespace Cert.PadSum

/-- If the last p terms vanish, the sum over n + p terms is the sum over the first n. -/
theorem sum_pad {M : Type*} [AddCommMonoid M] (n p : Nat) (f : Fin (n + p) → M)
    (h0 : ∀ i : Fin p, f (Fin.natAdd n i) = 0) :
    ∑ i, f i = ∑ i : Fin n, f (Fin.castAdd p i) := by
  rw [Fin.sum_univ_add, Finset.sum_eq_zero (fun i _ => h0 i), add_zero]

/-- The same for the 2,015,232 padded rows of 2,000,000 points. -/
theorem sum_points {M : Type*} [AddCommMonoid M] (f : Fin 2015232 → M)
    (h0 : ∀ e : Fin 2015232, 2000000 ≤ e.val → f e = 0) :
    ∑ e, f e = ∑ e : Fin 2000000, f ⟨e.val, by omega⟩ := by
  have h := sum_pad 2000000 15232 (fun i : Fin (2000000 + 15232) => f ⟨i.val, i.isLt⟩)
    (fun i => h0 _ (by simp only [Fin.natAdd]; omega))
  exact h

end Cert.PadSum

namespace Cert.AfterAppend

open Idealize.ShloMosaic Idealize.ShloMosaic.StableHlo

variable {τ : Topo} {sig : RefSig} {Val : EltTy → Type}

/-- Running two stretches of host operations one after the other is running their concatenation. -/
theorem after_append (A B : List (HloOp τ sig Val)) (V : Valuation τ sig Val) :
    after (A ++ B) V = after B (after A V) := by
  induction A generalizing V with
  | nil => rfl
  | cons op A ih => simp only [List.cons_append, after_cons, ih]

end Cert.AfterAppend
-- ==== Proof.Spec.lean ====
/-
  The dense voxel grid as one function of the two argument arrays.

  The input is a list of 2,000,000 points; point e carries four signed words (batch, x, y, z) and 16
  feature channels. The result has one entry per (batch b, channel c, voxel x y z) with b < 4 and
  x, y, z < 128: the sum of channel c over the points whose four words are exactly (b, x, y, z).
  A point with a coordinate outside [0, 128) matches no voxel and so contributes to no entry.
-/
import Idealize.ShloMosaic.PureOps.Ideal
import Idealize.ShloMosaic.Lib.ValueIdx

noncomputable section

namespace Cert.Spec

open Idealize.ShloMosaic Idealize.ShloMosaic.ValueIdx

/-- The points' words, the points' features, the dense grid. -/
abbrev SC : Shape := ⟨2, ![2000000, 4]⟩
abbrev SF : Shape := ⟨2, ![2000000, 16]⟩
abbrev SO : Shape := ⟨5, ![4, 16, 128, 128, 128]⟩

/-- Word k of point e (k = 0 the batch, 1 2 3 the voxel coordinates), read as a signed integer. -/
def co (a0 : IVec SC 32) (e : Fin 2000000) (k : Fin 4) : Int := (a0 (ix2 e k)).toInt

/-- Point e sits at voxel (x, y, z) of batch b. -/
def lands (a0 : IVec SC 32) (e : Fin 2000000) (b : Fin 4) (x y z : Fin 128) : Prop :=
  co a0 e 0 = (b.val : Int) ∧ co a0 e 1 = (x.val : Int) ∧ co a0 e 2 = (y.val : Int) ∧ co a0 e 3 = (z.val : Int)

instance (a0 : IVec SC 32) (e : Fin 2000000) (b : Fin 4) (x y z : Fin 128) : Decidable (lands a0 e b x y z) := by
  unfold lands; infer_instance

/-- Entry (b, c, x, y, z) of the grid: channel c summed over the points sitting at that voxel. -/
def Gat (a0 : IVec SC 32) (a1 : SF.Idx → EReal) (b : Fin 4) (c : Fin 16) (x y z : Fin 128) : EReal :=
  ∑ e : Fin 2000000, if lands a0 e b x y z then a1 (ix2 e c) else 0

/-- The grid as an array, channels second. -/
def G (a0 : IVec SC 32) (a1 : SF.Idx → EReal) : SO.Idx → EReal :=
  fun i => Gat a0 a1 (i 0) (i 1) (i 2) (i 3) (i 4)

theorem G_apply (a0 : IVec SC 32) (a1 : SF.Idx → EReal) (b : Fin 4) (c : Fin 16) (x y z : Fin 128) :
    G a0 a1 (ix5 b c x y z) = Gat a0 a1 b c x y z := rfl

/-- Every point's batch word names one of the four batches. -/
def batchInRange (a0 : IVec SC 32) : Prop := ∀ e : Fin 2000000, 0 ≤ co a0 e 0 ∧ co a0 e 0 < 4

/-- Point e's three voxel coordinates all lie in [0, 128). -/
def inGrid (a0 : IVec SC 32) (e : Fin 2000000) : Prop :=
  (0 ≤ co a0 e 1 ∧ co a0 e 1 < 128) ∧ (0 ≤ co a0 e 2 ∧ co a0 e 2 < 128) ∧ (0 ≤ co a0 e 3 ∧ co a0 e 3 < 128)

instance (a0 : IVec SC 32) (e : Fin 2000000) : Decidable (inGrid a0 e) := by unfold inGrid; infer_instance

/-- A point sitting at a voxel of the grid has its coordinates in [0, 128). -/
theorem inGrid_of_lands {a0 : IVec SC 32} {e : Fin 2000000} {b : Fin 4} {x y z : Fin 128}
    (h : lands a0 e b x y z) : inGrid a0 e := by
  obtain ⟨-, h1, h2, h3⟩ := h
  have := x.isLt; have := y.isLt; have := z.isLt
  unfold inGrid; omega

end Cert.Spec

end
-- ==== Proof.LibGatherRows.lean ====
/-
  Two shape operations of a table of rows, read at an index.

  A table has N rows of C columns. Gathering its rows at R start indices (one per result row, stored as an
  R×1 array of words) gives an R×C array whose row e is the table's row at the e-th start index, the index
  read as a signed integer and clamped into [0, N − 1]. Scatter-adding R update rows onto the table at R
  start indices adds to every table entry the update entries of the same column whose row's start index,
  read as a signed integer and NOT clamped, is the entry's row; an update row whose index is outside
  [0, N) lands nowhere.
-/
import Idealize.ShloMosaic.PureOps.Ideal
import Idealize.ShloMosaic.Lib.ValueIdx

noncomputable section

open scoped BigOperators

namespace Cert.GatherRows

open Idealize.ShloMosaic Idealize.ShloMosaic.ValueIdx

variable {α : Type}

/-! ## Gathering rows -/

/-- The dimension numbers of a row gather: operand N×C, start indices R×1 (the index vector on axis 1),
    result R×C; the operand's row axis is collapsed and indexed, the column axis is the one offset axis,
    a slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (e, c) of a row gather is the table's entry in column c of the row named by the e-th start index,
    read signed and clamped into [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowsDims N R C wf) x idx (ix2 e c)
      = x (ix2 ⟨min (idx (ix2 e 0)).toInt.toNat (N - 1), by omega⟩ c) := by
  unfold Host.gather
  congr 1
  funext a
  refine Fin.ext ?_
  show (rowsDims N R C wf).start (ix2 e c) idx a + (rowsDims N R C wf).batchCoord (ix2 e c) a
      + (rowsDims N R C wf).offCoord (ix2 e c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (rowsDims N R C wf).startIndexMap from List.mem_singleton.mpr rfl)]
    have hsi : (rowsDims N R C wf).siIdx (ix2 e c) ⟨List.idxOf (⟨0, by decide⟩ : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h01 : (1 : Fin 2) ∉ ([0] : List (Fin 2)) := by decide
    have hs : (rowsDims N R C wf).start (ix2 e c) idx (1 : Fin 2) = 0 := by
      unfold GatherDims.start; rw [dif_neg h01]
    have hk : (1 : Fin 2) ∈ (rowsDims N R C wf).sKept :=
      (GatherDims.mem_sKept _ _).mpr ⟨h01, List.not_mem_nil⟩
    have ho : (rowsDims N R C wf).offCoord (ix2 e c) (1 : Fin 2) = c.val := by
      unfold GatherDims.offCoord; rw [dif_pos hk]; rfl
    show (rowsDims N R C wf).start (ix2 e c) idx (1 : Fin 2) + 0 + (rowsDims N R C wf).offCoord (ix2 e c) (1 : Fin 2) = c.val
    rw [hs, ho]; omega

/-! ## Scatter-adding rows -/

/-- The dimension numbers of a row scatter: operand N×C, scatter indices R×1 (the index vector on axis 1),
    updates R×C; the operand's row axis is the inserted, indexed one, the column axis is the one window axis. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Scatter

variable {N R C w : Nat} (wf : ScatterDims.WF ⟨2, ![N, C]⟩ ⟨2, ![R, 1]⟩ ⟨2, ![R, C]⟩ [1] [0] [0] 1)
  (idx : IVec ⟨2, ![R, 1]⟩ w) (e : Fin R) (c' : Fin C)

/-- On the row axis an update entry starts at its row's index word, read signed. -/
theorem rows_start_row :
    (rowsScatterDims N R C wf).start (ix2 e c') idx (0 : Fin 2) = (idx (ix2 e 0)).toInt := by
  unfold ScatterDims.start
  rw [dif_pos (show (0 : Fin 2) ∈ (rowsScatterDims N R C wf).scatterDimsToOperandDims from List.mem_singleton.mpr rfl)]
  congr 2
  funext b; refine Fin.ext ?_
  match b with
  | ⟨0, _⟩ => rfl
  | ⟨1, _⟩ => rfl

/-- On the column axis it starts at 0. -/
theorem rows_start_col : (rowsScatterDims N R C wf).start (ix2 e c') idx (1 : Fin 2) = 0 := by
  have h01 : (1 : Fin 2) ∉ ([0] : List (Fin 2)) := by decide
  unfold ScatterDims.start; rw [dif_neg h01]

/-- The row axis carries no window coordinate. -/
theorem rows_window_row : (rowsScatterDims N R C wf).window (ix2 e c') (0 : Fin 2) = 0 := by
  have h : (0 : Fin 2) ∉ (rowsScatterDims N R C wf).sKept := by
    simp [ScatterDims.sKept, Shape.kept]
  unfold ScatterDims.window; rw [dif_neg h]

/-- The column axis's window coordinate is the update entry's column. -/
theorem rows_window_col : (rowsScatterDims N R C wf).window (ix2 e c') (1 : Fin 2) = c'.val := by
  have h : (1 : Fin 2) ∈ (rowsScatterDims N R C wf).sKept := by
    simp [ScatterDims.sKept, Shape.kept]
  unfold ScatterDims.window; rw [dif_pos h]; rfl

/-- Update entry (e, c') lands on table entry (n, c) exactly when its row's index word, read signed, is n and
    the columns agree. -/
theorem resultIdx_rows_iff (n : Fin N) (c : Fin C) :
    (rowsScatterDims N R C wf).resultIdx? (ix2 e c') idx = some (ix2 n c)
      ↔ (idx (ix2 e 0)).toInt = (n.val : Int) ∧ c' = c := by
  have hs0 := rows_start_row wf idx e c'
  have hs1 := rows_start_col wf idx e c'
  have hw0 := rows_window_row (N := N) (R := R) wf e c'
  have hw1 := rows_window_col (N := N) (R := R) wf e c'
  unfold ScatterDims.resultIdx?
  split
  · rename_i h
    rw [Option.some.injEq]
    constructor
    · intro hf
      have h0 := congrArg (fun f : (⟨2, ![N, C]⟩ : Shape).Idx => (f (0 : Fin 2)).val) hf
      have h1 := congrArg (fun f : (⟨2, ![N, C]⟩ : Shape).Idx => (f (1 : Fin 2)).val) hf
      have hp := (h (0 : Fin 2)).1
      simp only [hs0, hs1, hw0, hw1] at h0 h1 hp
      refine ⟨?_, Fin.ext ?_⟩
      · show _ = ((ix2 n c (0 : Fin 2)).val : Int)
        rw [← h0]; omega
      · show _ = (ix2 n c (1 : Fin 2)).val
        rw [← h1]; omega
    · rintro ⟨h0, rfl⟩
      funext a; refine Fin.ext ?_
      match a with
      | ⟨0, _⟩ =>
        show ((rowsScatterDims N R C wf).start (ix2 e c') idx (0 : Fin 2) + ((rowsScatterDims N R C wf).window (ix2 e c') (0 : Fin 2) : Int)).toNat = n.val
        rw [hs0, hw0, h0]; omega
      | ⟨1, _⟩ =>
        show ((rowsScatterDims N R C wf).start (ix2 e c') idx (1 : Fin 2) + ((rowsScatterDims N R C wf).window (ix2 e c') (1 : Fin 2) : Int)).toNat = c'.val
        rw [hs1, hw1]; omega
  · rename_i h
    refine iff_of_false (fun hh => nomatch hh) ?_
    rintro ⟨h0, -⟩
    refine h fun a => ?_
    match a with
    | ⟨0, _⟩ =>
      show 0 ≤ (rowsScatterDims N R C wf).start (ix2 e c') idx (0 : Fin 2) + ((rowsScatterDims N R C wf).window (ix2 e c') (0 : Fin 2) : Int) ∧
        (rowsScatterDims N R C wf).start (ix2 e c') idx (0 : Fin 2) + ((rowsScatterDims N R C wf).window (ix2 e c') (0 : Fin 2) : Int) < (N : Int)
      rw [hs0, hw0, h0]; have := n.isLt; omega
    | ⟨1, _⟩ =>
      show 0 ≤ (rowsScatterDims N R C wf).start (ix2 e c') idx (1 : Fin 2) + ((rowsScatterDims N R C wf).window (ix2 e c') (1 : Fin 2) : Int) ∧
        (rowsScatterDims N R C wf).start (ix2 e c') idx (1 : Fin 2) + ((rowsScatterDims N R C wf).window (ix2 e c') (1 : Fin 2) : Int) < (C : Int)
      rw [hs1, hw1]; have := c'.isLt; omega

end Scatter

/-- Entry (n, c) of a row scatter-add is the table's entry plus the sum, over the update rows whose index
    word read as a signed integer is n, of the update's entry in column c. The sum is written over all
    update rows with the others contributing 0. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsScatterDims N R C wf) x idx upd (ix2 n c)
      = x (ix2 n c) + ∑ e : Fin R, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx_rows_iff]
  by_cases hP : (idx (ix2 e 0)).toInt = (n.val : Int)
  · simp only [hP, true_and, if_true]
    rw [Finset.sum_ite_eq' Finset.univ c (fun c' => upd (ix2 e c'))]
    simp
  · simp [hP]

end Cert.GatherRows

end
-- ==== Proof.KSeg.lean ====
/-
  The voxel table read at one entry: row n, column c is the sum of the masked features, in channel c, of the
  points whose flat voxel index is n (the table starts at 0, and a point whose index is no row adds nothing).
-/
import proofs.«119750_j59777354826220_2_alg».proof.Proof.KHost
import proofs.«119750_j59777354826220_2_alg».proof.Proof.LibPointIdx
import proofs.«119750_j59777354826220_2_alg».proof.Proof.LibGatherRows
import Idealize.ShloMosaic.PureOps.Ideal.Laws

noncomputable section

namespace Cert.KernelIdeal.KSeg

open Cert.KernelIdeal Cert.KernelIdeal.Gen Cert.KernelIdeal.HostValue Cert.PointIdx Cert.GatherRows
open Idealize.ShloMosaic Idealize.ShloMosaic.ValueIdx

/-- At exact arithmetic the host's accumulating scatter is the exact sum (as whole arrays). -/
theorem scatterAdd_ideal {s si u : Shape} {w : Nat} (d : ScatterDims s si u) (t : FVec Ideal s .f32) (idx : IVec si w)
    (upd : FVec Ideal u .f32) : Host.scatterAdd (F := Ideal) d t idx upd = Ideal.hostScatterAdd d t idx upd := rfl

/-- The program's scatter is a scatter of rows: table 8388608×16, one index word per update row. -/
theorem scatterDims_eq : scatter_S8388608x16_S2015232x1_S2015232x16_1_0_0_1
    = rowsScatterDims 8388608 2015232 16 scatter_S8388608x16_S2015232x1_S2015232x16_1_0_0_1_wf := rfl

/-- Row n, column c of the voxel table: the masked features of the points whose flat index is n, summed. -/
theorem seg_apply (og : FVec Ideal S251904x128 .f32) (cp : IVec S2015232x4 32) (n : Fin 8388608) (c : Fin 16) :
    seg og cp (ix2 n c)
      = ∑ e : Fin 2015232, if (flat cp (ix1 e)).toInt = (n.val : Int) then mfeat og (ix2 e c) else 0 := by
  unfold seg
  rw [scatterAdd_ideal, scatterDims_eq]
  refine (scatterAdd_rows_apply _ _ _ _ n c).trans ?_
  rw [scalar_bcast_apply, constant_apply, Ideal.ofBits_zero_f32, zero_add]
  refine Finset.sum_congr rfl fun e _ => ?_
  rw [col_bcast_apply]

end Cert.KernelIdeal.KSeg

end
-- ==== Proof.KMath.lean ====
/-
  The kernel program's dense grid is the specification G.

  Entry (b, c, x, y, z) of the result is row n = b·128³ + x·128² + y·128 + z, column c, of the table the
  scatter-add fills: 0 plus the sum, over the 2,015,232 padded points e whose flat voxel index is n, of the
  masked feature of e in channel c. A padding row has coordinates -1, so it is outside the grid and its
  masked feature is 0. A point outside the grid has masked feature 0 whatever its index. A point in the grid
  whose batch word is in [0, 4) has flat index b'·128³ + x'·128² + y'·128 + z' without overflow, and this
  equals n exactly when (b', x', y', z') = (b, x, y, z), all eight numbers being digits in mixed radix
  (4, 128, 128, 128); its masked feature is its feature. So the sum is over the points sitting at that voxel.
-/
import proofs.«119750_j59777354826220_2_alg».proof.Proof.KRows
import proofs.«119750_j59777354826220_2_alg».proof.Proof.KRegion
import proofs.«119750_j59777354826220_2_alg».proof.Proof.KSum
import proofs.«119750_j59777354826220_2_alg».proof.Proof.Spec
import proofs.«119750_j59777354826220_2_alg».proof.Proof.KSeg

noncomputable section

namespace Cert.KernelIdeal.KMath

open Cert.KernelIdeal Cert.KernelIdeal.Gen Cert.KernelIdeal.HostValue Cert.KernelIdeal.KReads Cert.KernelIdeal.KRows
open Cert.KernelIdeal.RegionValue Cert.PointIdx Cert.KernelIdeal.KSeg
open Idealize.ShloMosaic Idealize.ShloMosaic.ValueIdx

variable (a0 : IVec S2000000x4 32) (a1 : FVec Ideal S2000000x16 .f32)

/-- The packed output array at the entry of point e, channel c: the padded feature, kept or zeroed. -/
theorem Gout_entry (e : Fin 2015232) (c : Fin 16) (R : Fin 251904) (j : Fin 8) (hR : R.val = e.val / 8)
    (hj : j.val = e.val % 8) :
    Gout (coordsG a0) (featsG a1) (ix2 R ⟨16 * j.val + c.val, by omega⟩)
      = featsP a1 (ix2 e c) * (if inG (coordsP a0) e then (1 : EReal) else 0) := by
  have he : (⟨8 * R.val + j.val, by omega⟩ : Fin 2015232) = e := Fin.ext (by simp only; omega)
  have hjj : (⟨(16 * j.val + c.val) / 16, by omega⟩ : Fin 8) = j := Fin.ext (by simp only; omega)
  rw [Gout_apply, featsG_apply, he]
  refine congrArg _ (if_congr ?_ rfl rfl)
  rw [hjj, inG_iff]
  unfold inGridP wdP
  rw [coordsG_apply a0 R j 1, coordsG_apply a0 R j 2, coordsG_apply a0 R j 3, he]

/-- The masked feature of point e in channel c. -/
theorem mfeat_entry (e : Fin 2015232) (c : Fin 16) :
    mfeat (Gout (coordsG a0) (featsG a1)) (ix2 e c)
      = featsP a1 (ix2 e c) * (if inG (coordsP a0) e then (1 : EReal) else 0) := by
  rw [mfeat_apply]
  exact Gout_entry a0 a1 e c ⟨e.val / 8, by omega⟩ ⟨e.val % 8, by omega⟩ rfl rfl

/-- A padding row is outside the grid. -/
theorem pad_out (e : Fin 2015232) (he : 2000000 ≤ e.val) : ¬ inG (coordsP a0) e := by
  rw [inG_iff, coordsP_ge a0 e 1 he]
  intro h
  have : (4294967295#32 : BitVec 32).toInt = -1 := by decide
  omega

/-- For a real point, in the grid is the specification's in the grid. -/
theorem inG_real (e : Fin 2015232) (he : e.val < 2000000) :
    inG (coordsP a0) e ↔ Cert.Spec.inGrid a0 ⟨e.val, he⟩ := by
  rw [inG_iff, coordsP_lt a0 e 1 he, coordsP_lt a0 e 2 he, coordsP_lt a0 e 3 he]
  exact Iff.rfl

/-- One term of the voxel row's sum: what point e adds to row n = (b, x, y, z), channel c. -/
theorem term_eq (hb : Cert.Spec.batchInRange a0) (b : Fin 4) (c : Fin 16) (x y z : Fin 128) (e : Fin 2015232) :
    (if (flat (coordsP a0) (ix1 e)).toInt = ((b.val * 2097152 + x.val * 16384 + y.val * 128 + z.val : Nat) : Int)
      then mfeat (Gout (coordsG a0) (featsG a1)) (ix2 e c) else 0)
    = if h : e.val < 2000000 then
        (if Cert.Spec.lands a0 ⟨e.val, h⟩ b x y z then a1 (ix2 ⟨e.val, h⟩ c) else 0) else 0 := by
  rw [mfeat_entry]
  by_cases h : e.val < 2000000
  · rw [dif_pos h]
    by_cases hg : inG (coordsP a0) e
    · -- in the grid: the flat index is the mixed-radix number of the point's four words
      have hbe := hb ⟨e.val, h⟩
      have hg' := (inG_iff (coordsP a0) e).mp hg
      have hfl := flat_in (coordsP a0) e hg (by rw [coordsP_lt a0 e 0 h]; exact hbe)
      rw [hfl, if_pos hg, mul_one, featsP_lt a1 e c h]
      rw [coordsP_lt a0 e 0 h, coordsP_lt a0 e 1 h, coordsP_lt a0 e 2 h, coordsP_lt a0 e 3 h] at *
      refine if_congr ?_ rfl rfl
      unfold Cert.Spec.lands Cert.Spec.co
      unfold Cert.Spec.co at hbe
      have := b.isLt; have := x.isLt; have := y.isLt; have := z.isLt
      constructor
      · intro hh; push_cast at hh; omega
      · rintro ⟨h0, h1, h2, h3⟩; push_cast; omega
    · -- outside the grid: the masked feature is 0, and the point sits at no voxel
      rw [if_neg hg, mul_zero, ite_self]
      rw [if_neg]
      intro hl
      exact hg ((inG_real a0 e h).mpr (Cert.Spec.inGrid_of_lands hl))
  · rw [dif_neg h, if_neg (pad_out a0 e (by omega)), mul_zero, ite_self]

/-- The padding rows add nothing to any voxel row. -/
theorem pad_sum (hb : Cert.Spec.batchInRange a0) (b : Fin 4) (c : Fin 16) (x y z : Fin 128) :
    (∑ e : Fin 2015232,
      if (flat (coordsP a0) (ix1 e)).toInt = ((b.val * 2097152 + x.val * 16384 + y.val * 128 + z.val : Nat) : Int)
        then mfeat (Gout (coordsG a0) (featsG a1)) (ix2 e c) else 0)
    = ∑ e : Fin 2000000, if Cert.Spec.lands a0 e b x y z then a1 (ix2 e c) else 0 := by
  refine (Cert.PadSum.sum_points
    (fun e : Fin 2015232 =>
      if (flat (coordsP a0) (ix1 e)).toInt = ((b.val * 2097152 + x.val * 16384 + y.val * 128 + z.val : Nat) : Int)
        then mfeat (Gout (coordsG a0) (featsG a1)) (ix2 e c) else 0)
    (fun e he => ?_)).trans ?_
  · show (if _ then _ else _) = (0 : EReal)
    rw [term_eq a0 a1 hb b c x y z e, dif_neg (by omega)]
  · refine Finset.sum_congr rfl fun e _ => ?_
    show (if _ then _ else _) = _
    rw [term_eq a0 a1 hb b c x y z ⟨e.val, by omega⟩, dif_pos e.isLt]

/-- The kernel program's dense grid, as a function of the two argument arrays, is the specification. -/
theorem kernel_math (hb : Cert.Spec.batchInRange a0) :
    kerTail (Gout (coordsG a0) (featsG a1)) (coordsP a0) = Cert.Spec.G a0 a1 := by
  funext i
  obtain ⟨b, c, x, y, z, rfl⟩ : ∃ (b : Fin 4) (c : Fin 16) (x y z : Fin 128), i = ix5 b c x y z :=
    ⟨i 0, i 1, i 2, i 3, i 4, eq_ix5 i⟩
  rw [kerTail_apply, Cert.Spec.G_apply, seg_apply]
  exact pad_sum a0 a1 hb b c x y z

end Cert.KernelIdeal.KMath

end
-- ==== Proof.StoredBit.lean ====
/-
  The mask bit of one point, on words.

  A point is kept when each of its three voxel coordinates x, y, z, read as signed 32-bit integers,
  lies in [0, 128). The body computes the six comparisons as one-bit words, ands them, widens the bit
  to 32 bits and converts it to a float; at the extended reals the result is 1 when the point is kept
  and 0 otherwise.
-/
import Idealize.ShloMosaic.PureOps.Ideal
import Idealize.ShloMosaic.Lib.Affine

noncomputable section

namespace Cert.KernelIdeal.BodyValue

open Idealize.ShloMosaic

/-- The six comparison bits of a point with coordinate words `x`, `y`, `z`, anded from the left:
    0 ≤ x, x < 128, 0 ≤ y, y < 128, 0 ≤ z, z < 128. -/
def bit6 (x y z : BitVec 32) : BitVec 1 :=
  IntOp.andi (IntOp.andi (IntOp.andi (IntOp.andi (IntOp.andi
    (IntOp.cmpi .sge x 0#32) (IntOp.cmpi .slt x 128#32))
    (IntOp.cmpi .sge y 0#32)) (IntOp.cmpi .slt y 128#32))
    (IntOp.cmpi .sge z 0#32)) (IntOp.cmpi .slt z 128#32)

/-- The three coordinates, read signed, lie in [0, 128). -/
def InBox (x y z : BitVec 32) : Prop :=
  (0 ≤ x.toInt ∧ x.toInt < 128) ∧ (0 ≤ y.toInt ∧ y.toInt < 128) ∧ (0 ≤ z.toInt ∧ z.toInt < 128)

instance (x y z : BitVec 32) : Decidable (InBox x y z) := by unfold InBox; infer_instance

/-- The anded bit is 1 exactly when the three coordinates lie in [0, 128). -/
theorem bit6_eq_one_iff (x y z : BitVec 32) : bit6 x y z = 1#1 ↔ InBox x y z := by
  unfold bit6 InBox
  have h0 : (0#32 : BitVec 32).toInt = 0 := by decide
  have h128 : (128#32 : BitVec 32).toInt = 128 := by decide
  simp only [IntOp.andi_eq_one, IntOp.cmpi_sge, IntOp.cmpi_slt, h0, h128]
  tauto

/-- A one-bit word widened to 32 bits reads, signed, as the bit. -/
theorem toInt_setWidth_one : ((1#1 : BitVec 1).setWidth 32).toInt = 1 := by decide
theorem toInt_setWidth_zero : ((0#1 : BitVec 1).setWidth 32).toInt = 0 := by decide

/-- The bit widened and converted to a float is, at the extended reals, 1 for a kept point and 0 otherwise. -/
theorem sitofp_bit6 (x y z : BitVec 32) :
    FloatOps.sitofp (F := Ideal) .f32 ((bit6 x y z).setWidth 32) = if InBox x y z then (1 : EReal) else 0 := by
  show (((((bit6 x y z).setWidth 32).toInt : ℤ) : ℝ) : EReal) = _
  by_cases h : InBox x y z
  · rw [if_pos h, (bit6_eq_one_iff x y z).mpr h, toInt_setWidth_one]; norm_num
  · rw [if_neg h]
    have hb : bit6 x y z = 0#1 := by
      rcases BitVec.eq_zero_or_eq_one (bit6 x y z) with h0 | h1
      · exact h0
      · exact absurd ((bit6_eq_one_iff x y z).mp h1) h
    rw [hb, toInt_setWidth_zero]; norm_num

end Cert.KernelIdeal.BodyValue

end
-- ==== Proof.StoredLayout.lean ====
/-
  Three layout operations of the masking body, read at an index given by coordinates.

  A column cut out of a band of columns cut out of a matrix is a column of the matrix; a one-column
  matrix broadcast along its rows repeats its entry over the row; eight matrices of sixteen columns laid
  side by side are read, at column 16 j + k, as matrix j at column k.
-/
import Idealize.ShloMosaic.Lib.ValueIdx
import Idealize.ShloMosaic.Lib.ValueLayout
import Idealize.ShloMosaic.Lib.Pipeline.Value

namespace Cert.KernelIdeal.BodyValue

open Idealize.ShloMosaic Idealize.ShloMosaic.ValueIdx

variable {α : Type}

/-- Column `q` of the band of `m` columns that starts at column `o` of `X` is column `o + q` of `X`. -/
theorem slice_slice_col_apply {n0 n1 m : Nat} (o q : Nat) (X : (⟨2, ![n0, n1]⟩ : Shape).Idx → α)
    (h1 : (⟨2, ![n0, n1]⟩ : Shape).Slices ![0, o] ⟨2, ![n0, m]⟩)
    (h2 : (⟨2, ![n0, m]⟩ : Shape).Slices ![0, q] ⟨2, ![n0, 1]⟩)
    (r : Fin n0) (c : Fin 1) (k : Fin n1) (hk : k.val = o + q) :
    extractStridedSlice ⟨2, ![n0, 1]⟩ ![0, q] (extractStridedSlice ⟨2, ![n0, m]⟩ ![0, o] X h1) h2 (ix2 r c)
      = X (ix2 r k) := by
  have hc : c.val = 0 := by have := c.isLt; omega
  have hm : q + c.val < m := Nat.lt_of_lt_of_le (Nat.add_lt_add_left c.isLt q) (h2.2 1)
  refine (slice2_axis1_apply q _ h2 r c ⟨q + c.val, hm⟩ rfl).trans ?_
  exact slice2_axis1_apply o X h1 r ⟨q + c.val, hm⟩ k (by show k.val = o + (q + c.val); omega)

/-- A one-column matrix broadcast to `b` columns reads, at `(p, c)`, its entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Eight matrices of sixteen columns laid side by side: column `16 j + k` of the result is column `k` of
    matrix `j`. -/
theorem concat8_apply {R : Nat} (g : Fin 8 → ((⟨2, ![R, 16]⟩ : Shape).Idx → α))
    (h : Shape.Concatenates [⟨2, ![R, 16]⟩, ⟨2, ![R, 16]⟩, ⟨2, ![R, 16]⟩, ⟨2, ![R, 16]⟩, ⟨2, ![R, 16]⟩,
      ⟨2, ![R, 16]⟩, ⟨2, ![R, 16]⟩, ⟨2, ![R, 16]⟩] ⟨2, ![R, 128]⟩ 1)
    (r : Fin R) (j : Fin 8) (k : Fin 16) :
    concatenate ⟨2, ![R, 128]⟩ 1 [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h
        (ix2 r ⟨16 * j.val + k.val, by have := j.isLt; have := k.isLt; omega⟩)
      = g j (ix2 r k) := by
  obtain ⟨jv, hj⟩ := j
  interval_cases jv
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 0 (by show 0 < 8; omega) ⟨2, ![R, 16]⟩ (g 0) rfl rfl 0 rfl (ix2 r k)
      (fun b => match b with | ⟨0, _⟩ => fun _ => rfl | ⟨1, _⟩ => fun hb => absurd rfl hb)
      (by show 0 + k.val = 16 * 0 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 1 (by show 1 < 8; omega) ⟨2, ![R, 16]⟩ (g 1) rfl rfl 16 rfl (ix2 r k)
      (fun b => match b with | ⟨0, _⟩ => fun _ => rfl | ⟨1, _⟩ => fun hb => absurd rfl hb)
      (by show 16 + k.val = 16 * 1 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 2 (by show 2 < 8; omega) ⟨2, ![R, 16]⟩ (g 2) rfl rfl 32 rfl (ix2 r k)
      (fun b => match b with | ⟨0, _⟩ => fun _ => rfl | ⟨1, _⟩ => fun hb => absurd rfl hb)
      (by show 32 + k.val = 16 * 2 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 3 (by show 3 < 8; omega) ⟨2, ![R, 16]⟩ (g 3) rfl rfl 48 rfl (ix2 r k)
      (fun b => match b with | ⟨0, _⟩ => fun _ => rfl | ⟨1, _⟩ => fun hb => absurd rfl hb)
      (by show 48 + k.val = 16 * 3 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 4 (by show 4 < 8; omega) ⟨2, ![R, 16]⟩ (g 4) rfl rfl 64 rfl (ix2 r k)
      (fun b => match b with | ⟨0, _⟩ => fun _ => rfl | ⟨1, _⟩ => fun hb => absurd rfl hb)
      (by show 64 + k.val = 16 * 4 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 5 (by show 5 < 8; omega) ⟨2, ![R, 16]⟩ (g 5) rfl rfl 80 rfl (ix2 r k)
      (fun b => match b with | ⟨0, _⟩ => fun _ => rfl | ⟨1, _⟩ => fun hb => absurd rfl hb)
      (by show 80 + k.val = 16 * 5 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 6 (by show 6 < 8; omega) ⟨2, ![R, 16]⟩ (g 6) rfl rfl 96 rfl (ix2 r k)
      (fun b => match b with | ⟨0, _⟩ => fun _ => rfl | ⟨1, _⟩ => fun hb => absurd rfl hb)
      (by show 96 + k.val = 16 * 6 + k.val; omega)
  · exact concatenate_apply_piece (t := ⟨2, ![R, 128]⟩) (1 : Fin 2) [⟨⟨2, ![R, 16]⟩, g 0⟩, ⟨⟨2, ![R, 16]⟩, g 1⟩, ⟨⟨2, ![R, 16]⟩, g 2⟩, ⟨⟨2, ![R, 16]⟩, g 3⟩, ⟨⟨2, ![R, 16]⟩, g 4⟩, ⟨⟨2, ![R, 16]⟩, g 5⟩, ⟨⟨2, ![R, 16]⟩, g 6⟩, ⟨⟨2, ![R, 16]⟩, g 7⟩] h _ 7 (by show 7 < 8; omega) ⟨2, ![R, 16]⟩ (g 7) rfl rfl 112 rfl (ix2 r k)
      (fun b => match b with | ⟨0, _⟩ => fun _ => rfl | ⟨1, _⟩ => fun hb => absurd rfl hb)
      (by show 112 + k.val = 16 * 7 + k.val; omega)

end Cert.KernelIdeal.BodyValue
-- ==== Proof.StoredGroup.lean ====
/-
  The float group of one point of a packed row.

  The words of the point that starts at lane `o` of a packed coordinate row are cut out as a band of four
  lanes; lanes 1, 2, 3 of the band are the coordinates x, y, z. The six comparisons 0 ≤ x, x < 128,
  0 ≤ y, y < 128, 0 ≤ z, z < 128 are anded, the bit is widened, converted to a float and repeated over
  sixteen lanes. Read at row `r` and lane `k` the group is 1 when the point's coordinates lie in
  [0, 128) and 0 otherwise. Each of the body's eight groups is this function at its own lane offset.
-/
import proofs.«119750_j59777354826220_2_alg».proof.Proof.Stored
import proofs.«119750_j59777354826220_2_alg».proof.Proof.StoredBit
import proofs.«119750_j59777354826220_2_alg».proof.Proof.StoredLayout

noncomputable section

namespace Cert.KernelIdeal.BodyValue

open Idealize.ShloMosaic Idealize.ShloMosaic.ValueIdx Cert.KernelIdeal Cert.KernelIdeal.Gen

/-- The anded comparison bits of the point whose four words start at lane `o`, one bit per packed row. -/
def maskBit (X : IVec S2048x32 32) (o : Nat) (h : S2048x32.Slices ![0, o] S2048x4) : IVec S2048x1 1 :=
  have b : IVec S2048x4 32 := extractStridedSlice S2048x4 ![0, o] X h
  have x : IVec S2048x1 32 := extractStridedSlice S2048x1 ![0, 1] b slices_S2048x4_o0_1_S2048x1
  have y : IVec S2048x1 32 := extractStridedSlice S2048x1 ![0, 2] b slices_S2048x4_o0_2_S2048x1
  have z : IVec S2048x1 32 := extractStridedSlice S2048x1 ![0, 3] b slices_S2048x4_o0_3_S2048x1
  andi (andi (andi (andi (andi
    (cmpi .sge x (broadcast S2048x1 0#32)) (cmpi .slt x (broadcast S2048x1 128#32)))
    (cmpi .sge y (broadcast S2048x1 0#32))) (cmpi .slt y (broadcast S2048x1 128#32)))
    (cmpi .sge z (broadcast S2048x1 0#32))) (cmpi .slt z (broadcast S2048x1 128#32))

/-- The float group of that point: the bit as a float, repeated over sixteen lanes. -/
def group (X : IVec S2048x32 32) (o : Nat) (h : S2048x32.Slices ![0, o] S2048x4) : FVec Ideal S2048x16 .f32 :=
  broadcastTo S2048x16
    (shapeCast S2048x1 (sitofp .f32 (extui 32 (maskBit X o h) natLt_1_32) : FVec Ideal S2048x1 .f32)
      shapeCasts_S2048x1_S2048x1)
    broadcasts_S2048x1_S2048x16

/-- The group read at row `r`, lane `k`: 1 when the three coordinate words of the point (lanes `o + 1`,
    `o + 2`, `o + 3` of row `r`) lie in [0, 128), else 0. -/
theorem group_apply (X : IVec S2048x32 32) (o : Nat) (h : S2048x32.Slices ![0, o] S2048x4)
    (r : Fin 2048) (k : Fin 16) (c1 c2 c3 : Fin 32) (h1 : c1.val = o + 1) (h2 : c2.val = o + 2) (h3 : c3.val = o + 3) :
    group X o h (ix2 r k) = if InBox (X (ix2 r c1)) (X (ix2 r c2)) (X (ix2 r c3)) then (1 : EReal) else 0 := by
  unfold group
  refine (broadcastTo_a1_ab_apply _ _ r k).trans ?_
  rw [shapeCast_self]
  refine Eq.trans ?_ (sitofp_bit6 (X (ix2 r c1)) (X (ix2 r c2)) (X (ix2 r c3)))
  rw [← slice_slice_col_apply o 1 X h slices_S2048x4_o0_1_S2048x1 r (0 : Fin 1) c1 h1,
    ← slice_slice_col_apply o 2 X h slices_S2048x4_o0_2_S2048x1 r (0 : Fin 1) c2 h2,
    ← slice_slice_col_apply o 3 X h slices_S2048x4_o0_3_S2048x1 r (0 : Fin 1) c3 h3]
  rfl

/-! The body's eight groups are `group` at the lane offsets 0, 4, …, 28. -/

theorem pay4_eq (v0 : Vec Ideal S2048x32 .i32) :
    k0_pay4 (F := Ideal) v0 = group (k0_pay2 v0) 0 slices_S2048x32_o0_0_S2048x4 := rfl

theorem pay8_eq (v0 : Vec Ideal S2048x32 .i32) :
    k0_pay8 (F := Ideal) (k0_pay6 v0) (k0_pay7 v0) 0#32 = group (k0_pay2 v0) 4 slices_S2048x32_o0_4_S2048x4 := rfl

theorem pay9_eq (v1 : IVec S2048x32 32) :
    k0_pay9 (F := Ideal) v1 = group v1 8 slices_S2048x32_o0_8_S2048x4 := rfl

theorem pay15_eq (v1 : IVec S2048x32 32) :
    k0_pay15 (F := Ideal) (k0_pay12 v1) (k0_pay13 v1) (k0_pay14 v1) = group v1 12 slices_S2048x32_o0_12_S2048x4 := rfl

theorem pay16_eq (v1 : IVec S2048x32 32) :
    k0_pay16 (F := Ideal) v1 = group v1 16 slices_S2048x32_o0_16_S2048x4 := rfl

theorem pay21_eq (v1 : IVec S2048x32 32) :
    k0_pay21 (F := Ideal) (k0_pay18 v1) (k0_pay19 v1) (k0_pay20 v1) 128#32
      = group v1 20 slices_S2048x32_o0_20_S2048x4 := rfl

theorem pay22_eq (v1 : IVec S2048x32 32) :
    k0_pay22 (F := Ideal) v1 = group v1 24 slices_S2048x32_o0_24_S2048x4 := rfl

end Cert.KernelIdeal.BodyValue

end
-- ==== Proof.StoredIdeal.lean ====
/-
  The value the masking body stores, read at an index, at the extended reals.

  Lane 16 j + k of packed row r of the stored block is channel k of point j of that row: the feature
  there times 1 when the point's three voxel coordinates lie in [0, 128), times 0 otherwise.
-/
import proofs.«119750_j59777354826220_2_alg».proof.Proof.Stored
import proofs.«119750_j59777354826220_2_alg».proof.Proof.StoredGroup
import Idealize.ShloMosaic.PureOps.Ideal
import Idealize.ShloMosaic.Lib.ValueIdx
import Idealize.ShloMosaic.Lib.ValueLayout
import Idealize.ShloMosaic.Lib.Pipeline.Value

noncomputable section

namespace Cert.KernelIdeal.BodyValue

open Idealize.ShloMosaic Idealize.ShloMosaic.ValueIdx Cert.KernelIdeal Cert.KernelIdeal.Gen

/-- Word q of point j of packed row r, read as a signed integer. -/
def wd (v0 : Vec Ideal S2048x32 .i32) (r : Fin 2048) (j : Fin 8) (q : Fin 4) : Int :=
  (v0 (ix2 r ⟨4 * j.val + q.val, by omega⟩)).toInt

/-- Point j of packed row r has its three voxel coordinates in [0, 128). -/
def inGrid (v0 : Vec Ideal S2048x32 .i32) (r : Fin 2048) (j : Fin 8) : Prop :=
  (0 ≤ wd v0 r j 1 ∧ wd v0 r j 1 < 128) ∧ (0 ≤ wd v0 r j 2 ∧ wd v0 r j 2 < 128) ∧ (0 ≤ wd v0 r j 3 ∧ wd v0 r j 3 < 128)

instance (v0 : Vec Ideal S2048x32 .i32) (r : Fin 2048) (j : Fin 8) : Decidable (inGrid v0 r j) := by
  unfold inGrid; infer_instance

/-- The band of four lanes of point `j` starts at lane `4 j`. -/
theorem slices4 : ∀ j : Fin 8, S2048x32.Slices ![0, 4 * j.val] S2048x4 := by decide

/-- The eight float groups of a packed coordinate block, by point. -/
def groups (X : IVec S2048x32 32) (j : Fin 8) : FVec Ideal S2048x16 .f32 := group X (4 * j.val) (slices4 j)

/-- The stored block is the feature block times the eight groups laid side by side. -/
theorem stored_eq (v0 : Vec Ideal S2048x32 .i32) (v2 : Vec Ideal S2048x128 .f32) :
    Body.stored (F := Ideal) v0 v2 =
      mulf (k0_pay3 v2) (concatenate S2048x128 1
        [⟨S2048x16, groups (k0_pay2 v0) 0⟩,
        ⟨S2048x16, groups (k0_pay2 v0) 1⟩,
        ⟨S2048x16, groups (k0_pay2 v0) 2⟩,
        ⟨S2048x16, groups (k0_pay2 v0) 3⟩,
        ⟨S2048x16, groups (k0_pay2 v0) 4⟩,
        ⟨S2048x16, groups (k0_pay2 v0) 5⟩,
        ⟨S2048x16, groups (k0_pay2 v0) 6⟩,
        ⟨S2048x16, groups (k0_pay2 v0) 7⟩]
        concatenates_S2048x16_S2048x16_S2048x16_S2048x16_S2048x16_S2048x16_S2048x16_S2048x16_S2048x128_d1) := rfl

/-- Group `j` read at row `r`, lane `k`: 1 when point `j` of row `r` lies in the grid, else 0. -/
theorem groups_apply (v0 : Vec Ideal S2048x32 .i32) (r : Fin 2048) (j : Fin 8) (k : Fin 16) :
    groups v0 j (ix2 r k) = if inGrid v0 r j then (1 : EReal) else 0 := by
  have hj := j.isLt
  refine (group_apply v0 (4 * j.val) (slices4 j) r k ⟨4 * j.val + 1, by omega⟩ ⟨4 * j.val + 2, by omega⟩
    ⟨4 * j.val + 3, by omega⟩ rfl rfl rfl).trans ?_
  by_cases hin : inGrid v0 r j
  · exact (if_pos hin).trans (if_pos hin).symm
  · exact (if_neg hin).trans (if_neg hin).symm

theorem stored_apply (v0 : Vec Ideal S2048x32 .i32) (v2 : Vec Ideal S2048x128 .f32) (r : Fin 2048) (j : Fin 8) (k : Fin 16) :
    Body.stored (F := Ideal) v0 v2 (ix2 r ⟨16 * j.val + k.val, by omega⟩)
      = v2 (ix2 r ⟨16 * j.val + k.val, by omega⟩) * (if inGrid v0 r j then (1 : EReal) else 0) := by
  have e0 : k0_pay2 (F := Ideal) v0 = v0 := shapeCast_self v0 _
  have e2 : k0_pay3 (F := Ideal) v2 = v2 := shapeCast_self v2 _
  rw [stored_eq, e0, e2, mulf_apply]
  refine congrArg (v2 _ * ·) ?_
  exact (concat8_apply (groups v0) concatenates_S2048x16_S2048x16_S2048x16_S2048x16_S2048x16_S2048x16_S2048x16_S2048x16_S2048x128_d1 r j k).trans (groups_apply v0 r j k)

end Cert.KernelIdeal.BodyValue

end
-- ==== Proof.KValue.lean ====
/-
  The kernel program's result buffer after its run is the specification G of the two argument arrays.

  The host operations after the region read two buffers the earlier part of the program wrote: the region's
  packed output array, which ends as the packed features masked point by point, and the padded coordinate
  words, which no later operation or the region changes. Their composition is the dense grid of the masked
  padded points, and that is G.
-/
import proofs.«119750_j59777354826220_2_alg».proof.Proof.KFrame
import proofs.«119750_j59777354826220_2_alg».proof.Proof.KRegion
import proofs.«119750_j59777354826220_2_alg».proof.Proof.KTail
import proofs.«119750_j59777354826220_2_alg».proof.Proof.KMath
import proofs.«119750_j59777354826220_2_alg».proof.Proof.StoredIdeal

set_option maxRecDepth 16384

noncomputable section

namespace Cert.KernelIdeal.KValue

open Cert.KernelIdeal Cert.KernelIdeal.Gen Cert.KernelIdeal.HFrame Cert.KernelIdeal.HostValue
open Cert.KernelIdeal.RegionValue Cert.KernelIdeal.KMath
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-- The body's stored block, entry by entry. -/
theorem storedAt : StoredAt := fun v0 v2 r j k => Cert.KernelIdeal.BodyValue.stored_apply v0 v2 r j k

/-- The constant vector (128, 128, 128) written before the region. -/
theorem V_c (c : Dev nD) : V m c main_c = constantI S3 32 128#32 := by
  dsimp only [V, V0]
  simp only [preOps, hostOps0, hostOps0_1, hostOps0_2, hostOps0_3, hostOps0_4, List.flatten_cons, List.flatten_nil,
    List.append_nil, List.cons_append, List.nil_append]
  after_results

/-- The buffers as the region leaves them: its arrays at their final contents, every other buffer as the
    region found it. -/
abbrev W (c : Dev nD) : Valuation τ sig (Elt Ideal) :=
  Pipeline.withArrays (cfgs 0).spec c (V0 m c) fun w => (dats m 0 c).arrAt w (cfgs 0).N

theorem W_v4 (c : Dev nD) :
    W m c (Proc.devRef .tc main_v4)
      = Gout (coordsG (m ((c : Thread nD τ).loc main_arg0))) (featsG (m ((c : Thread nD τ).loc main_arg1))) := by
  refine (Pipeline.withArrays_arr spec0 launch0.win.arr_inj c _ _ 2).trans ?_
  rw [final m storedAt c, V_v2, V_v3]

theorem W_v0 (c : Dev nD) : W m c (Proc.devRef .tc main_v0) = coordsP (m ((c : Thread nD τ).loc main_arg0)) := by
  refine (Pipeline.withArrays_of_ne _ c (V0 m c) _ main_v0 (by exact (by decide : ∀ w, Pipeline.arrRef spec0 w ≠ main_v0))).trans ?_
  exact V_v0 m c

theorem W_c (c : Dev nD) : W m c (Proc.devRef .tc main_c) = constantI S3 32 128#32 := by
  refine (Pipeline.withArrays_of_ne _ c (V0 m c) _ main_c (by exact (by decide : ∀ w, Pipeline.arrRef spec0 w ≠ main_c))).trans ?_
  exact V_c m c

/-- The result buffer after the run. -/
theorem kernel_value (c : Dev nD) (hb : Cert.Spec.batchInRange (m ((c : Thread nD τ).loc main_arg0))) :
    Pipeline.afterTail₀ cfgs (dats m) 0 (V0 m) tailOps c main_v39
      = Cert.Spec.G (m ((c : Thread nD τ).loc main_arg0)) (m ((c : Thread nD τ).loc main_arg1)) := by
  unfold Pipeline.afterTail₀
  refine (tail_eq (W m c) (W_c m c)).trans ?_
  rw [W_v4, W_v0]
  exact kernel_math _ _ hb

end Cert.KernelIdeal.KValue

end
-- ==== Proof.PreDecode.lean ====
/-
  The precondition read back: every point's batch word names one of the four batches.

  The precondition is printed as one bit: the and of "every feature has finite absolute value" and "every
  point's batch word b satisfies 0 ≤ b and b < 4, signed", each an and over all entries of a one-bit array.
  When the bit is 1 both conjuncts are 1; an and over all entries that is 1 has a 1 at every entry; the entry
  of point e is the and of the two comparison bits of word (e, 0) against the constants 0 and 4; and a signed
  comparison bit that is 1 says the inequality of the words read as integers.
-/
import proofs.«119750_j59777354826220_2_alg».proof.Pre_finite_inputs
import proofs.«119750_j59777354826220_2_alg».proof.Proof.Gen.Pre_finite_inputs
import proofs.«119750_j59777354826220_2_alg».proof.Proof.Spec
import proofs.«119750_j59777354826220_2_alg».proof.Proof.LibPointIdx
import Idealize.ShloMosaic.Lib.ReduceAll
import Idealize.ShloMosaic.Lib.Affine
import Idealize.ShloMosaic.Lib.Pipeline.Value

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- If the printed precondition holds of the coordinate array `a0` and the feature array `a1`, then every
    point's batch word, read signed, lies in [0, 4). -/
theorem batch_of_pre {F : FTy → Type} [FloatOps F] (a0 : IVec Cert.Pre_finite_inputs.S2000000x4 32)
    (a1 : FVec F Cert.Pre_finite_inputs.S2000000x16 .f32)
    (h : Cert.Pre_finite_inputs.fn (F := F) a0 a1 = fun _ => 1#1) : Cert.Spec.batchInRange a0 := by
  intro e
  -- the one bit of the precondition, as the and of its two conjuncts
  have h0 := congrFun h ix0
  dsimp only [Cert.Pre_finite_inputs.fn] at h0
  obtain ⟨-, hall⟩ := IntOp.andi_eq_one.mp h0
  -- the second conjunct is an and over all points: it has a 1 at point e
  have hb := Host.reduce_andi_all _ _ _ _ ix0 hall (ix1 e)
  obtain ⟨hge, hlt⟩ := IntOp.andi_eq_one.mp hb
  -- the two comparison bits say the inequalities of the words read signed
  have h1 := IntOp.cmpi_sge.mp hge
  have h2 := IntOp.cmpi_slt.mp hlt
  -- the compared word is word (e, 0) of the coordinate array
  have hcol := Cert.PointIdx.col_apply (N := 2000000) (M := 4) 0 (by decide) a0
    Facts.slices_S2000000x4_S2000000x1_0_0 Facts.shapeCasts_S2000000x1_S2000000 e
  rw [hcol] at h1 h2
  -- and the words it is compared with are the constants 0 and 4 at every point
  have hz : (0#32 : BitVec 32).toInt = 0 := by decide
  have hf : (4#32 : BitVec 32).toInt = 4 := by decide
  change (0#32 : BitVec 32).toInt ≤ _ at h1
  change _ < (4#32 : BitVec 32).toInt at h2
  rw [hz] at h1
  rw [hf] at h2
  exact ⟨h1, h2⟩

end Cert.PreDecode

end
-- ==== Proof.RefRun.lean ====
/-
  The reference program's run. Its @main is a straight line of tensor operations once the three calls it
  makes (the floor division, which itself calls a select, and the two masked selects) are replaced by their
  bodies over the calls' own buffers: `ops` lists the eighty-five operations in program order, `main_eq`
  says the program is exactly that line, and `run_after` that from any memory with zero counters every weakly
  fair execution terminates with each buffer at the fold of the operations' results over the launch contents.
-/
import proofs.«119750_j59777354826220_2_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 4096 in
/-- @main's operations in order, each call's body in its place over that call's buffers: the bounds test on the
    three coordinates (twelve operations), the floor division by one (seventeen, its select the last), the mask's
    broadcast and the coordinates' select (six), the features' select (five), the zero grid, the four index columns
    each wrapped once if negative, their concatenation, the scatter-add and the transpose. -/
abbrev ops : List (HloOp τ sig (Elt F)) :=
  [ StableHlo.nullary main_c (constantI S3 32 128#32),
    StableHlo.unary main_arg0 main_v0 ((extractStridedSlice S2000000x3 ![0, 1] · slices_S2000000x4_S2000000x3_0_1) : (⟨S2000000x4, .i32⟩ : BufTy).Contents (Elt F) → (⟨S2000000x3, .i32⟩ : BufTy).Contents (Elt F)),
    StableHlo.nullary main_c_0 (constantI S_ 32 0#32),
    StableHlo.unary main_c_0 main_v1 (broadcastInDim S2000000x3 ![] bcast_S_S2000000x3 : (⟨S_, .i32⟩ : BufTy).Contents (Elt F) → (⟨S2000000x3, .i32⟩ : BufTy).Contents (Elt F)),
    StableHlo.binary main_v0 main_v1 main_v2 (cmpi .sge : (⟨S2000000x3, .i32⟩ : BufTy).Contents (Elt F) → (⟨S2000000x3, .i32⟩ : BufTy).Contents (Elt F) → (⟨S2000000x3, .i1⟩ : BufTy).Contents (Elt F)),
    StableHlo.unary main_c main_v3 (broadcastInDim S1x3 ![1] bcast_S3_S1x3_1 : (⟨S3, .i32⟩ : BufTy).Contents (Elt F) → (⟨S1x3, .i32⟩ : BufTy).Contents (Elt F)),
    StableHlo.unary main_v3 main_v4 (broadcastInDim S2000000x3 ![0, 1] bcast_S1x3_S2000000x3_0_1 : (⟨S1x3, .i32⟩ : BufTy).Contents (Elt F) → (⟨S2000000x3, .i32⟩ : BufTy).Contents (Elt F)),
    StableHlo.binary main_v0 main_v4 main_v5 (cmpi .slt : (⟨S2000000x3, .i32⟩ : BufTy).Contents (Elt F) → (⟨S2000000x3, .i32⟩ : BufTy).Contents (Elt F) → (⟨S2000000x3, .i1⟩ : BufTy).Contents (Elt F)),
    StableHlo.binary main_v2 main_v5 main_v6 (andi : (⟨S2000000x3, .i1⟩ : BufTy).Contents (Elt F) → (⟨S2000000x3, .i1⟩ : BufTy).Contents (Elt F) → (⟨S2000000x3, .i1⟩ : BufTy).Contents (Elt F)),
    StableHlo.nullary main_c_1 (constantI S_ 1 1#1),
    StableHlo.binary main_v6 main_c_1 main_v7 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F)),
    StableHlo.nullary main_c_2 (constantI S_ 32 1#32),
    StableHlo.TRef.unary (.of main_c_2 : StableHlo.TRef sig ⟨S_, .i32⟩) main_call0.v0 id,
    StableHlo.TRef.unary main_call0.v0 main_call0.v1 (broadcastInDim S2000000x3 ![] bcast_S_S2000000x3),
    StableHlo.TRef.binary (.of main_v0 : StableHlo.TRef sig ⟨S2000000x3, .i32⟩) main_call0.v1 main_call0.v2 Host.divsi,
    StableHlo.TRef.unary (.of main_v0 : StableHlo.TRef sig ⟨S2000000x3, .i32⟩) main_call0.v3 signi,
    StableHlo.TRef.unary main_call0.v0 main_call0.v4 signi,
    StableHlo.TRef.unary main_call0.v4 main_call0.v5 (broadcastInDim S2000000x3 ![] bcast_S_S2000000x3),
    StableHlo.TRef.binary main_call0.v3 main_call0.v5 main_call0.v6 (cmpi .ne),
    StableHlo.TRef.unary main_call0.v0 main_call0.v7 (broadcastInDim S2000000x3 ![] bcast_S_S2000000x3),
    StableHlo.TRef.binary (.of main_v0 : StableHlo.TRef sig ⟨S2000000x3, .i32⟩) main_call0.v7 main_call0.v8 Host.remsi,
    StableHlo.TRef.nullary main_call0.c (constantI S_ 32 0#32),
    StableHlo.TRef.unary main_call0.c main_call0.v9 (broadcastInDim S2000000x3 ![] bcast_S_S2000000x3),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2000000x3 ![] bcast_S_S2000000x3),
    StableHlo.TRef.binary main_call0.v2 main_call0.v12 main_call0.v13 subi,
    StableHlo.TRef.ternary main_call0.v11 main_call0.v13 main_call0.v2 main_call0.call0.v0 select,
    StableHlo.unary main_v7 main_v9 (broadcastInDim S2000000x1 ![0] bcast_S2000000_S2000000x1_0 : (⟨S2000000, .i1⟩ : BufTy).Contents (Elt F) → (⟨S2000000x1, .i1⟩ : BufTy).Contents (Elt F)),
    StableHlo.nullary main_c_3 (constantI S_ 32 0#32),
    StableHlo.TRef.unary (.of main_c_3 : StableHlo.TRef sig ⟨S_, .i32⟩) main_call1.v0 id,
    StableHlo.TRef.unary (.of main_v9 : StableHlo.TRef sig ⟨S2000000x1, .i1⟩) main_call1.v1 (broadcastInDim S2000000x3 ![0, 1] bcast_S2000000x1_S2000000x3_0_1),
    StableHlo.TRef.unary main_call1.v0 main_call1.v2 (broadcastInDim S2000000x3 ![] bcast_S_S2000000x3),
    StableHlo.TRef.ternary main_call1.v1 (.of main_v8 : StableHlo.TRef sig ⟨S2000000x3, .i32⟩) main_call1.v2 main_call1.v3 select,
    StableHlo.unary main_v7 main_v11 (broadcastInDim S2000000x1 ![0] bcast_S2000000_S2000000x1_0 : (⟨S2000000, .i1⟩ : BufTy).Contents (Elt F) → (⟨S2000000x1, .i1⟩ : BufTy).Contents (Elt F)),
    StableHlo.nullary main_cst (constant S_ .f32 0x00000000#32),
    StableHlo.TRef.unary (.of main_v11 : StableHlo.TRef sig ⟨S2000000x1, .i1⟩) main_call2.v0 (broadcastInDim S2000000x16 ![0, 1] bcast_S2000000x1_S2000000x16_0_1),
    StableHlo.TRef.unary (.of main_cst : StableHlo.TRef sig ⟨S_, .f32⟩) main_call2.v1 (broadcastInDim S2000000x16 ![] bcast_S_S2000000x16),
    StableHlo.TRef.ternary main_call2.v0 (.of main_arg1 : StableHlo.TRef sig ⟨S2000000x16, .f32⟩) main_call2.v1 main_call2.v2 select,
    StableHlo.nullary main_cst_4 (constant S_ .f32 0x00000000#32),
    StableHlo.unary main_cst_4 main_v13 (broadcastInDim S4x128x128x128x16 ![] bcast_S_S4x128x128x128x16 : (⟨S_, .f32⟩ : BufTy).Contents (Elt F) → (⟨S4x128x128x128x16, .f32⟩ : BufTy).Contents (Elt F)),
    StableHlo.unary main_arg0 main_v14 ((extractStridedSlice S2000000x1 ![0, 0] · slices_S2000000x4_S2000000x1_0_0) : (⟨S2000000x4, .i32⟩ : BufTy).Contents (Elt F) → (⟨S2000000x1, .i32⟩ : BufTy).Contents (Elt F)),
    StableHlo.reshape main_v14 main_v15 rfl shapeCasts_S2000000x1_S2000000,
    StableHlo.unary main_v10 main_v16 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v16 main_v17 rfl shapeCasts_S2000000x1_S2000000,
    StableHlo.unary main_v10 main_v18 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v18 main_v19 rfl shapeCasts_S2000000x1_S2000000,
    StableHlo.unary main_v10 main_v20 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v20 main_v21 rfl shapeCasts_S2000000x1_S2000000,
    StableHlo.nullary main_c_5 (constantI S_ 32 0#32),
    StableHlo.unary main_c_5 main_v22 (broadcastInDim S2000000 ![] bcast_S_S2000000 : (⟨S_, .i32⟩ : BufTy).Contents (Elt F) → (⟨S2000000, .i32⟩ : BufTy).Contents (Elt F)),
    StableHlo.binary main_v15 main_v22 main_v23 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 4#32),
    StableHlo.unary main_c_6 main_v24 (broadcastInDim S2000000 ![] bcast_S_S2000000 : (⟨S_, .i32⟩ : BufTy).Contents (Elt F) → (⟨S2000000, .i32⟩ : BufTy).Contents (Elt F)),
    StableHlo.binary main_v15 main_v24 main_v25 (addi : (⟨S2000000, .i32⟩ : BufTy).Contents (Elt F) → (⟨S2000000, .i32⟩ : BufTy).Contents (Elt F) → (⟨S2000000, .i32⟩ : BufTy).Contents (Elt F)),
    StableHlo.ternary main_v23 main_v25 main_v15 main_v26 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_7 (constantI S_ 32 0#32),
    StableHlo.unary main_c_7 main_v27 (broadcastInDim S2000000 ![] bcast_S_S2000000 : (⟨S_, .i32⟩ : BufTy).Contents (Elt F) → (⟨S2000000, .i32⟩ : BufTy).Contents (Elt F)),
    StableHlo.binary main_v17 main_v27 main_v28 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 128#32),
    StableHlo.unary main_c_8 main_v29 (broadcastInDim S2000000 ![] bcast_S_S2000000 : (⟨S_, .i32⟩ : BufTy).Contents (Elt F) → (⟨S2000000, .i32⟩ : BufTy).Contents (Elt F)),
    StableHlo.binary main_v17 main_v29 main_v30 (addi : (⟨S2000000, .i32⟩ : BufTy).Contents (Elt F) → (⟨S2000000, .i32⟩ : BufTy).Contents (Elt F) → (⟨S2000000, .i32⟩ : BufTy).Contents (Elt F)),
    StableHlo.ternary main_v28 main_v30 main_v17 main_v31 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_9 (constantI S_ 32 0#32),
    StableHlo.unary main_c_9 main_v32 (broadcastInDim S2000000 ![] bcast_S_S2000000 : (⟨S_, .i32⟩ : BufTy).Contents (Elt F) → (⟨S2000000, .i32⟩ : BufTy).Contents (Elt F)),
    StableHlo.binary main_v19 main_v32 main_v33 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 128#32),
    StableHlo.unary main_c_10 main_v34 (broadcastInDim S2000000 ![] bcast_S_S2000000 : (⟨S_, .i32⟩ : BufTy).Contents (Elt F) → (⟨S2000000, .i32⟩ : BufTy).Contents (Elt F)),
    StableHlo.binary main_v19 main_v34 main_v35 (addi : (⟨S2000000, .i32⟩ : BufTy).Contents (Elt F) → (⟨S2000000, .i32⟩ : BufTy).Contents (Elt F) → (⟨S2000000, .i32⟩ : BufTy).Contents (Elt F)),
    StableHlo.ternary main_v33 main_v35 main_v19 main_v36 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_11 (constantI S_ 32 0#32),
    StableHlo.unary main_c_11 main_v37 (broadcastInDim S2000000 ![] bcast_S_S2000000 : (⟨S_, .i32⟩ : BufTy).Contents (Elt F) → (⟨S2000000, .i32⟩ : BufTy).Contents (Elt F)),
    StableHlo.binary main_v21 main_v37 main_v38 (cmpi .slt : (⟨S2000000, .i32⟩ : BufTy).Contents (Elt F) → (⟨S2000000, .i32⟩ : BufTy).Contents (Elt F) → (⟨S2000000, .i1⟩ : BufTy).Contents (Elt F)),
    StableHlo.nullary main_c_12 (constantI S_ 32 128#32),
    StableHlo.unary main_c_12 main_v39 (broadcastInDim S2000000 ![] bcast_S_S2000000 : (⟨S_, .i32⟩ : BufTy).Contents (Elt F) → (⟨S2000000, .i32⟩ : BufTy).Contents (Elt F)),
    StableHlo.binary main_v21 main_v39 main_v40 (addi : (⟨S2000000, .i32⟩ : BufTy).Contents (Elt F) → (⟨S2000000, .i32⟩ : BufTy).Contents (Elt F) → (⟨S2000000, .i32⟩ : BufTy).Contents (Elt F)),
    StableHlo.ternary main_v38 main_v40 main_v21 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v26 main_v42 (broadcastInDim S2000000x1 ![0] bcast_S2000000_S2000000x1_0 : (⟨S2000000, .i32⟩ : BufTy).Contents (Elt F) → (⟨S2000000x1, .i32⟩ : BufTy).Contents (Elt F)),
    StableHlo.unary main_v31 main_v43 (broadcastInDim S2000000x1 ![0] bcast_S2000000_S2000000x1_0 : (⟨S2000000, .i32⟩ : BufTy).Contents (Elt F) → (⟨S2000000x1, .i32⟩ : BufTy).Contents (Elt F)),
    StableHlo.unary main_v36 main_v44 (broadcastInDim S2000000x1 ![0] bcast_S2000000_S2000000x1_0 : (⟨S2000000, .i32⟩ : BufTy).Contents (Elt F) → (⟨S2000000x1, .i32⟩ : BufTy).Contents (Elt F)),
    StableHlo.unary main_v41 main_v45 (broadcastInDim S2000000x1 ![0] bcast_S2000000_S2000000x1_0 : (⟨S2000000, .i32⟩ : BufTy).Contents (Elt F) → (⟨S2000000x1, .i32⟩ : BufTy).Contents (Elt F)),
    StableHlo.nary ![main_v42, main_v43, main_v44, main_v45] main_v46 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.ternary main_v13 main_v46 main_v12 main_v47 ((fun x i u => Host.scatterAdd scatter_S4x128x128x128x16_S2000000x4_S2000000x16_1_0123_0123_1 x i u) : (⟨S4x128x128x128x16, .f32⟩ : BufTy).Contents (Elt F) → (⟨S2000000x4, .i32⟩ : BufTy).Contents (Elt F) → (⟨S2000000x16, .f32⟩ : BufTy).Contents (Elt F) → (⟨S4x128x128x128x16, .f32⟩ : BufTy).Contents (Elt F)),
    StableHlo.unary main_v47 main_v48 ((transpose S4x16x128x128x128 [0, 4, 1, 2, 3] · transposes_S4x128x128x128x16_S4x16x128x128x128_0_4_1_2_3) : (⟨S4x128x128x128x16, .f32⟩ : BufTy).Contents (Elt F) → (⟨S4x16x128x128x128, .f32⟩ : BufTy).Contents (Elt F)) ]

set_option maxHeartbeats 4000000 in
set_option maxRecDepth 8192 in
/-- @main is that straight line: the two windows and the functions' definitions unfolded at their calls, both sides
    are one chain of steps once sequencing is reassociated. -/
theorem main_eq (c : Dev nD) : main (F := F) c = StableHlo.seq ops := by
  simp only [main, main_part0, main_part1, fn_floor_divide.body, fn_where.body, fn_where_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation of the line touches TensorCore references only. -/
theorem ops_sub : (ops : List (HloOp τ sig (Elt F))).Forall fun op => op.bufs ⊆ StableHlo.tcRefs τ sig :=
  ⟨nullary_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., unary_bufs_sub .., ternary_bufs_sub .., unary_bufs_sub .., nullary_bufs_sub .., unary_bufs_sub .., unary_bufs_sub .., ternary_bufs_sub .., nullary_bufs_sub .., unary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub .., unary_bufs_sub ..⟩

/-- On the device, for any float values, from any memory with zero counters: every weakly fair execution of @main
    terminates, and every final state has each buffer at the fold of the operations' results over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (launchContents m c) (Proc.devRef .tc b) :=
  run_seq scopedRefs_eq scopedSems_eq defs main (fun _ => ops) main_eq (fun _ => ops_sub) m ρ

end Cert.ReferenceIdeal.HRun

end
-- ==== Proof.RefTerm.lean ====
/-
  The dense voxel grid the reference program computes, written as one function of its two
  argument arrays: each definition below is one intermediate value of the program, its operation
  applied to the earlier intermediates, the bodies of the functions it calls written out operation
  by operation.
-/
import proofs.«119750_j59777354826220_2_alg».proof.Proof.Gen.ReferenceIdeal

noncomputable section

namespace Cert.ReferenceIdeal.RefTerm

open Cert.ReferenceIdeal Cert.ReferenceIdeal.Gen Idealize.ShloMosaic

variable {F : FTy → Type} [FloatOps F]

/-! ## The in-grid mask -/

/-- Words 1, 2, 3 of every point: its three voxel coordinates. -/
def xyz (a0 : IVec S2000000x4 32) : IVec S2000000x3 32 :=
  extractStridedSlice (s := S2000000x4) S2000000x3 ![0, 1] a0 slices_S2000000x4_S2000000x3_0_1

/-- Coordinate ≥ 0, per coordinate. -/
def ge0 (a0 : IVec S2000000x4 32) : IVec S2000000x3 1 :=
  cmpi .sge (xyz a0) (broadcastInDim (s := S_) S2000000x3 ![] bcast_S_S2000000x3 (constantI S_ 32 0#32))

/-- The grid's extent (128, 128, 128) repeated on every row. -/
def lim3 : IVec S2000000x3 32 :=
  broadcastInDim (s := S1x3) S2000000x3 ![0, 1] bcast_S1x3_S2000000x3_0_1
    (broadcastInDim (s := S3) S1x3 ![1] bcast_S3_S1x3_1 (constantI S3 32 128#32))

/-- Coordinate < 128, per coordinate. -/
def lt128 (a0 : IVec S2000000x4 32) : IVec S2000000x3 1 :=
  cmpi .slt (xyz a0) lim3

/-- 0 ≤ coordinate < 128, per coordinate. -/
def ok3 (a0 : IVec S2000000x4 32) : IVec S2000000x3 1 :=
  andi (ge0 a0) (lt128 a0)

/-- The point's three coordinates all lie in [0, 128): the conjunction along each row. -/
def maskv (a0 : IVec S2000000x4 32) : IVec S2000000 1 :=
  Host.reduce (s := S2000000x3) IntOp.andi (ok3 a0) (constantI S_ 1 1#1) reducesTo_S2000000x3_S2000000_d1 h_S_

/-- The mask as a column. -/
def maskc (a0 : IVec S2000000x4 32) : IVec S2000000x1 1 :=
  broadcastInDim (s := S2000000) S2000000x1 ![0] bcast_S2000000_S2000000x1_0 (maskv a0)

/-! ## The floor division of the coordinates by the constant 1 -/

/-- The divisor: the constant 1, converted to its own type. -/
def fdOne : IVec S_ 32 := id (constantI S_ 32 1#32)

/-- The truncating quotient. -/
def fdQuot (a0 : IVec S2000000x4 32) : IVec S2000000x3 32 :=
  Host.divsi (xyz a0) (broadcastInDim (s := S_) S2000000x3 ![] bcast_S_S2000000x3 fdOne)

/-- The operand's sign differs from the divisor's. -/
def fdSignNe (a0 : IVec S2000000x4 32) : IVec S2000000x3 1 :=
  cmpi .ne (signi (xyz a0)) (broadcastInDim (s := S_) S2000000x3 ![] bcast_S_S2000000x3 (signi fdOne))

/-- The remainder is not zero. -/
def fdRemNe (a0 : IVec S2000000x4 32) : IVec S2000000x3 1 :=
  cmpi .ne (Host.remsi (xyz a0) (broadcastInDim (s := S_) S2000000x3 ![] bcast_S_S2000000x3 fdOne))
    (broadcastInDim (s := S_) S2000000x3 ![] bcast_S_S2000000x3 (constantI S_ 32 0#32))

/-- The quotient less one. -/
def fdQuotPred (a0 : IVec S2000000x4 32) : IVec S2000000x3 32 :=
  subi (fdQuot a0) (broadcastInDim (s := S_) S2000000x3 ![] bcast_S_S2000000x3 (constantI S_ 32 1#32))

/-- The floor quotient: the truncating one, less one where the signs differ and the division is inexact. -/
def fdiv (a0 : IVec S2000000x4 32) : IVec S2000000x3 32 :=
  select (andi (fdSignNe a0) (fdRemNe a0)) (fdQuotPred a0) (fdQuot a0)

/-! ## The masked coordinates and features -/

/-- The coordinates of an in-grid point, 0 for a point outside. -/
def idx3 (a0 : IVec S2000000x4 32) : IVec S2000000x3 32 :=
  select (broadcastInDim (s := S2000000x1) S2000000x3 ![0, 1] bcast_S2000000x1_S2000000x3_0_1 (maskc a0))
    (fdiv a0)
    (broadcastInDim (s := S_) S2000000x3 ![] bcast_S_S2000000x3 (id (constantI S_ 32 0#32)))

/-- The features of an in-grid point, 0.0 for a point outside. -/
def feat (a0 : IVec S2000000x4 32) (a1 : FVec F S2000000x16 .f32) : FVec F S2000000x16 .f32 :=
  select (broadcastInDim (s := S2000000x1) S2000000x16 ![0, 1] bcast_S2000000x1_S2000000x16_0_1 (maskc a0))
    a1
    (broadcastInDim (s := S_) S2000000x16 ![] bcast_S_S2000000x16 (constant (F := F) S_ .f32 0x00000000#32))

/-- The zero table. -/
def zeroTable : FVec F S4x128x128x128x16 .f32 :=
  broadcastInDim (s := S_) S4x128x128x128x16 ![] bcast_S_S4x128x128x128x16 (constant (F := F) S_ .f32 0x00000000#32)

/-! ## The four index columns -/

/-- The batch word of every point. -/
def bcol (a0 : IVec S2000000x4 32) : IVec S2000000 32 :=
  shapeCast (s := S2000000x1) S2000000
    (extractStridedSlice (s := S2000000x4) S2000000x1 ![0, 0] a0 slices_S2000000x4_S2000000x1_0_0)
    shapeCasts_S2000000x1_S2000000

/-- The masked x coordinate of every point. -/
def xcol (a0 : IVec S2000000x4 32) : IVec S2000000 32 :=
  shapeCast (s := S2000000x1) S2000000
    (extractStridedSlice (s := S2000000x3) S2000000x1 ![0, 0] (idx3 a0) slices_S2000000x3_S2000000x1_0_0)
    shapeCasts_S2000000x1_S2000000

/-- The masked y coordinate of every point. -/
def ycol (a0 : IVec S2000000x4 32) : IVec S2000000 32 :=
  shapeCast (s := S2000000x1) S2000000
    (extractStridedSlice (s := S2000000x3) S2000000x1 ![0, 1] (idx3 a0) slices_S2000000x3_S2000000x1_0_1)
    shapeCasts_S2000000x1_S2000000

/-- The masked z coordinate of every point. -/
def zcol (a0 : IVec S2000000x4 32) : IVec S2000000 32 :=
  shapeCast (s := S2000000x1) S2000000
    (extractStridedSlice (s := S2000000x3) S2000000x1 ![0, 2] (idx3 a0) slices_S2000000x3_S2000000x1_0_2)
    shapeCasts_S2000000x1_S2000000

/-- A negative index counted from the end of an axis of extent n: v + n where v < 0, else v. -/
def norm (n : BitVec 32) (v : IVec S2000000 32) : IVec S2000000 32 :=
  select (cmpi .slt v (broadcastInDim (s := S_) S2000000 ![] bcast_S_S2000000 (constantI S_ 32 0#32)))
    (addi v (broadcastInDim (s := S_) S2000000 ![] bcast_S_S2000000 (constantI S_ 32 n)))
    v

/-- A length-N vector as an N × 1 column. -/
def asCol (v : IVec S2000000 32) : IVec S2000000x1 32 :=
  broadcastInDim (s := S2000000) S2000000x1 ![0] bcast_S2000000_S2000000x1_0 v

/-- The four normalised index columns side by side: row e is point e's (batch, x, y, z). -/
def idx4 (a0 : IVec S2000000x4 32) : IVec S2000000x4 32 :=
  concatenate S2000000x4 1
    [⟨S2000000x1, asCol (norm 4#32 (bcol a0))⟩, ⟨S2000000x1, asCol (norm 128#32 (xcol a0))⟩,
     ⟨S2000000x1, asCol (norm 128#32 (ycol a0))⟩, ⟨S2000000x1, asCol (norm 128#32 (zcol a0))⟩]
    concatenates_S2000000x1_S2000000x1_S2000000x1_S2000000x1_S2000000x4_d1

/-! ## The grid -/

/-- The scatter-add of the masked features into the zero table at the four index words, channels last. -/
def dense (a0 : IVec S2000000x4 32) (a1 : FVec F S2000000x16 .f32) : FVec F S4x128x128x128x16 .f32 :=
  Host.scatterAdd scatter_S4x128x128x128x16_S2000000x4_S2000000x16_1_0123_0123_1 (zeroTable (F := F)) (idx4 a0) (feat a0 a1)

/-- The grid with the channels second: what the reference returns. -/
def refTerm (a0 : IVec S2000000x4 32) (a1 : FVec F S2000000x16 .f32) : FVec F S4x16x128x128x128 .f32 :=
  transpose (s := S4x128x128x128x16) S4x16x128x128x128 [0, 4, 1, 2, 3] (dense a0 a1)
    transposes_S4x128x128x128x16_S4x16x128x128x128_0_4_1_2_3

end Cert.ReferenceIdeal.RefTerm

end
-- ==== Proof.RefRunTerm.lean ====
/-
  The reference program's result as one function of its arguments: the fold of the eighty-five operations,
  read at the result buffer, is the staged term `RefTerm.refTerm` of the two argument buffers' launch contents.

  The operations come in ten stretches. Each stretch reads a few buffers the earlier ones wrote and writes
  buffers of its own; so the contents after all of them are followed stretch by stretch, keeping after each
  stretch only what a later stretch still reads, each kept buffer at the stage of `RefTerm` it holds.
-/
import proofs.«119750_j59777354826220_2_alg».proof.Proof.RefRun
import proofs.«119750_j59777354826220_2_alg».proof.Proof.RefTerm
import Idealize.ShloMosaic.Lib.Pipeline.Frame

set_option maxRecDepth 16384
set_option Elab.async false

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- The in-grid test: the three coordinates cut out, compared with 0 and with 128, the conjunction along each row; then the constant one. -/
abbrev sA : List (HloOp τ sig (Elt F)) :=
  [ StableHlo.nullary main_c (constantI S3 32 128#32),
    StableHlo.unary main_arg0 main_v0 ((extractStridedSlice S2000000x3 ![0, 1] · slices_S2000000x4_S2000000x3_0_1) : (⟨S2000000x4, .i32⟩ : BufTy).Contents (Elt F) → (⟨S2000000x3, .i32⟩ : BufTy).Contents (Elt F)),
    StableHlo.nullary main_c_0 (constantI S_ 32 0#32),
    StableHlo.unary main_c_0 main_v1 (broadcastInDim S2000000x3 ![] bcast_S_S2000000x3 : (⟨S_, .i32⟩ : BufTy).Contents (Elt F) → (⟨S2000000x3, .i32⟩ : BufTy).Contents (Elt F)),
    StableHlo.binary main_v0 main_v1 main_v2 (cmpi .sge : (⟨S2000000x3, .i32⟩ : BufTy).Contents (Elt F) → (⟨S2000000x3, .i32⟩ : BufTy).Contents (Elt F) → (⟨S2000000x3, .i1⟩ : BufTy).Contents (Elt F)),
    StableHlo.unary main_c main_v3 (broadcastInDim S1x3 ![1] bcast_S3_S1x3_1 : (⟨S3, .i32⟩ : BufTy).Contents (Elt F) → (⟨S1x3, .i32⟩ : BufTy).Contents (Elt F)),
    StableHlo.unary main_v3 main_v4 (broadcastInDim S2000000x3 ![0, 1] bcast_S1x3_S2000000x3_0_1 : (⟨S1x3, .i32⟩ : BufTy).Contents (Elt F) → (⟨S2000000x3, .i32⟩ : BufTy).Contents (Elt F)),
    StableHlo.binary main_v0 main_v4 main_v5 (cmpi .slt : (⟨S2000000x3, .i32⟩ : BufTy).Contents (Elt F) → (⟨S2000000x3, .i32⟩ : BufTy).Contents (Elt F) → (⟨S2000000x3, .i1⟩ : BufTy).Contents (Elt F)),
    StableHlo.binary main_v2 main_v5 main_v6 (andi : (⟨S2000000x3, .i1⟩ : BufTy).Contents (Elt F) → (⟨S2000000x3, .i1⟩ : BufTy).Contents (Elt F) → (⟨S2000000x3, .i1⟩ : BufTy).Contents (Elt F)),
    StableHlo.nullary main_c_1 (constantI S_ 1 1#1),
    StableHlo.binary main_v6 main_c_1 main_v7 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F)),
    StableHlo.nullary main_c_2 (constantI S_ 32 1#32) ]

/-- The floor division of the coordinates by the constant one, its select the last. -/
abbrev sB : List (HloOp τ sig (Elt F)) :=
  [ StableHlo.TRef.unary (.of main_c_2 : StableHlo.TRef sig ⟨S_, .i32⟩) main_call0.v0 id,
    StableHlo.TRef.unary main_call0.v0 main_call0.v1 (broadcastInDim S2000000x3 ![] bcast_S_S2000000x3),
    StableHlo.TRef.binary (.of main_v0 : StableHlo.TRef sig ⟨S2000000x3, .i32⟩) main_call0.v1 main_call0.v2 Host.divsi,
    StableHlo.TRef.unary (.of main_v0 : StableHlo.TRef sig ⟨S2000000x3, .i32⟩) main_call0.v3 signi,
    StableHlo.TRef.unary main_call0.v0 main_call0.v4 signi,
    StableHlo.TRef.unary main_call0.v4 main_call0.v5 (broadcastInDim S2000000x3 ![] bcast_S_S2000000x3),
    StableHlo.TRef.binary main_call0.v3 main_call0.v5 main_call0.v6 (cmpi .ne),
    StableHlo.TRef.unary main_call0.v0 main_call0.v7 (broadcastInDim S2000000x3 ![] bcast_S_S2000000x3),
    StableHlo.TRef.binary (.of main_v0 : StableHlo.TRef sig ⟨S2000000x3, .i32⟩) main_call0.v7 main_call0.v8 Host.remsi,
    StableHlo.TRef.nullary main_call0.c (constantI S_ 32 0#32),
    StableHlo.TRef.unary main_call0.c main_call0.v9 (broadcastInDim S2000000x3 ![] bcast_S_S2000000x3),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2000000x3 ![] bcast_S_S2000000x3),
    StableHlo.TRef.binary main_call0.v2 main_call0.v12 main_call0.v13 subi,
    StableHlo.TRef.ternary main_call0.v11 main_call0.v13 main_call0.v2 main_call0.call0.v0 select ]

/-- The mask as a column, the constant zero, and the select of the coordinates by the mask. -/
abbrev sC : List (HloOp τ sig (Elt F)) :=
  [ StableHlo.unary main_v7 main_v9 (broadcastInDim S2000000x1 ![0] bcast_S2000000_S2000000x1_0 : (⟨S2000000, .i1⟩ : BufTy).Contents (Elt F) → (⟨S2000000x1, .i1⟩ : BufTy).Contents (Elt F)),
    StableHlo.nullary main_c_3 (constantI S_ 32 0#32),
    StableHlo.TRef.unary (.of main_c_3 : StableHlo.TRef sig ⟨S_, .i32⟩) main_call1.v0 id,
    StableHlo.TRef.unary (.of main_v9 : StableHlo.TRef sig ⟨S2000000x1, .i1⟩) main_call1.v1 (broadcastInDim S2000000x3 ![0, 1] bcast_S2000000x1_S2000000x3_0_1),
    StableHlo.TRef.unary main_call1.v0 main_call1.v2 (broadcastInDim S2000000x3 ![] bcast_S_S2000000x3),
    StableHlo.TRef.ternary main_call1.v1 (.of main_v8 : StableHlo.TRef sig ⟨S2000000x3, .i32⟩) main_call1.v2 main_call1.v3 select ]

/-- The mask as a column again, the float zero, and the select of the features by the mask. -/
abbrev sD : List (HloOp τ sig (Elt F)) :=
  [ StableHlo.unary main_v7 main_v11 (broadcastInDim S2000000x1 ![0] bcast_S2000000_S2000000x1_0 : (⟨S2000000, .i1⟩ : BufTy).Contents (Elt F) → (⟨S2000000x1, .i1⟩ : BufTy).Contents (Elt F)),
    StableHlo.nullary main_cst (constant S_ .f32 0x00000000#32),
    StableHlo.TRef.unary (.of main_v11 : StableHlo.TRef sig ⟨S2000000x1, .i1⟩) main_call2.v0 (broadcastInDim S2000000x16 ![0, 1] bcast_S2000000x1_S2000000x16_0_1),
    StableHlo.TRef.unary (.of main_cst : StableHlo.TRef sig ⟨S_, .f32⟩) main_call2.v1 (broadcastInDim S2000000x16 ![] bcast_S_S2000000x16),
    StableHlo.TRef.ternary main_call2.v0 (.of main_arg1 : StableHlo.TRef sig ⟨S2000000x16, .f32⟩) main_call2.v1 main_call2.v2 select ]

/-- The zero table, the batch column, and the three masked coordinate columns. -/
abbrev sE : List (HloOp τ sig (Elt F)) :=
  [ StableHlo.nullary main_cst_4 (constant S_ .f32 0x00000000#32),
    StableHlo.unary main_cst_4 main_v13 (broadcastInDim S4x128x128x128x16 ![] bcast_S_S4x128x128x128x16 : (⟨S_, .f32⟩ : BufTy).Contents (Elt F) → (⟨S4x128x128x128x16, .f32⟩ : BufTy).Contents (Elt F)),
    StableHlo.unary main_arg0 main_v14 ((extractStridedSlice S2000000x1 ![0, 0] · slices_S2000000x4_S2000000x1_0_0) : (⟨S2000000x4, .i32⟩ : BufTy).Contents (Elt F) → (⟨S2000000x1, .i32⟩ : BufTy).Contents (Elt F)),
    StableHlo.reshape main_v14 main_v15 rfl shapeCasts_S2000000x1_S2000000,
    StableHlo.unary main_v10 main_v16 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v16 main_v17 rfl shapeCasts_S2000000x1_S2000000,
    StableHlo.unary main_v10 main_v18 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v18 main_v19 rfl shapeCasts_S2000000x1_S2000000,
    StableHlo.unary main_v10 main_v20 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v20 main_v21 rfl shapeCasts_S2000000x1_S2000000 ]

/-- The batch column wrapped once where negative. -/
abbrev sF1 : List (HloOp τ sig (Elt F)) :=
  [ StableHlo.nullary main_c_5 (constantI S_ 32 0#32),
    StableHlo.unary main_c_5 main_v22 (broadcastInDim S2000000 ![] bcast_S_S2000000 : (⟨S_, .i32⟩ : BufTy).Contents (Elt F) → (⟨S2000000, .i32⟩ : BufTy).Contents (Elt F)),
    StableHlo.binary main_v15 main_v22 main_v23 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 4#32),
    StableHlo.unary main_c_6 main_v24 (broadcastInDim S2000000 ![] bcast_S_S2000000 : (⟨S_, .i32⟩ : BufTy).Contents (Elt F) → (⟨S2000000, .i32⟩ : BufTy).Contents (Elt F)),
    StableHlo.binary main_v15 main_v24 main_v25 (addi : (⟨S2000000, .i32⟩ : BufTy).Contents (Elt F) → (⟨S2000000, .i32⟩ : BufTy).Contents (Elt F) → (⟨S2000000, .i32⟩ : BufTy).Contents (Elt F)),
    StableHlo.ternary main_v23 main_v25 main_v15 main_v26 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

/-- The x column wrapped once where negative. -/
abbrev sF2 : List (HloOp τ sig (Elt F)) :=
  [ StableHlo.nullary main_c_7 (constantI S_ 32 0#32),
    StableHlo.unary main_c_7 main_v27 (broadcastInDim S2000000 ![] bcast_S_S2000000 : (⟨S_, .i32⟩ : BufTy).Contents (Elt F) → (⟨S2000000, .i32⟩ : BufTy).Contents (Elt F)),
    StableHlo.binary main_v17 main_v27 main_v28 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 128#32),
    StableHlo.unary main_c_8 main_v29 (broadcastInDim S2000000 ![] bcast_S_S2000000 : (⟨S_, .i32⟩ : BufTy).Contents (Elt F) → (⟨S2000000, .i32⟩ : BufTy).Contents (Elt F)),
    StableHlo.binary main_v17 main_v29 main_v30 (addi : (⟨S2000000, .i32⟩ : BufTy).Contents (Elt F) → (⟨S2000000, .i32⟩ : BufTy).Contents (Elt F) → (⟨S2000000, .i32⟩ : BufTy).Contents (Elt F)),
    StableHlo.ternary main_v28 main_v30 main_v17 main_v31 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

/-- The y column wrapped once where negative. -/
abbrev sF3 : List (HloOp τ sig (Elt F)) :=
  [ StableHlo.nullary main_c_9 (constantI S_ 32 0#32),
    StableHlo.unary main_c_9 main_v32 (broadcastInDim S2000000 ![] bcast_S_S2000000 : (⟨S_, .i32⟩ : BufTy).Contents (Elt F) → (⟨S2000000, .i32⟩ : BufTy).Contents (Elt F)),
    StableHlo.binary main_v19 main_v32 main_v33 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 128#32),
    StableHlo.unary main_c_10 main_v34 (broadcastInDim S2000000 ![] bcast_S_S2000000 : (⟨S_, .i32⟩ : BufTy).Contents (Elt F) → (⟨S2000000, .i32⟩ : BufTy).Contents (Elt F)),
    StableHlo.binary main_v19 main_v34 main_v35 (addi : (⟨S2000000, .i32⟩ : BufTy).Contents (Elt F) → (⟨S2000000, .i32⟩ : BufTy).Contents (Elt F) → (⟨S2000000, .i32⟩ : BufTy).Contents (Elt F)),
    StableHlo.ternary main_v33 main_v35 main_v19 main_v36 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

/-- The z column wrapped once where negative. -/
abbrev sF4 : List (HloOp τ sig (Elt F)) :=
  [ StableHlo.nullary main_c_11 (constantI S_ 32 0#32),
    StableHlo.unary main_c_11 main_v37 (broadcastInDim S2000000 ![] bcast_S_S2000000 : (⟨S_, .i32⟩ : BufTy).Contents (Elt F) → (⟨S2000000, .i32⟩ : BufTy).Contents (Elt F)),
    StableHlo.binary main_v21 main_v37 main_v38 (cmpi .slt : (⟨S2000000, .i32⟩ : BufTy).Contents (Elt F) → (⟨S2000000, .i32⟩ : BufTy).Contents (Elt F) → (⟨S2000000, .i1⟩ : BufTy).Contents (Elt F)),
    StableHlo.nullary main_c_12 (constantI S_ 32 128#32),
    StableHlo.unary main_c_12 main_v39 (broadcastInDim S2000000 ![] bcast_S_S2000000 : (⟨S_, .i32⟩ : BufTy).Contents (Elt F) → (⟨S2000000, .i32⟩ : BufTy).Contents (Elt F)),
    StableHlo.binary main_v21 main_v39 main_v40 (addi : (⟨S2000000, .i32⟩ : BufTy).Contents (Elt F) → (⟨S2000000, .i32⟩ : BufTy).Contents (Elt F) → (⟨S2000000, .i32⟩ : BufTy).Contents (Elt F)),
    StableHlo.ternary main_v38 main_v40 main_v21 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

/-- The four columns side by side, the scatter-add into the zero table, and the transpose. -/
abbrev sG : List (HloOp τ sig (Elt F)) :=
  [ StableHlo.unary main_v26 main_v42 (broadcastInDim S2000000x1 ![0] bcast_S2000000_S2000000x1_0 : (⟨S2000000, .i32⟩ : BufTy).Contents (Elt F) → (⟨S2000000x1, .i32⟩ : BufTy).Contents (Elt F)),
    StableHlo.unary main_v31 main_v43 (broadcastInDim S2000000x1 ![0] bcast_S2000000_S2000000x1_0 : (⟨S2000000, .i32⟩ : BufTy).Contents (Elt F) → (⟨S2000000x1, .i32⟩ : BufTy).Contents (Elt F)),
    StableHlo.unary main_v36 main_v44 (broadcastInDim S2000000x1 ![0] bcast_S2000000_S2000000x1_0 : (⟨S2000000, .i32⟩ : BufTy).Contents (Elt F) → (⟨S2000000x1, .i32⟩ : BufTy).Contents (Elt F)),
    StableHlo.unary main_v41 main_v45 (broadcastInDim S2000000x1 ![0] bcast_S2000000_S2000000x1_0 : (⟨S2000000, .i32⟩ : BufTy).Contents (Elt F) → (⟨S2000000x1, .i32⟩ : BufTy).Contents (Elt F)),
    StableHlo.nary ![main_v42, main_v43, main_v44, main_v45] main_v46 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.ternary main_v13 main_v46 main_v12 main_v47 ((fun x i u => Host.scatterAdd scatter_S4x128x128x128x16_S2000000x4_S2000000x16_1_0123_0123_1 x i u) : (⟨S4x128x128x128x16, .f32⟩ : BufTy).Contents (Elt F) → (⟨S2000000x4, .i32⟩ : BufTy).Contents (Elt F) → (⟨S2000000x16, .f32⟩ : BufTy).Contents (Elt F) → (⟨S4x128x128x128x16, .f32⟩ : BufTy).Contents (Elt F)),
    StableHlo.unary main_v47 main_v48 ((transpose S4x16x128x128x128 [0, 4, 1, 2, 3] · transposes_S4x128x128x128x16_S4x16x128x128x128_0_4_1_2_3) : (⟨S4x128x128x128x16, .f32⟩ : BufTy).Contents (Elt F) → (⟨S4x16x128x128x128, .f32⟩ : BufTy).Contents (Elt F)) ]

/-- The line of operations is the ten stretches one after the other. -/
theorem ops_split : (ops : List (HloOp τ sig (Elt F))) = sA ++ (sB ++ (sC ++ (sD ++ (sE ++ (sF1 ++ (sF2 ++ (sF3 ++ (sF4 ++ (sG))))))))) := rfl

/-! ## Reading one buffer after a stretch -/

/-- The four index columns side by side, as a function of the four column buffers' contents. -/
def cat4 (a : main_v42.ty.Contents (Elt F)) (b : main_v43.ty.Contents (Elt F)) (c : main_v44.ty.Contents (Elt F))
    (d : main_v45.ty.Contents (Elt F)) : main_v46.ty.Contents (Elt F) :=
  concatenate S2000000x4 1 [⟨S2000000x1, a⟩, ⟨S2000000x1, b⟩, ⟨S2000000x1, c⟩, ⟨S2000000x1, d⟩]
    concatenates_S2000000x1_S2000000x1_S2000000x1_S2000000x1_S2000000x4_d1

/-- The concatenation's result with each operand's contents at its own buffer. -/
theorem concat_result (hxs hy) (G : Valuation τ sig (Elt F)) :
    (nary (τ := τ) ![main_v42, main_v43, main_v44, main_v45] main_v46
        (fun u => concatenate S2000000x4 1 [⟨S2000000x1, u 0⟩, ⟨S2000000x1, u 1⟩, ⟨S2000000x1, u 2⟩, ⟨S2000000x1, u 3⟩]
          concatenates_S2000000x1_S2000000x1_S2000000x1_S2000000x1_S2000000x4_d1) hxs hy).result G
        (no_index (Proc.devRef .tc main_v46))
      = cat4 (G (Proc.devRef .tc main_v42)) (G (Proc.devRef .tc main_v43)) (G (Proc.devRef .tc main_v44))
          (G (Proc.devRef .tc main_v45)) := by
  rw [nary_result]
  rfl

/-- A buffer after a stretch, in one pass: each operation's result at its own buffer is its function of its operands'
    contents, and any other buffer keeps what it held (the buffers told apart by evaluation). -/
local macro "read_back" : tactic => `(tactic|
  simp (disch := decide) only [after_cons, after_nil,
    nullary_result', unary_result', binary_result', ternary_result', reshape_result', concat_result,
    nullary_result_ne', unary_result_ne', binary_result_ne', ternary_result_ne', reshape_result_ne', nary_result_ne'])

section Stretches

variable (a0 : IVec S2000000x4 32) (a1 : FVec F S2000000x16 .f32)

/-! ## What the later stretches read, after each stretch -/

/-- After the in-grid test: the arguments untouched, the coordinates, the in-grid bit of every point, and the constant one. -/
structure Reads1 (W : Valuation τ sig (Elt F)) : Prop where
  arg0 : W (Proc.devRef .tc main_arg0) = a0
  arg1 : W (Proc.devRef .tc main_arg1) = a1
  v0 : W (Proc.devRef .tc main_v0) = RefTerm.xyz a0
  v7 : W (Proc.devRef .tc main_v7) = RefTerm.maskv a0
  c2 : W (Proc.devRef .tc main_c_2) = constantI S_ 32 1#32

/-- After the floor division: its quotient beside what is still read. -/
structure Reads2 (W : Valuation τ sig (Elt F)) : Prop where
  arg0 : W (Proc.devRef .tc main_arg0) = a0
  arg1 : W (Proc.devRef .tc main_arg1) = a1
  v7 : W (Proc.devRef .tc main_v7) = RefTerm.maskv a0
  v8 : W (Proc.devRef .tc main_v8) = RefTerm.fdiv a0

/-- After the coordinates' select: the coordinates with points outside the grid zeroed. -/
structure Reads3 (W : Valuation τ sig (Elt F)) : Prop where
  arg0 : W (Proc.devRef .tc main_arg0) = a0
  arg1 : W (Proc.devRef .tc main_arg1) = a1
  v7 : W (Proc.devRef .tc main_v7) = RefTerm.maskv a0
  v10 : W (Proc.devRef .tc main_v10) = RefTerm.idx3 a0

/-- After the features' select: the features with points outside the grid zeroed. -/
structure Reads4 (W : Valuation τ sig (Elt F)) : Prop where
  arg0 : W (Proc.devRef .tc main_arg0) = a0
  v10 : W (Proc.devRef .tc main_v10) = RefTerm.idx3 a0
  v12 : W (Proc.devRef .tc main_v12) = RefTerm.feat a0 a1

/-- After the columns are cut out: the zero table, the batch column and the three masked coordinate columns. -/
structure Reads5 (W : Valuation τ sig (Elt F)) : Prop where
  v12 : W (Proc.devRef .tc main_v12) = RefTerm.feat a0 a1
  v13 : W (Proc.devRef .tc main_v13) = RefTerm.zeroTable (F := F)
  v15 : W (Proc.devRef .tc main_v15) = RefTerm.bcol a0
  v17 : W (Proc.devRef .tc main_v17) = RefTerm.xcol a0
  v19 : W (Proc.devRef .tc main_v19) = RefTerm.ycol a0
  v21 : W (Proc.devRef .tc main_v21) = RefTerm.zcol a0

/-- After the batch column is wrapped. -/
structure Reads6 (W : Valuation τ sig (Elt F)) : Prop where
  v12 : W (Proc.devRef .tc main_v12) = RefTerm.feat a0 a1
  v13 : W (Proc.devRef .tc main_v13) = RefTerm.zeroTable (F := F)
  v17 : W (Proc.devRef .tc main_v17) = RefTerm.xcol a0
  v19 : W (Proc.devRef .tc main_v19) = RefTerm.ycol a0
  v21 : W (Proc.devRef .tc main_v21) = RefTerm.zcol a0
  v26 : W (Proc.devRef .tc main_v26) = RefTerm.norm 4#32 (RefTerm.bcol a0)

/-- After the x column is wrapped. -/
structure Reads7 (W : Valuation τ sig (Elt F)) : Prop where
  v12 : W (Proc.devRef .tc main_v12) = RefTerm.feat a0 a1
  v13 : W (Proc.devRef .tc main_v13) = RefTerm.zeroTable (F := F)
  v19 : W (Proc.devRef .tc main_v19) = RefTerm.ycol a0
  v21 : W (Proc.devRef .tc main_v21) = RefTerm.zcol a0
  v26 : W (Proc.devRef .tc main_v26) = RefTerm.norm 4#32 (RefTerm.bcol a0)
  v31 : W (Proc.devRef .tc main_v31) = RefTerm.norm 128#32 (RefTerm.xcol a0)

/-- After the y column is wrapped. -/
structure Reads8 (W : Valuation τ sig (Elt F)) : Prop where
  v12 : W (Proc.devRef .tc main_v12) = RefTerm.feat a0 a1
  v13 : W (Proc.devRef .tc main_v13) = RefTerm.zeroTable (F := F)
  v21 : W (Proc.devRef .tc main_v21) = RefTerm.zcol a0
  v26 : W (Proc.devRef .tc main_v26) = RefTerm.norm 4#32 (RefTerm.bcol a0)
  v31 : W (Proc.devRef .tc main_v31) = RefTerm.norm 128#32 (RefTerm.xcol a0)
  v36 : W (Proc.devRef .tc main_v36) = RefTerm.norm 128#32 (RefTerm.ycol a0)

/-- After the z column is wrapped: the four index columns, the features and the zero table. -/
structure Reads9 (W : Valuation τ sig (Elt F)) : Prop where
  v12 : W (Proc.devRef .tc main_v12) = RefTerm.feat a0 a1
  v13 : W (Proc.devRef .tc main_v13) = RefTerm.zeroTable (F := F)
  v26 : W (Proc.devRef .tc main_v26) = RefTerm.norm 4#32 (RefTerm.bcol a0)
  v31 : W (Proc.devRef .tc main_v31) = RefTerm.norm 128#32 (RefTerm.xcol a0)
  v36 : W (Proc.devRef .tc main_v36) = RefTerm.norm 128#32 (RefTerm.ycol a0)
  v41 : W (Proc.devRef .tc main_v41) = RefTerm.norm 128#32 (RefTerm.zcol a0)

/-! ## One stretch at a time -/

/-- The in-grid test, from any contents. -/
theorem reads1 (W : Valuation τ sig (Elt F)) :
    Reads1 (W (Proc.devRef .tc main_arg0)) (W (Proc.devRef .tc main_arg1)) (StableHlo.after sA W) where
  arg0 := by read_back
  arg1 := by read_back
  v0 := by read_back; rfl
  v7 := by read_back; rfl
  c2 := by read_back

/-- The floor division by the constant one. The operations of an inlined function carry each value between a buffer's own type and the
    type the function states for it; the two types are equal by evaluation, so each such transport is the identity and is
    rewritten away before the two sides are compared. -/
theorem reads2 (W : Valuation τ sig (Elt F)) (h : Reads1 a0 a1 W) :
    Reads2 a0 a1 (StableHlo.after sB W) where
  arg0 := (by read_back : StableHlo.after sB W (Proc.devRef .tc main_arg0) = W (Proc.devRef .tc main_arg0)).trans h.arg0
  arg1 := (by read_back : StableHlo.after sB W (Proc.devRef .tc main_arg1) = W (Proc.devRef .tc main_arg1)).trans h.arg1
  v7 := (by read_back : StableHlo.after sB W (Proc.devRef .tc main_v7) = W (Proc.devRef .tc main_v7)).trans h.v7
  v8 := by read_back; (try simp only [h.arg0, h.arg1, h.v0, h.v7, h.c2]); simp only [TRef.ofBuf, TRef.toBuf]; (repeat rw [cast_eq]); rfl

/-- The coordinates' select. -/
theorem reads3 (W : Valuation τ sig (Elt F)) (h : Reads2 a0 a1 W) :
    Reads3 a0 a1 (StableHlo.after sC W) where
  arg0 := (by read_back : StableHlo.after sC W (Proc.devRef .tc main_arg0) = W (Proc.devRef .tc main_arg0)).trans h.arg0
  arg1 := (by read_back : StableHlo.after sC W (Proc.devRef .tc main_arg1) = W (Proc.devRef .tc main_arg1)).trans h.arg1
  v7 := (by read_back : StableHlo.after sC W (Proc.devRef .tc main_v7) = W (Proc.devRef .tc main_v7)).trans h.v7
  v10 := by read_back; (try simp only [h.arg0, h.arg1, h.v7, h.v8]); simp only [TRef.ofBuf, TRef.toBuf]; (repeat rw [cast_eq]); rfl

/-- The features' select. -/
theorem reads4 (W : Valuation τ sig (Elt F)) (h : Reads3 a0 a1 W) :
    Reads4 a0 a1 (StableHlo.after sD W) where
  arg0 := (by read_back : StableHlo.after sD W (Proc.devRef .tc main_arg0) = W (Proc.devRef .tc main_arg0)).trans h.arg0
  v10 := (by read_back : StableHlo.after sD W (Proc.devRef .tc main_v10) = W (Proc.devRef .tc main_v10)).trans h.v10
  v12 := by read_back; (try simp only [h.arg0, h.arg1, h.v7, h.v10]); simp only [TRef.ofBuf, TRef.toBuf]; (repeat rw [cast_eq]); rfl

/-- The zero table and the four columns. -/
theorem reads5 (W : Valuation τ sig (Elt F)) (h : Reads4 a0 a1 W) :
    Reads5 a0 a1 (StableHlo.after sE W) where
  v12 := (by read_back : StableHlo.after sE W (Proc.devRef .tc main_v12) = W (Proc.devRef .tc main_v12)).trans h.v12
  v13 := by read_back; (try simp only [h.arg0, h.v10, h.v12]); rfl
  v15 := by read_back; (try simp only [h.arg0, h.v10, h.v12]); rfl
  v17 := by read_back; (try simp only [h.arg0, h.v10, h.v12]); rfl
  v19 := by read_back; (try simp only [h.arg0, h.v10, h.v12]); rfl
  v21 := by read_back; (try simp only [h.arg0, h.v10, h.v12]); rfl

/-- The batch column wrapped. -/
theorem reads6 (W : Valuation τ sig (Elt F)) (h : Reads5 a0 a1 W) :
    Reads6 a0 a1 (StableHlo.after sF1 W) where
  v12 := (by read_back : StableHlo.after sF1 W (Proc.devRef .tc main_v12) = W (Proc.devRef .tc main_v12)).trans h.v12
  v13 := (by read_back : StableHlo.after sF1 W (Proc.devRef .tc main_v13) = W (Proc.devRef .tc main_v13)).trans h.v13
  v17 := (by read_back : StableHlo.after sF1 W (Proc.devRef .tc main_v17) = W (Proc.devRef .tc main_v17)).trans h.v17
  v19 := (by read_back : StableHlo.after sF1 W (Proc.devRef .tc main_v19) = W (Proc.devRef .tc main_v19)).trans h.v19
  v21 := (by read_back : StableHlo.after sF1 W (Proc.devRef .tc main_v21) = W (Proc.devRef .tc main_v21)).trans h.v21
  v26 := by read_back; (try simp only [h.v12, h.v13, h.v15, h.v17, h.v19, h.v21]); rfl

/-- The x column wrapped. -/
theorem reads7 (W : Valuation τ sig (Elt F)) (h : Reads6 a0 a1 W) :
    Reads7 a0 a1 (StableHlo.after sF2 W) where
  v12 := (by read_back : StableHlo.after sF2 W (Proc.devRef .tc main_v12) = W (Proc.devRef .tc main_v12)).trans h.v12
  v13 := (by read_back : StableHlo.after sF2 W (Proc.devRef .tc main_v13) = W (Proc.devRef .tc main_v13)).trans h.v13
  v19 := (by read_back : StableHlo.after sF2 W (Proc.devRef .tc main_v19) = W (Proc.devRef .tc main_v19)).trans h.v19
  v21 := (by read_back : StableHlo.after sF2 W (Proc.devRef .tc main_v21) = W (Proc.devRef .tc main_v21)).trans h.v21
  v26 := (by read_back : StableHlo.after sF2 W (Proc.devRef .tc main_v26) = W (Proc.devRef .tc main_v26)).trans h.v26
  v31 := by read_back; (try simp only [h.v12, h.v13, h.v17, h.v19, h.v21, h.v26]); rfl

/-- The y column wrapped. -/
theorem reads8 (W : Valuation τ sig (Elt F)) (h : Reads7 a0 a1 W) :
    Reads8 a0 a1 (StableHlo.after sF3 W) where
  v12 := (by read_back : StableHlo.after sF3 W (Proc.devRef .tc main_v12) = W (Proc.devRef .tc main_v12)).trans h.v12
  v13 := (by read_back : StableHlo.after sF3 W (Proc.devRef .tc main_v13) = W (Proc.devRef .tc main_v13)).trans h.v13
  v21 := (by read_back : StableHlo.after sF3 W (Proc.devRef .tc main_v21) = W (Proc.devRef .tc main_v21)).trans h.v21
  v26 := (by read_back : StableHlo.after sF3 W (Proc.devRef .tc main_v26) = W (Proc.devRef .tc main_v26)).trans h.v26
  v31 := (by read_back : StableHlo.after sF3 W (Proc.devRef .tc main_v31) = W (Proc.devRef .tc main_v31)).trans h.v31
  v36 := by read_back; (try simp only [h.v12, h.v13, h.v19, h.v21, h.v26, h.v31]); rfl

/-- The z column wrapped. -/
theorem reads9 (W : Valuation τ sig (Elt F)) (h : Reads8 a0 a1 W) :
    Reads9 a0 a1 (StableHlo.after sF4 W) where
  v12 := (by read_back : StableHlo.after sF4 W (Proc.devRef .tc main_v12) = W (Proc.devRef .tc main_v12)).trans h.v12
  v13 := (by read_back : StableHlo.after sF4 W (Proc.devRef .tc main_v13) = W (Proc.devRef .tc main_v13)).trans h.v13
  v26 := (by read_back : StableHlo.after sF4 W (Proc.devRef .tc main_v26) = W (Proc.devRef .tc main_v26)).trans h.v26
  v31 := (by read_back : StableHlo.after sF4 W (Proc.devRef .tc main_v31) = W (Proc.devRef .tc main_v31)).trans h.v31
  v36 := (by read_back : StableHlo.after sF4 W (Proc.devRef .tc main_v36) = W (Proc.devRef .tc main_v36)).trans h.v36
  v41 := by read_back; (try simp only [h.v12, h.v13, h.v21, h.v26, h.v31, h.v36]); rfl

/-- The last stretch: the four columns side by side, the scatter-add and the transpose. -/
theorem reads10 (W : Valuation τ sig (Elt F)) (h : Reads9 a0 a1 W) :
    StableHlo.after sG W (Proc.devRef .tc main_v48) = RefTerm.refTerm a0 a1 := by
  read_back; simp only [h.v12, h.v13, h.v26, h.v31, h.v36, h.v41]; rfl

end Stretches

/-! ## All ten -/

/-- The fold at the result buffer is the staged term of the argument buffers' contents. -/
theorem out_eq (V : Valuation τ sig (Elt F)) :
    after ops V (Proc.devRef .tc main_v48)
      = RefTerm.refTerm (V (Proc.devRef .tc main_arg0)) (V (Proc.devRef .tc main_arg1)) := by
  rw [ops_split, StableHlo.after_append, StableHlo.after_append, StableHlo.after_append, StableHlo.after_append,
    StableHlo.after_append, StableHlo.after_append, StableHlo.after_append, StableHlo.after_append, StableHlo.after_append]
  exact reads10 _ _ _ (reads9 _ _ _ (reads8 _ _ _ (reads7 _ _ _ (reads6 _ _ _ (reads5 _ _ _ (reads4 _ _ _
    (reads3 _ _ _ (reads2 _ _ _ (reads1 V)))))))))

set_option maxHeartbeats 1000000 in
/-- No operation writes the first argument's buffer. -/
theorem arg0_eq (V : Valuation τ sig (Elt F)) :
    after ops V (Proc.devRef .tc main_arg0) = V (Proc.devRef .tc main_arg0) := by
  read_back

set_option maxHeartbeats 1000000 in
/-- No operation writes the second argument's buffer. -/
theorem arg1_eq (V : Valuation τ sig (Elt F)) :
    after ops V (Proc.devRef .tc main_arg1) = V (Proc.devRef .tc main_arg1) := by
  read_back

/-- On the device, for any float values, from any memory with zero counters: every weakly fair execution of @main
    terminates with the result buffer at the staged term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans (out_eq (launchContents m c)),
      (h c main_arg0).trans (arg0_eq (launchContents m c)),
      (h c main_arg1).trans (arg1_eq (launchContents m c))⟩)
    (run_after m ρ)

end Cert.ReferenceIdeal.HRun

end
-- ==== Proof.LibScatterPoints.lean ====
/-
  The scatter-add of feature rows into a dense grid, read at an index.

  A table has one entry per (b, x, y, z, c): batch b < B, voxel (x, y, z) with x < X, y < Y, z < Z, channel
  c < C. Each of R update rows carries C channel values and is addressed by four index words (b, x, y, z),
  stored as one row of an R×4 array. Scatter-adding the update rows onto the table adds to every table entry
  (b, x, y, z, c) the channel-c values of the update rows whose four index words, read as signed integers and
  NOT clamped, are exactly (b, x, y, z); an update row with a word outside its axis lands nowhere.
-/
import Idealize.ShloMosaic.PureOps.Ideal
import Idealize.ShloMosaic.Lib.ValueIdx

noncomputable section

open scoped BigOperators

namespace Cert.ScatterPoints

open Idealize.ShloMosaic Idealize.ShloMosaic.ValueIdx

/-- The dimension numbers of a point scatter: operand B×X×Y×Z×C, scatter indices R×4 (the index vector on
    axis 1, its four words naming the operand's first four axes in order), updates R×C; the operand's first
    four axes are the inserted, indexed ones, the channel axis is the one window axis. -/
abbrev pointsScatterDims (B X Y Z C R : Nat)
    (wf : ScatterDims.WF ⟨5, ![B, X, Y, Z, C]⟩ ⟨2, ![R, 4]⟩ ⟨2, ![R, C]⟩ [1] [0, 1, 2, 3] [0, 1, 2, 3] 1) :
    ScatterDims ⟨5, ![B, X, Y, Z, C]⟩ ⟨2, ![R, 4]⟩ ⟨2, ![R, C]⟩ where
  updateWindowDims := [1]
  insertedWindowDims := [0, 1, 2, 3]
  scatterDimsToOperandDims := [0, 1, 2, 3]
  indexVectorDim := 1
  wf := wf

section Scatter

variable {B X Y Z C R w : Nat}
  (wf : ScatterDims.WF ⟨5, ![B, X, Y, Z, C]⟩ ⟨2, ![R, 4]⟩ ⟨2, ![R, C]⟩ [1] [0, 1, 2, 3] [0, 1, 2, 3] 1)
  (idx : IVec ⟨2, ![R, 4]⟩ w) (e : Fin R) (c' : Fin C)

/-- On the batch axis an update entry starts at its row's word 0, read signed. -/
theorem points_start0 :
    (pointsScatterDims B X Y Z C R wf).start (ix2 e c') idx (0 : Fin 5) = (idx (ix2 e 0)).toInt := by
  unfold ScatterDims.start
  have hm : (0 : Fin 5) ∈ (pointsScatterDims B X Y Z C R wf).scatterDimsToOperandDims := by
    show (0 : Fin 5) ∈ ([0, 1, 2, 3] : List (Fin 5)); decide
  rw [dif_pos hm]
  congr 2
  funext b; refine Fin.ext ?_
  match b with
  | ⟨0, _⟩ => rfl
  | ⟨1, _⟩ => rfl

/-- On the x axis it starts at word 1. -/
theorem points_start1 :
    (pointsScatterDims B X Y Z C R wf).start (ix2 e c') idx (1 : Fin 5) = (idx (ix2 e 1)).toInt := by
  unfold ScatterDims.start
  have hm : (1 : Fin 5) ∈ (pointsScatterDims B X Y Z C R wf).scatterDimsToOperandDims := by
    show (1 : Fin 5) ∈ ([0, 1, 2, 3] : List (Fin 5)); decide
  rw [dif_pos hm]
  congr 2
  funext b; refine Fin.ext ?_
  match b with
  | ⟨0, _⟩ => rfl
  | ⟨1, _⟩ => rfl

/-- On the y axis it starts at word 2. -/
theorem points_start2 :
    (pointsScatterDims B X Y Z C R wf).start (ix2 e c') idx (2 : Fin 5) = (idx (ix2 e 2)).toInt := by
  unfold ScatterDims.start
  have hm : (2 : Fin 5) ∈ (pointsScatterDims B X Y Z C R wf).scatterDimsToOperandDims := by
    show (2 : Fin 5) ∈ ([0, 1, 2, 3] : List (Fin 5)); decide
  rw [dif_pos hm]
  congr 2
  funext b; refine Fin.ext ?_
  match b with
  | ⟨0, _⟩ => rfl
  | ⟨1, _⟩ => rfl

/-- On the z axis it starts at word 3. -/
theorem points_start3 :
    (pointsScatterDims B X Y Z C R wf).start (ix2 e c') idx (3 : Fin 5) = (idx (ix2 e 3)).toInt := by
  unfold ScatterDims.start
  have hm : (3 : Fin 5) ∈ (pointsScatterDims B X Y Z C R wf).scatterDimsToOperandDims := by
    show (3 : Fin 5) ∈ ([0, 1, 2, 3] : List (Fin 5)); decide
  rw [dif_pos hm]
  congr 2
  funext b; refine Fin.ext ?_
  match b with
  | ⟨0, _⟩ => rfl
  | ⟨1, _⟩ => rfl

/-- On the channel axis it starts at 0. -/
theorem points_start4 : (pointsScatterDims B X Y Z C R wf).start (ix2 e c') idx (4 : Fin 5) = 0 := by
  have h : (4 : Fin 5) ∉ ([0, 1, 2, 3] : List (Fin 5)) := by decide
  unfold ScatterDims.start; rw [dif_neg h]

/-- The four indexed axes carry no window coordinate. -/
theorem points_window_inserted (a : Fin 5) (ha : a ≠ 4) :
    (pointsScatterDims B X Y Z C R wf).window (ix2 e c') a = 0 := by
  have h : a ∉ (pointsScatterDims B X Y Z C R wf).sKept := by
    show a ∉ (List.finRange 5).filter (· ∉ ([0, 1, 2, 3] : List (Fin 5)))
    revert a; decide
  unfold ScatterDims.window; rw [dif_neg h]

/-- The channel axis's window coordinate is the update entry's channel. -/
theorem points_window4 : (pointsScatterDims B X Y Z C R wf).window (ix2 e c') (4 : Fin 5) = c'.val := by
  have h : (4 : Fin 5) ∈ (pointsScatterDims B X Y Z C R wf).sKept := by
    show (4 : Fin 5) ∈ (List.finRange 5).filter (· ∉ ([0, 1, 2, 3] : List (Fin 5)))
    decide
  unfold ScatterDims.window; rw [dif_pos h]; rfl

/-- Update entry (e, c') lands on table entry (b, x, y, z, c) exactly when its row's four index words, read
    signed, are b, x, y, z and the channels agree. -/
theorem resultIdx_points_iff (b : Fin B) (x : Fin X) (y : Fin Y) (z : Fin Z) (c : Fin C) :
    (pointsScatterDims B X Y Z C R wf).resultIdx? (ix2 e c') idx = some (ix5 b x y z c)
      ↔ ((idx (ix2 e 0)).toInt = (b.val : Int) ∧ (idx (ix2 e 1)).toInt = (x.val : Int)
          ∧ (idx (ix2 e 2)).toInt = (y.val : Int) ∧ (idx (ix2 e 3)).toInt = (z.val : Int)) ∧ c' = c := by
  have hs0 := points_start0 wf idx e c'
  have hs1 := points_start1 wf idx e c'
  have hs2 := points_start2 wf idx e c'
  have hs3 := points_start3 wf idx e c'
  have hs4 := points_start4 wf idx e c'
  have hw0 := points_window_inserted (R := R) wf e c' (0 : Fin 5) (by decide)
  have hw1 := points_window_inserted (R := R) wf e c' (1 : Fin 5) (by decide)
  have hw2 := points_window_inserted (R := R) wf e c' (2 : Fin 5) (by decide)
  have hw3 := points_window_inserted (R := R) wf e c' (3 : Fin 5) (by decide)
  have hw4 := points_window4 (B := B) (X := X) (Y := Y) (Z := Z) (R := R) wf e c'
  unfold ScatterDims.resultIdx?
  split
  · rename_i h
    rw [Option.some.injEq]
    constructor
    · intro hf
      have h0 := congrArg (fun f : (⟨5, ![B, X, Y, Z, C]⟩ : Shape).Idx => (f (0 : Fin 5)).val) hf
      have h1 := congrArg (fun f : (⟨5, ![B, X, Y, Z, C]⟩ : Shape).Idx => (f (1 : Fin 5)).val) hf
      have h2 := congrArg (fun f : (⟨5, ![B, X, Y, Z, C]⟩ : Shape).Idx => (f (2 : Fin 5)).val) hf
      have h3 := congrArg (fun f : (⟨5, ![B, X, Y, Z, C]⟩ : Shape).Idx => (f (3 : Fin 5)).val) hf
      have h4 := congrArg (fun f : (⟨5, ![B, X, Y, Z, C]⟩ : Shape).Idx => (f (4 : Fin 5)).val) hf
      have hp0 := (h (0 : Fin 5)).1
      have hp1 := (h (1 : Fin 5)).1
      have hp2 := (h (2 : Fin 5)).1
      have hp3 := (h (3 : Fin 5)).1
      simp only [hs0, hs1, hs2, hs3, hs4, hw0, hw1, hw2, hw3, hw4] at h0 h1 h2 h3 h4 hp0 hp1 hp2 hp3
      refine ⟨⟨?_, ?_, ?_, ?_⟩, Fin.ext ?_⟩
      · show _ = ((ix5 b x y z c (0 : Fin 5)).val : Int)
        rw [← h0]; omega
      · show _ = ((ix5 b x y z c (1 : Fin 5)).val : Int)
        rw [← h1]; omega
      · show _ = ((ix5 b x y z c (2 : Fin 5)).val : Int)
        rw [← h2]; omega
      · show _ = ((ix5 b x y z c (3 : Fin 5)).val : Int)
        rw [← h3]; omega
      · show _ = (ix5 b x y z c (4 : Fin 5)).val
        rw [← h4]; omega
    · rintro ⟨⟨h0, h1, h2, h3⟩, rfl⟩
      funext a; refine Fin.ext ?_
      match a with
      | ⟨0, _⟩ =>
        show ((pointsScatterDims B X Y Z C R wf).start (ix2 e c') idx (0 : Fin 5) + ((pointsScatterDims B X Y Z C R wf).window (ix2 e c') (0 : Fin 5) : Int)).toNat = b.val
        rw [hs0, hw0, h0]; omega
      | ⟨1, _⟩ =>
        show ((pointsScatterDims B X Y Z C R wf).start (ix2 e c') idx (1 : Fin 5) + ((pointsScatterDims B X Y Z C R wf).window (ix2 e c') (1 : Fin 5) : Int)).toNat = x.val
        rw [hs1, hw1, h1]; omega
      | ⟨2, _⟩ =>
        show ((pointsScatterDims B X Y Z C R wf).start (ix2 e c') idx (2 : Fin 5) + ((pointsScatterDims B X Y Z C R wf).window (ix2 e c') (2 : Fin 5) : Int)).toNat = y.val
        rw [hs2, hw2, h2]; omega
      | ⟨3, _⟩ =>
        show ((pointsScatterDims B X Y Z C R wf).start (ix2 e c') idx (3 : Fin 5) + ((pointsScatterDims B X Y Z C R wf).window (ix2 e c') (3 : Fin 5) : Int)).toNat = z.val
        rw [hs3, hw3, h3]; omega
      | ⟨4, _⟩ =>
        show ((pointsScatterDims B X Y Z C R wf).start (ix2 e c') idx (4 : Fin 5) + ((pointsScatterDims B X Y Z C R wf).window (ix2 e c') (4 : Fin 5) : Int)).toNat = c'.val
        rw [hs4, hw4]; omega
  · rename_i h
    refine iff_of_false (fun hh => nomatch hh) ?_
    rintro ⟨⟨h0, h1, h2, h3⟩, -⟩
    refine h fun a => ?_
    match a with
    | ⟨0, _⟩ =>
      show 0 ≤ (pointsScatterDims B X Y Z C R wf).start (ix2 e c') idx (0 : Fin 5) + ((pointsScatterDims B X Y Z C R wf).window (ix2 e c') (0 : Fin 5) : Int) ∧
        (pointsScatterDims B X Y Z C R wf).start (ix2 e c') idx (0 : Fin 5) + ((pointsScatterDims B X Y Z C R wf).window (ix2 e c') (0 : Fin 5) : Int) < (B : Int)
      rw [hs0, hw0, h0]; have := b.isLt; omega
    | ⟨1, _⟩ =>
      show 0 ≤ (pointsScatterDims B X Y Z C R wf).start (ix2 e c') idx (1 : Fin 5) + ((pointsScatterDims B X Y Z C R wf).window (ix2 e c') (1 : Fin 5) : Int) ∧
        (pointsScatterDims B X Y Z C R wf).start (ix2 e c') idx (1 : Fin 5) + ((pointsScatterDims B X Y Z C R wf).window (ix2 e c') (1 : Fin 5) : Int) < (X : Int)
      rw [hs1, hw1, h1]; have := x.isLt; omega
    | ⟨2, _⟩ =>
      show 0 ≤ (pointsScatterDims B X Y Z C R wf).start (ix2 e c') idx (2 : Fin 5) + ((pointsScatterDims B X Y Z C R wf).window (ix2 e c') (2 : Fin 5) : Int) ∧
        (pointsScatterDims B X Y Z C R wf).start (ix2 e c') idx (2 : Fin 5) + ((pointsScatterDims B X Y Z C R wf).window (ix2 e c') (2 : Fin 5) : Int) < (Y : Int)
      rw [hs2, hw2, h2]; have := y.isLt; omega
    | ⟨3, _⟩ =>
      show 0 ≤ (pointsScatterDims B X Y Z C R wf).start (ix2 e c') idx (3 : Fin 5) + ((pointsScatterDims B X Y Z C R wf).window (ix2 e c') (3 : Fin 5) : Int) ∧
        (pointsScatterDims B X Y Z C R wf).start (ix2 e c') idx (3 : Fin 5) + ((pointsScatterDims B X Y Z C R wf).window (ix2 e c') (3 : Fin 5) : Int) < (Z : Int)
      rw [hs3, hw3, h3]; have := z.isLt; omega
    | ⟨4, _⟩ =>
      show 0 ≤ (pointsScatterDims B X Y Z C R wf).start (ix2 e c') idx (4 : Fin 5) + ((pointsScatterDims B X Y Z C R wf).window (ix2 e c') (4 : Fin 5) : Int) ∧
        (pointsScatterDims B X Y Z C R wf).start (ix2 e c') idx (4 : Fin 5) + ((pointsScatterDims B X Y Z C R wf).window (ix2 e c') (4 : Fin 5) : Int) < (C : Int)
      rw [hs4, hw4]; have := c'.isLt; omega

end Scatter

/-- Entry (b, x, y, z, c) of a point scatter-add is the table's entry plus the sum, over the update rows whose
    four index words read as signed integers are (b, x, y, z), of the update's channel-c value. The sum is
    written over all update rows with the others contributing 0. -/
theorem scatterAdd_points_apply {B X Y Z C R w : Nat}
    (wf : ScatterDims.WF ⟨5, ![B, X, Y, Z, C]⟩ ⟨2, ![R, 4]⟩ ⟨2, ![R, C]⟩ [1] [0, 1, 2, 3] [0, 1, 2, 3] 1)
    (t : (⟨5, ![B, X, Y, Z, C]⟩ : Shape).Idx → EReal) (idx : IVec ⟨2, ![R, 4]⟩ w)
    (upd : (⟨2, ![R, C]⟩ : Shape).Idx → EReal) (b : Fin B) (x : Fin X) (y : Fin Y) (z : Fin Z) (c : Fin C) :
    Ideal.hostScatterAdd (pointsScatterDims B X Y Z C R wf) t idx upd (ix5 b x y z c)
      = t (ix5 b x y z c) + ∑ e : Fin R,
          if ((idx (ix2 e 0)).toInt = (b.val : Int) ∧ (idx (ix2 e 1)).toInt = (x.val : Int)
              ∧ (idx (ix2 e 2)).toInt = (y.val : Int) ∧ (idx (ix2 e 3)).toInt = (z.val : Int))
          then upd (ix2 e c) else 0 := by
  unfold Ideal.hostScatterAdd
  congr 1
  rw [Finset.sum_filter, sum_idx2]
  refine Finset.sum_congr rfl fun e _ => ?_
  simp only [resultIdx_points_iff]
  by_cases hP : ((idx (ix2 e 0)).toInt = (b.val : Int) ∧ (idx (ix2 e 1)).toInt = (x.val : Int)
              ∧ (idx (ix2 e 2)).toInt = (y.val : Int) ∧ (idx (ix2 e 3)).toInt = (z.val : Int))
  · simp only [hP, true_and, if_true]
    rw [Finset.sum_ite_eq' Finset.univ c (fun c' => upd (ix2 e c'))]
    simp
  · simp [hP]

end Cert.ScatterPoints

end
-- ==== Proof.RefValue.lean ====
/-
  The reference's result is the dense voxel grid: entry (b, c, x, y, z) is channel c summed over the points
  whose four words are exactly (b, x, y, z).

  The reference masks every point whose voxel coordinates leave [0, 128) — its coordinates become 0 and its
  features 0.0 — and scatter-adds all points; a masked point lands at voxel (0, 0, 0) of its batch and adds 0
  there, so it changes nothing. The batch word is assumed in [0, 4), so counting negative indices from the
  end of an axis leaves every index word as it is.
-/
import proofs.«119750_j59777354826220_2_alg».proof.Proof.RefTerm
import proofs.«119750_j59777354826220_2_alg».proof.Proof.Spec
import proofs.«119750_j59777354826220_2_alg».proof.Proof.LibScatterPoints
import proofs.«119750_j59777354826220_2_alg».proof.Proof.LibPointIdx
import Idealize.ShloMosaic.Lib.Pipeline.Value
import Idealize.ShloMosaic.Lib.WordArith
import Idealize.ShloMosaic.Lib.IdealHost

noncomputable section

open scoped BigOperators

namespace Cert.ReferenceIdeal.RefValue

open Cert.ReferenceIdeal Cert.ReferenceIdeal.Gen Cert.ReferenceIdeal.RefTerm Idealize.ShloMosaic
  Idealize.ShloMosaic.ValueIdx Cert.Spec

/-! ## Words -/

/-- The bit of a signed comparison with zero says the word read as a signed integer is negative. -/
theorem cmpi_slt_zero (x : BitVec 32) : IntOp.cmpi .slt x 0#32 = 1#1 ↔ x.toInt < 0 := by
  unfold IntOp.cmpi
  rw [WordArith.ofBool_eq_one_iff, BitVec.slt_iff_toInt_lt]
  rfl

/-- Counting a negative word from the end of an axis of extent n leaves a non-negative word as it is. -/
theorem scalar_norm_of_nonneg (n x : BitVec 32) (h : 0 ≤ x.toInt) :
    Scalar.select (IntOp.cmpi .slt x 0#32) (IntOp.addi x n) x = x := by
  have hb : IntOp.cmpi .slt x 0#32 = 0#1 := eq_zero_of_ne_one fun h1 => by
    have := (cmpi_slt_zero x).1 h1; omega
  rw [hb, select_zero]

/-! ## Columns -/

/-- A length-N vector laid out as an N × 1 column reads, at (e, 0), the vector at e. -/
theorem asCol_apply (v : IVec S2000000 32) (e : Fin 2000000) : asCol v (ix2 e (0 : Fin 1)) = v (ix1 e) := by
  unfold asCol
  refine broadcastInDim_apply _ _ v (ix2 e (0 : Fin 1)) (ix1 e) fun a => ?_
  match a with
  | ⟨0, _⟩ =>
    show e.val = if (2000000 : Nat) = 1 then 0 else e.val
    rw [if_neg (by decide)]

/-- The normalisation of a column at a point whose word is non-negative is the word. -/
theorem norm_apply_of_nonneg (n : BitVec 32) (v : IVec S2000000 32) (e : Fin 2000000) (h : 0 ≤ (v (ix1 e)).toInt) :
    norm n v (ix1 e) = v (ix1 e) :=
  scalar_norm_of_nonneg n (v (ix1 e)) h

/-- Column k of an N × 3 array, as a length-N vector, reads the array at (e, k). -/
theorem col3_apply (k : Fin 3) (off : Fin 2 → Nat) (hoff : off = ![0, k.val]) (m : IVec S2000000x3 32)
    (hs : S2000000x3.Slices off S2000000x1) (e : Fin 2000000) :
    shapeCast (s := S2000000x1) S2000000 (extractStridedSlice (s := S2000000x3) S2000000x1 off m hs)
      shapeCasts_S2000000x1_S2000000 (ix1 e) = m (ix2 e k) := by
  subst hoff
  refine (shapeCast_apply _ _ (ix1 e) (ix2 e (0 : Fin 1)) ?_).trans ?_
  · rw [Shape.rowMajor_val_two, Shape.rowMajor_val_one]
    show e.val * 1 + 0 = e.val
    omega
  · refine extractStridedSlice_apply _ m hs (ix2 e (0 : Fin 1)) (ix2 e k) fun a => ?_
    match a with
    | ⟨0, _⟩ => show e.val = 0 + e.val; omega
    | ⟨1, _⟩ => show k.val = k.val + 0; omega

/-- The batch column reads word 0 of the point. -/
theorem bcol_apply (a0 : IVec S2000000x4 32) (e : Fin 2000000) : bcol a0 (ix1 e) = a0 (ix2 e 0) := by
  unfold bcol
  refine (shapeCast_apply _ _ (ix1 e) (ix2 e (0 : Fin 1)) ?_).trans ?_
  · rw [Shape.rowMajor_val_two, Shape.rowMajor_val_one]
    show e.val * 1 + 0 = e.val
    omega
  · refine extractStridedSlice_apply _ a0 _ (ix2 e (0 : Fin 1)) (ix2 e (0 : Fin 4)) fun a => ?_
    match a with
    | ⟨0, _⟩ => show e.val = 0 + e.val; omega
    | ⟨1, _⟩ => show (0 : Nat) = 0 + 0; omega

theorem xcol_apply (a0 : IVec S2000000x4 32) (e : Fin 2000000) : xcol a0 (ix1 e) = idx3 a0 (ix2 e 0) :=
  col3_apply 0 _ rfl (idx3 a0) _ e
theorem ycol_apply (a0 : IVec S2000000x4 32) (e : Fin 2000000) : ycol a0 (ix1 e) = idx3 a0 (ix2 e 1) :=
  col3_apply 1 _ rfl (idx3 a0) _ e
theorem zcol_apply (a0 : IVec S2000000x4 32) (e : Fin 2000000) : zcol a0 (ix1 e) = idx3 a0 (ix2 e 2) :=
  col3_apply 2 _ rfl (idx3 a0) _ e

/-- Word k + 1 of a point is coordinate k of its coordinate triple. -/
theorem xyz_apply (a0 : IVec S2000000x4 32) (e : Fin 2000000) (k : Fin 3) :
    xyz a0 (ix2 e k) = a0 (ix2 e ⟨k.val + 1, by omega⟩) := by
  unfold xyz
  refine extractStridedSlice_apply _ a0 _ (ix2 e k) (ix2 e ⟨k.val + 1, by omega⟩) fun a => ?_
  match a with
  | ⟨0, _⟩ => show e.val = 0 + e.val; omega
  | ⟨1, _⟩ => show k.val + 1 = 1 + k.val; omega

/-! ## The four index words of a row -/

/-! Four N × 1 columns laid side by side: entry (e, k) is column k at (e, 0). -/

theorem concat4_apply0 (c0 c1 c2 c3 : IVec S2000000x1 32)
    (h : Shape.Concatenates [S2000000x1, S2000000x1, S2000000x1, S2000000x1] S2000000x4 1) (e : Fin 2000000) :
    concatenate S2000000x4 1 [⟨S2000000x1, c0⟩, ⟨S2000000x1, c1⟩, ⟨S2000000x1, c2⟩, ⟨S2000000x1, c3⟩] h (ix2 e (0 : Fin 4))
      = c0 (ix2 e (0 : Fin 1)) := by
  refine concatenate_apply_piece (t := S2000000x4) (1 : Fin 2)
    [⟨S2000000x1, c0⟩, ⟨S2000000x1, c1⟩, ⟨S2000000x1, c2⟩, ⟨S2000000x1, c3⟩] h (ix2 e (0 : Fin 4)) 0
    (by show 0 < 4; decide) S2000000x1 c0 rfl rfl 0 rfl (ix2 e (0 : Fin 1)) (fun b hb => ?_) ?_
  · match b with
    | ⟨0, _⟩ => rfl
    | ⟨1, _⟩ => exact absurd rfl hb
  · show 0 + 0 = 0
    rfl

theorem concat4_apply1 (c0 c1 c2 c3 : IVec S2000000x1 32)
    (h : Shape.Concatenates [S2000000x1, S2000000x1, S2000000x1, S2000000x1] S2000000x4 1) (e : Fin 2000000) :
    concatenate S2000000x4 1 [⟨S2000000x1, c0⟩, ⟨S2000000x1, c1⟩, ⟨S2000000x1, c2⟩, ⟨S2000000x1, c3⟩] h (ix2 e (1 : Fin 4))
      = c1 (ix2 e (0 : Fin 1)) := by
  refine concatenate_apply_piece (t := S2000000x4) (1 : Fin 2)
    [⟨S2000000x1, c0⟩, ⟨S2000000x1, c1⟩, ⟨S2000000x1, c2⟩, ⟨S2000000x1, c3⟩] h (ix2 e (1 : Fin 4)) 1
    (by show 1 < 4; decide) S2000000x1 c1 rfl rfl 1 rfl (ix2 e (0 : Fin 1)) (fun b hb => ?_) ?_
  · match b with
    | ⟨0, _⟩ => rfl
    | ⟨1, _⟩ => exact absurd rfl hb
  · show 1 + 0 = 1
    rfl

theorem concat4_apply2 (c0 c1 c2 c3 : IVec S2000000x1 32)
    (h : Shape.Concatenates [S2000000x1, S2000000x1, S2000000x1, S2000000x1] S2000000x4 1) (e : Fin 2000000) :
    concatenate S2000000x4 1 [⟨S2000000x1, c0⟩, ⟨S2000000x1, c1⟩, ⟨S2000000x1, c2⟩, ⟨S2000000x1, c3⟩] h (ix2 e (2 : Fin 4))
      = c2 (ix2 e (0 : Fin 1)) := by
  refine concatenate_apply_piece (t := S2000000x4) (1 : Fin 2)
    [⟨S2000000x1, c0⟩, ⟨S2000000x1, c1⟩, ⟨S2000000x1, c2⟩, ⟨S2000000x1, c3⟩] h (ix2 e (2 : Fin 4)) 2
    (by show 2 < 4; decide) S2000000x1 c2 rfl rfl 2 rfl (ix2 e (0 : Fin 1)) (fun b hb => ?_) ?_
  · match b with
    | ⟨0, _⟩ => rfl
    | ⟨1, _⟩ => exact absurd rfl hb
  · show 2 + 0 = 2
    rfl

theorem concat4_apply3 (c0 c1 c2 c3 : IVec S2000000x1 32)
    (h : Shape.Concatenates [S2000000x1, S2000000x1, S2000000x1, S2000000x1] S2000000x4 1) (e : Fin 2000000) :
    concatenate S2000000x4 1 [⟨S2000000x1, c0⟩, ⟨S2000000x1, c1⟩, ⟨S2000000x1, c2⟩, ⟨S2000000x1, c3⟩] h (ix2 e (3 : Fin 4))
      = c3 (ix2 e (0 : Fin 1)) := by
  refine concatenate_apply_piece (t := S2000000x4) (1 : Fin 2)
    [⟨S2000000x1, c0⟩, ⟨S2000000x1, c1⟩, ⟨S2000000x1, c2⟩, ⟨S2000000x1, c3⟩] h (ix2 e (3 : Fin 4)) 3
    (by show 3 < 4; decide) S2000000x1 c3 rfl rfl 3 rfl (ix2 e (0 : Fin 1)) (fun b hb => ?_) ?_
  · match b with
    | ⟨0, _⟩ => rfl
    | ⟨1, _⟩ => exact absurd rfl hb
  · show 3 + 0 = 3
    rfl

theorem idx4_apply0 (a0 : IVec S2000000x4 32) (e : Fin 2000000) :
    idx4 a0 (ix2 e (0 : Fin 4)) = norm 4#32 (bcol a0) (ix1 e) :=
  (concat4_apply0 _ _ _ _ _ e).trans (asCol_apply _ e)
theorem idx4_apply1 (a0 : IVec S2000000x4 32) (e : Fin 2000000) :
    idx4 a0 (ix2 e (1 : Fin 4)) = norm 128#32 (xcol a0) (ix1 e) :=
  (concat4_apply1 _ _ _ _ _ e).trans (asCol_apply _ e)
theorem idx4_apply2 (a0 : IVec S2000000x4 32) (e : Fin 2000000) :
    idx4 a0 (ix2 e (2 : Fin 4)) = norm 128#32 (ycol a0) (ix1 e) :=
  (concat4_apply2 _ _ _ _ _ e).trans (asCol_apply _ e)
theorem idx4_apply3 (a0 : IVec S2000000x4 32) (e : Fin 2000000) :
    idx4 a0 (ix2 e (3 : Fin 4)) = norm 128#32 (zcol a0) (ix1 e) :=
  (concat4_apply3 _ _ _ _ _ e).trans (asCol_apply _ e)

/-! ## The mask, the masked coordinates, the masked features -/

/-- The mask bit of a point is set exactly when its three coordinates lie in [0, 128). -/
theorem maskv_iff (a0 : IVec S2000000x4 32) (e : Fin 2000000) : maskv a0 (ix1 e) = 1#1 ↔ inGrid a0 e := by
  have h : maskv a0 (ix1 e) = if PointIdx.inGridW (xyz a0) e then 1#1 else 0#1 := by
    unfold maskv ok3 ge0 lt128 lim3
    exact PointIdx.mask_apply _ _ _ _ _ (xyz a0) e
  have hw : PointIdx.inGridW (xyz a0) e ↔ inGrid a0 e := by
    unfold PointIdx.inGridW inGrid co
    rw [xyz_apply, xyz_apply, xyz_apply]
    exact Iff.rfl
  rw [h]
  constructor
  · intro h1
    by_contra hn
    rw [if_neg fun hh => hn (hw.1 hh)] at h1
    exact absurd h1 (by decide)
  · intro hg
    rw [if_pos (hw.2 hg)]

/-- The floor division by 1 leaves every coordinate as it is. -/
theorem fdiv_apply (a0 : IVec S2000000x4 32) (e : Fin 2000000) (k : Fin 3) : fdiv a0 (ix2 e k) = xyz a0 (ix2 e k) := by
  unfold fdiv fdSignNe fdRemNe fdQuotPred fdQuot fdOne
  exact PointIdx.floorDiv_one_apply _ (xyz a0) (id (constantI S_ 32 1#32)) (ix2 e k) rfl

/-- The masked coordinates: a point in the grid keeps its coordinates, a point outside gets 0. -/
theorem idx3_apply (a0 : IVec S2000000x4 32) (e : Fin 2000000) (k : Fin 3) :
    idx3 a0 (ix2 e k) = if inGrid a0 e then a0 (ix2 e ⟨k.val + 1, by omega⟩) else 0#32 := by
  unfold idx3 maskc
  rw [PointIdx.where_rows_apply, fdiv_apply, xyz_apply]
  exact if_congr (maskv_iff a0 e) rfl rfl

/-- The masked features: a point in the grid keeps its features, a point outside gets 0. -/
theorem feat_apply (a0 : IVec S2000000x4 32) (a1 : FVec Ideal S2000000x16 .f32) (e : Fin 2000000) (c : Fin 16) :
    feat (F := Ideal) a0 a1 (ix2 e c) = if inGrid a0 e then a1 (ix2 e c) else 0 := by
  unfold feat maskc
  rw [PointIdx.where_rows_apply]
  exact if_congr (maskv_iff a0 e) rfl Ideal.ofBits_zero_f32

/-! ## Point by point -/

/-- The batch word of a row of the index array is the point's batch word. -/
theorem idx4_batch (a0 : IVec S2000000x4 32) (hb : batchInRange a0) (e : Fin 2000000) :
    idx4 a0 (ix2 e (0 : Fin 4)) = a0 (ix2 e 0) := by
  rw [idx4_apply0, norm_apply_of_nonneg _ _ _ (by rw [bcol_apply]; exact (hb e).1), bcol_apply]

/-- The coordinate words of a row of the index array, for a point in the grid, are the point's. -/
theorem idx4_coord_of_inGrid (a0 : IVec S2000000x4 32) (e : Fin 2000000) (hg : inGrid a0 e) :
    idx4 a0 (ix2 e (1 : Fin 4)) = a0 (ix2 e 1) ∧ idx4 a0 (ix2 e (2 : Fin 4)) = a0 (ix2 e 2)
      ∧ idx4 a0 (ix2 e (3 : Fin 4)) = a0 (ix2 e 3) := by
  have h1 : idx3 a0 (ix2 e 0) = a0 (ix2 e 1) := by rw [idx3_apply, if_pos hg]; rfl
  have h2 : idx3 a0 (ix2 e 1) = a0 (ix2 e 2) := by rw [idx3_apply, if_pos hg]; rfl
  have h3 : idx3 a0 (ix2 e 2) = a0 (ix2 e 3) := by rw [idx3_apply, if_pos hg]; rfl
  obtain ⟨⟨g1, -⟩, ⟨g2, -⟩, ⟨g3, -⟩⟩ := hg
  refine ⟨?_, ?_, ?_⟩
  · rw [idx4_apply1, norm_apply_of_nonneg _ _ _ (by rw [xcol_apply, h1]; exact g1), xcol_apply, h1]
  · rw [idx4_apply2, norm_apply_of_nonneg _ _ _ (by rw [ycol_apply, h2]; exact g2), ycol_apply, h2]
  · rw [idx4_apply3, norm_apply_of_nonneg _ _ _ (by rw [zcol_apply, h3]; exact g3), zcol_apply, h3]

/-- One point's contribution to one grid entry is the same in the reference's sum and in the grid's. -/
theorem term_eq (a0 : IVec S2000000x4 32) (a1 : FVec Ideal S2000000x16 .f32) (hb : batchInRange a0)
    (e : Fin 2000000) (b : Fin 4) (c : Fin 16) (x y z : Fin 128) :
    (if ((idx4 a0 (ix2 e 0)).toInt = (b.val : Int) ∧ (idx4 a0 (ix2 e 1)).toInt = (x.val : Int)
          ∧ (idx4 a0 (ix2 e 2)).toInt = (y.val : Int) ∧ (idx4 a0 (ix2 e 3)).toInt = (z.val : Int))
      then feat (F := Ideal) a0 a1 (ix2 e c) else 0)
      = if lands a0 e b x y z then a1 (ix2 e c) else 0 := by
  by_cases hg : inGrid a0 e
  · obtain ⟨w1, w2, w3⟩ := idx4_coord_of_inGrid a0 e hg
    rw [idx4_batch a0 hb e, w1, w2, w3, feat_apply, if_pos hg]
    exact if_congr Iff.rfl rfl rfl
  · rw [feat_apply, if_neg hg, ite_self, if_neg fun hl => hg (inGrid_of_lands hl)]

/-! ## The grid -/

/-- At the exact instance the host scatter-add is the exact sum (stated of the whole array, any operands). -/
theorem scatterAdd_ideal (d : ScatterDims S4x128x128x128x16 S2000000x4 S2000000x16)
    (t : FVec Ideal S4x128x128x128x16 .f32) (idx : IVec S2000000x4 32) (upd : FVec Ideal S2000000x16 .f32) :
    Host.scatterAdd (F := Ideal) d t idx upd = Ideal.hostScatterAdd d t idx upd := rfl

/-- The program's scatter dimension numbers are the point scatter's. -/
theorem scatterDims_eq : scatter_S4x128x128x128x16_S2000000x4_S2000000x16_1_0123_0123_1
    = ScatterPoints.pointsScatterDims 4 128 128 128 16 2000000
        scatter_S4x128x128x128x16_S2000000x4_S2000000x16_1_0123_0123_1_wf := rfl

/-- The channels-last grid as the exact scatter-add of the masked features at the four index words. -/
theorem dense_eq (a0 : IVec S2000000x4 32) (a1 : FVec Ideal S2000000x16 .f32) :
    dense (F := Ideal) a0 a1 = Ideal.hostScatterAdd (ScatterPoints.pointsScatterDims 4 128 128 128 16 2000000
        scatter_S4x128x128x128x16_S2000000x4_S2000000x16_1_0123_0123_1_wf)
      (zeroTable (F := Ideal)) (idx4 a0) (feat (F := Ideal) a0 a1) := by
  unfold dense
  rw [scatterDims_eq]
  exact scatterAdd_ideal _ _ _ _

/-- The zero table reads 0. -/
theorem zeroTable_apply (i : S4x128x128x128x16.Idx) : zeroTable (F := Ideal) i = 0 := Ideal.ofBits_zero_f32

/-- The reference's result is the grid. -/
theorem refTerm_eq_G (a0 : IVec S2000000x4 32) (a1 : FVec Ideal S2000000x16 .f32) (hb : Cert.Spec.batchInRange a0) :
    RefTerm.refTerm (F := Ideal) a0 a1 = Cert.Spec.G a0 a1 := by
  funext i
  obtain ⟨b, c, x, y, z, rfl⟩ : ∃ (b : Fin 4) (c : Fin 16) (x y z : Fin 128), i = ix5 b c x y z :=
    ⟨i 0, i 1, i 2, i 3, i 4, eq_ix5 i⟩
  rw [G_apply]
  unfold refTerm
  refine (transpose_apply _ _ _ (ix5 b c x y z) (ix5 b x y z c) fun a => ?_).trans ?_
  · match a with
    | ⟨0, _⟩ => rfl
    | ⟨1, _⟩ => rfl
    | ⟨2, _⟩ => rfl
    | ⟨3, _⟩ => rfl
    | ⟨4, _⟩ => rfl
  refine (congrFun (dense_eq a0 a1) (ix5 b x y z c)).trans ?_
  refine (ScatterPoints.scatterAdd_points_apply _ _ _ _ b x y z c).trans ?_
  rw [zeroTable_apply, zero_add]
  unfold Gat
  exact Finset.sum_congr rfl fun e _ => term_eq a0 a1 hb e b c x y z

end Cert.ReferenceIdeal.RefValue

end
-- ==== Proof.Claims.lean ====
/-
  The five claims.

  The two copies of the kernel program run to the end, fault nowhere and leave their arguments unchanged: the
  pipelined region's body is a load, a pointwise computation and one covering store, and the host operations
  around it write only buffers of their own. The reference is host operations only. Nothing was rewritten
  between the word-level program and its idealization. At exact arithmetic, from memories agreeing on the
  arguments, under the precondition that every point's batch word is in [0, 4), the kernel program's result
  and the reference's result are both the dense grid G: entry (b, c, x, y, z) is the sum of channel c over
  the points whose four words are exactly (b, x, y, z).
-/
import proofs.«119750_j59777354826220_2_alg».proof.Defs
import proofs.«119750_j59777354826220_2_alg».proof.Proof.Gen.Kernel
import proofs.«119750_j59777354826220_2_alg».proof.Proof.Gen.KernelIdeal
import proofs.«119750_j59777354826220_2_alg».proof.Proof.Gen.ReferenceIdeal
import proofs.«119750_j59777354826220_2_alg».proof.Proof.Gen.Pre_finite_inputs
import proofs.«119750_j59777354826220_2_alg».proof.Proof.KFrameBits
import proofs.«119750_j59777354826220_2_alg».proof.Proof.KFrame
import proofs.«119750_j59777354826220_2_alg».proof.Proof.KValue
import proofs.«119750_j59777354826220_2_alg».proof.Proof.PreDecode
import proofs.«119750_j59777354826220_2_alg».proof.Proof.RefRunTerm
import proofs.«119750_j59777354826220_2_alg».proof.Proof.RefValue

noncomputable section

namespace Cert.Proof.Claims

open Idealize.ShloMosaic Idealize.ShloMosaic.TcCoe Idealize.SL.Sem

theorem frame_k : Cert.frame_Kernel := fun m ρ _ => Cert.Kernel.HFrame.frame m ρ

theorem frame_ki : Cert.frame_KernelIdeal := fun m ρ _ => Cert.KernelIdeal.HFrame.frame m ρ

theorem frame_ri : Cert.frame_ReferenceIdeal := fun m ρ _ =>
  (θ_run Cert.ReferenceIdeal.defs _ _).mono (fun _ h c => (h c).2) (Cert.ReferenceIdeal.HRun.run (F := Ideal) m ρ)

/-- Under the precondition every point's batch word names one of the four batches. -/
theorem batch_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.batchInRange (m ((c.tc : Thread Cert.KernelIdeal.nD Cert.KernelIdeal.τ).loc Cert.KernelIdeal.main_arg0)) :=
  Cert.PreDecode.batch_of_pre _ _ (hpre c)

/-- The kernel program's run: its result buffer ends at G of its arguments, which it leaves unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v39)
            = Cert.Spec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run (Cert.KernelIdeal.defs (F := Ideal)) _ _).mono
    (fun r h c =>
      ⟨((h c).2 Cert.KernelIdeal.main_v39 (Pipeline.mem_restRefs_of Cert.KernelIdeal.main_v39 (by decide) (by decide))).trans
          (Cert.KernelIdeal.KValue.kernel_value m c (batch_of_pre m hpre c)),
        ((h c).2 Cert.KernelIdeal.main_arg0 (Pipeline.mem_restRefs_of Cert.KernelIdeal.main_arg0 (by decide) (by decide))).trans
          (Cert.KernelIdeal.HFrame.W_main_arg0 m (Cert.KernelIdeal.HFrame.dats m) c),
        ((h c).2 Cert.KernelIdeal.main_arg1 (Pipeline.mem_restRefs_of Cert.KernelIdeal.main_arg1 (by decide) (by decide))).trans
          (Cert.KernelIdeal.HFrame.W_main_arg1 m (Cert.KernelIdeal.HFrame.dats m) c)⟩)
    (Cert.KernelIdeal.HFrame.run_main m ρ)

theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ hpre, ?_⟩
  refine (θ_run (Cert.ReferenceIdeal.defs (F := Ideal)) _ _).mono (fun r h c => ⟨(h c).1.trans ?_, (h c).2⟩)
    (Cert.ReferenceIdeal.HRun.run (F := Ideal) m' ρ')
  rw [(hagree c).1, (hagree c).2]
  exact Cert.ReferenceIdeal.RefValue.refTerm_eq_G _ _ (batch_of_pre m hpre c)

end Cert.Proof.Claims

end
-- ==== Proof.lean ====
/-
  A masked scatter of 2,000,000 sparse points into a dense voxel grid: the kernel program against the reference.

  Each point carries four signed words (batch, x, y, z) and 16 feature channels. The result is the grid
  [4, 16, 128, 128, 128] whose entry (b, c, x, y, z) is the sum of channel c over the points whose words are
  exactly (b, x, y, z); points with a coordinate outside [0, 128) are pruned.

  The reference zeroes the features and the voxel coordinates of the pruned points and scatter-adds all points
  into the 5-axis grid by their (batch, x, y, z) words. The kernel program pads the points to a multiple of the
  block size with coordinate words -1, masks the features inside a pipelined region (8 points to a packed row,
  the mask computed from the packed coordinate words), computes b·128³ + x·128² + y·128 + z in 32-bit
  arithmetic from the masked words, scatter-adds the masked feature rows into a table of 4·128³ rows by that
  flat index, and reshapes. With every batch word in [0, 4) the flat index does not overflow and is injective
  on (b, x, y, z), the padded and the pruned points add zero, and both results are the same sum (Proof/Spec.lean:
  `G`). Proof/Claims.lean assembles the five claims from the modules that prove these steps.
-/
import proofs.«119750_j59777354826220_2_alg».proof.Defs
import proofs.«119750_j59777354826220_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
